-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S64x7 : Shape := ⟨2, ![64, 7]⟩
abbrev S3x128x128 : Shape := ⟨3, ![3, 128, 128]⟩
abbrev S3x128 : Shape := ⟨2, ![3, 128]⟩
abbrev S3x7x128 : Shape := ⟨3, ![3, 7, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x7 : S_.BroadcastsInDim S64x7 (![] : Fin 0 → Fin S64x7.rank)
  reducesTo_S64x7_S_d0_1 : S64x7.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x7x128 : S_.BroadcastsInDim S3x7x128 (![] : Fin 0 → Fin S3x7x128.rank)
  reducesTo_S3x7x128_S_d0_1_2 : S3x7x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg9 : FVec F S3x128 .f32) (main_v63 : IVec S_ 1) (main_v67 : IVec S_ 1) : IVec S_ 1 :=
  let main_v68 : IVec S_ 1 := andi main_v63 main_v67
  let main_cst_26 : FVec F S_ .f32 := constant S_ .f32 0x3727C5AC#32
  let main_v69 : FVec F S3x128 .f32 := broadcastInDim S3x128 ![] bcast_S_S3x128 main_cst_26
  let main_v70 : FVec F S3x128 .f32 := addf main_arg9 main_v69
  let main_cst_27 : FVec F S_ .f32 := constant S_ .f32 0x00000000#32
  let main_v71 : FVec F S3x128 .f32 := broadcastInDim S3x128 ![] bcast_S_S3x128 main_cst_27
  let main_v72 : IVec S3x128 1 := cmpf .ogt main_v70 main_v71
  let main_c_28 : IVec S_ 1 := constantI S_ 1 1#1
  let main_v73 : IVec S_ 1 := (fun x v => Host.reduce IntOp.andi x v reducesTo_S3x128_S_d0_1 h_S_) main_v72 main_c_28
  let main_v74 : IVec S_ 1 := andi main_v68 main_v73
  main_v74

def fn_part3 {F : FTy → Type} [FloatOps F] (main_arg9 : FVec F S3x128 .f32) (main_arg13 : FVec F S3x128 .f32) (main_arg14 : FVec F S128x128 .f32) (main_arg15 : FVec F S128 .f32) (main_v48 : IVec S_ 1) (main_v49 : FVec F S3x7x128 .f32) (main_v50 : FVec F S3x7x128 .f32) : IVec S_ 1 :=
  let main_v51 : IVec S3x7x128 1 := cmpf .olt main_v49 main_v50
  let main_c_19 : IVec S_ 1 := constantI S_ 1 1#1
  let main_v52 : IVec S_ 1 := (fun x v => Host.reduce IntOp.andi x v reducesTo_S3x7x128_S_d0_1_2 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg9 main_v63 main_v67

def fn_part2 {F : FTy → Type} [FloatOps F] (main_arg9 : FVec F S3x128 .f32) (main_arg10 : FVec F S3x128x128 .f32) (main_arg11 : FVec F S3x128 .f32) (main_arg12 : FVec F S3x7x128 .f32) (main_arg13 : FVec F S3x128 .f32) (main_arg14 : FVec F S128x128 .f32) (main_arg15 : FVec F S128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg10
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x7x128 .f32 := Host.absf main_arg12
  let main_cst_18 : FVec F S_ .f32 := constant S_ .f32 0x7F800000#32
  let main_v50 : FVec F S3x7x128 .f32 := broadcastInDim S3x7x128 ![] bcast_S_S3x7x128 main_cst_18
  fn_part3 (F := F) main_arg9 main_arg13 main_arg14 main_arg15 main_v48 main_v49 main_v50

def fn_part1 {F : FTy → Type} [FloatOps F] (main_arg6 : FVec F S3x128 .f32) (main_arg7 : FVec F S3x128 .f32) (main_arg8 : FVec F S3x128 .f32) (main_arg9 : FVec F S3x128 .f32) (main_arg10 : FVec F S3x128x128 .f32) (main_arg11 : FVec F S3x128 .f32) (main_arg12 : FVec F S3x7x128 .f32) (main_arg13 : FVec F S3x128 .f32) (main_arg14 : FVec F S128x128 .f32) (main_arg15 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S2x1600000 32) (main_arg2 : IVec S100000 32) (main_arg3 : FVec F S64x7 .f32) (main_arg4 : FVec F S3x128x128 .f32) (main_arg5 : FVec F S3x128 .f32) (main_arg6 : FVec F S3x128 .f32) (main_arg7 : FVec F S3x128 .f32) (main_arg8 : FVec F S3x128 .f32) (main_arg9 : FVec F S3x128 .f32) (main_arg10 : FVec F S3x128x128 .f32) (main_arg11 : FVec F S3x128 .f32) (main_arg12 : FVec F S3x7x128 .f32) (main_arg13 : FVec F S3x128 .f32) (main_arg14 : FVec F S128x128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x7 .f32 := Host.absf main_arg3
  let main_cst_0 : FVec F S_ .f32 := constant S_ .f32 0x7F800000#32
  let main_v5 : FVec F S64x7 .f32 := broadcastInDim S64x7 ![] bcast_S_S64x7 main_cst_0
  let main_v6 : IVec S64x7 1 := cmpf .olt main_v4 main_v5
  let main_c_1 : IVec S_ 1 := constantI S_ 1 1#1
  let main_v7 : IVec S_ 1 := (fun x v => Host.reduce IntOp.andi x v reducesTo_S64x7_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S64x7 : Shape := ⟨2, ![64, 7]⟩
abbrev S3x128x128 : Shape := ⟨3, ![3, 128, 128]⟩
abbrev S3x128 : Shape := ⟨2, ![3, 128]⟩
abbrev S3x7x128 : Shape := ⟨3, ![3, 7, 128]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S100000x7 : Shape := ⟨2, ![100000, 7]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S1x7x128 : Shape := ⟨3, ![1, 7, 128]⟩
abbrev S7x128 : Shape := ⟨2, ![7, 128]⟩
abbrev S5000x128 : Shape := ⟨2, ![5000, 128]⟩
abbrev S5000x7 : Shape := ⟨2, ![5000, 7]⟩

abbrev nBuf : Space → Nat
  | .hbm => 170
  | .vmem => 56
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S64x7, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S3x128, .f32⟩
  | 10 => ⟨S3x128x128, .f32⟩
  | 11 => ⟨S3x128, .f32⟩
  | 12 => ⟨S3x7x128, .f32⟩
  | 13 => ⟨S3x128, .f32⟩
  | 14 => ⟨S128x128, .f32⟩
  | 15 => ⟨S128, .f32⟩
  | 16 => ⟨S_, .f32⟩
  | 17 => ⟨S64x7, .i1⟩
  | 18 => ⟨S_, .f32⟩
  | 19 => ⟨S64x7, .f32⟩
  | 20 => ⟨S64x7, .f32⟩
  | 21 => ⟨S_, .f32⟩
  | 22 => ⟨S64x7, .f32⟩
  | 23 => ⟨S64x7, .i1⟩
  | 24 => ⟨S_, .f32⟩
  | 25 => ⟨S64x7, .f32⟩
  | 26 => ⟨S64x7, .f32⟩
  | 27 => ⟨S_, .f32⟩
  | 28 => ⟨S64x7, .f32⟩
  | 29 => ⟨S64x7, .i1⟩
  | 30 => ⟨S_, .f32⟩
  | 31 => ⟨S64x7, .f32⟩
  | 32 => ⟨S64x7, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x7, .f32⟩
  | 42 => ⟨S1x1600000, .i32⟩
  | 43 => ⟨S1600000, .i32⟩
  | 44 => ⟨S1x1600000, .i32⟩
  | 45 => ⟨S1600000, .i32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S1x128x128, .f32⟩
  | 60 => ⟨S128x128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S128, .f32⟩
  | 71 => ⟨S1x128x128, .f32⟩
  | 72 => ⟨S128x128, .f32⟩
  | 73 => ⟨S1x128, .f32⟩
  | 74 => ⟨S128, .f32⟩
  | 75 => ⟨S1x7x128, .f32⟩
  | 76 => ⟨S7x128, .f32⟩
  | 77 => ⟨S1x128, .f32⟩
  | 78 => ⟨S128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S100000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S1x128x128, .f32⟩
  | 101 => ⟨S128x128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128x128, .f32⟩
  | 113 => ⟨S128x128, .f32⟩
  | 114 => ⟨S1x128, .f32⟩
  | 115 => ⟨S128, .f32⟩
  | 116 => ⟨S1x7x128, .f32⟩
  | 117 => ⟨S7x128, .f32⟩
  | 118 => ⟨S1x128, .f32⟩
  | 119 => ⟨S128, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S100000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128x128, .f32⟩
  | 26 => ⟨S128x128, .f32⟩
  | 27 => ⟨S1x128, .f32⟩
  | 28 => ⟨S128, .f32⟩
  | 29 => ⟨S1x7x128, .f32⟩
  | 30 => ⟨S7x128, .f32⟩
  | 31 => ⟨S1x128, .f32⟩
  | 32 => ⟨S128, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S1x128, .f32⟩
  | 40 => ⟨S1x128, .f32⟩
  | 41 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x7, .f32⟩
  | .local _ .vmem, ⟨5, _⟩ => ⟨S5000x7, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S7x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x7, .f32⟩
  | .local _ .vmem, ⟨23, _⟩ => ⟨S5000x7, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S7x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x7, .f32⟩
  | .local _ .vmem, ⟨41, _⟩ => ⟨S5000x7, .f32⟩
  | .local _ .vmem, ⟨42, _⟩ => ⟨S128x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S7x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_call0_v0 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_call1_v0 : Ref sig .tc := ⟨.hbm, 25, rfl⟩
abbrev main_call0_v5 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_call0_cst_2 : Ref sig .tc := ⟨.hbm, 30, rfl⟩
abbrev main_call0_call2_v0 : Ref sig .tc := ⟨.hbm, 31, rfl⟩
abbrev main_v0 : Ref sig .tc := ⟨.hbm, 32, rfl⟩
abbrev main_c : Ref sig .tc := ⟨.hbm, 33, rfl⟩
abbrev main_v1 : Ref sig .tc := ⟨.hbm, 34, rfl⟩
abbrev main_v2 : Ref sig .tc := ⟨.hbm, 35, rfl⟩
abbrev main_c_0 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_c_1 : Ref sig .tc := ⟨.hbm, 46, rfl⟩
abbrev main_v12 : Ref sig .tc := ⟨.hbm, 47, rfl⟩
abbrev main_v13 : Ref sig .tc := ⟨.hbm, 48, rfl⟩
abbrev main_c_2 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_4 : Ref sig .tc := ⟨.hbm, 87, rfl⟩
abbrev main_v50 : Ref sig .tc := ⟨.hbm, 88, rfl⟩
abbrev main_v51 : Ref sig .tc := ⟨.hbm, 89, rfl⟩
abbrev main_c_5 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_6 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_7 : Ref sig .tc := ⟨.hbm, 128, rfl⟩
abbrev main_v88 : Ref sig .tc := ⟨.hbm, 129, rfl⟩
abbrev main_v89 : Ref sig .tc := ⟨.hbm, 130, rfl⟩
abbrev main_c_8 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_9 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg13_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg10_0 : Ref sig .tc := ⟨.vmem, 49, rfl⟩
abbrev cc2_stg11_0 : Ref sig .tc := ⟨.vmem, 50, rfl⟩
abbrev cc2_stg12_0 : Ref sig .tc := ⟨.vmem, 51, rfl⟩
abbrev cc2_stg13_0 : Ref sig .tc := ⟨.vmem, 52, rfl⟩
abbrev cc2_stg14_0 : Ref sig .tc := ⟨.vmem, 53, rfl⟩
abbrev cc2_stg15_0 : Ref sig .tc := ⟨.vmem, 54, rfl⟩
abbrev cc2_stg15_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem13_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem4_0 : DmaSem sig := 43
abbrev cc2_sem5_0 : DmaSem sig := 44
abbrev cc2_sem6_0 : DmaSem sig := 45
abbrev cc2_sem7_0 : DmaSem sig := 46
abbrev cc2_sem8_0 : DmaSem sig := 47
abbrev cc2_sem9_0 : DmaSem sig := 48
abbrev cc2_sem10_0 : DmaSem sig := 49
abbrev cc2_sem11_0 : DmaSem sig := 50
abbrev cc2_sem12_0 : DmaSem sig := 51
abbrev cc2_sem13_0 : DmaSem sig := 52
abbrev cc2_sem14_0 : DmaSem sig := 53
abbrev cc2_sem15_0 : DmaSem sig := 54
abbrev cc2_sem15_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S7x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S7x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S5000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S7x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S5000x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

class Facts₀ : Prop where
  bcast_S_S64x7 : S_.BroadcastsInDim S64x7 (![] : Fin 0 → Fin S64x7.rank)
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x7x128_S1x7x128_0_0_0 : S3x7x128.Slices ![0, 0, 0] S1x7x128
  shapeCasts_S1x7x128_S7x128 : S1x7x128.ShapeCasts S7x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x7_S5000x7_0_0 : ∀ a, (![0, 0] : Fin 2 → Nat) a + S5000x7.size a ≤ S5000x7.size a
  h_S5000x7 : 0 < S5000x7.numel
  shapeCasts_S5000x7_S5000x7 : S5000x7.ShapeCasts S5000x7
  inb_S7x128_S7x128_0_0 : ∀ a, (![0, 0] : Fin 2 → Nat) a + S7x128.size a ≤ S7x128.size a
  h_S7x128 : 0 < S7x128.numel
  shapeCasts_S7x128_S7x128 : S7x128.ShapeCasts S7x128
  slices_S3x128x128_S1x128x128_1_0_0 : S3x128x128.Slices ![1, 0, 0] S1x128x128
  slices_S3x128_S1x128_1_0 : S3x128.Slices ![1, 0] S1x128
  slices_S3x7x128_S1x7x128_1_0_0 : S3x7x128.Slices ![1, 0, 0] S1x7x128
  slices_S3x128x128_S1x128x128_2_0_0 : S3x128x128.Slices ![2, 0, 0] S1x128x128
  slices_S3x128_S1x128_2_0 : S3x128.Slices ![2, 0] S1x128
  slices_S3x7x128_S1x7x128_2_0_0 : S3x7x128.Slices ![2, 0, 0] S1x7x128
  gather_S64x7_S100000x1_S100000x7_1_0_n_n_0_1_17_wf : GatherDims.WF S64x7 S100000x1 S100000x7 [1] [0] [] [0] [] 1 ![1, 7]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x7_S7x128_S5000x128_1_0_0_1_n_n_wf : DotDims.WF S5000x7 S7x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x7.size a ≤ S100000x7.size a
  hwx0_2 : ∀ i : grid0.Coords, EltTy.bits .f32 = 32 ∨ (Rect.block (s := S100000x7) S5000x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S7x128.size a ≤ S7x128.size a
  hwx0_11 : ∀ i : grid0.Coords, EltTy.bits .f32 = 32 ∨ (Rect.block (s := S7x128) S7x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x128.size a ≤ S100000x128.size a
  hwx0_13 : ∀ i : grid0.Coords, EltTy.bits .f32 = 32 ∨ (Rect.block (s := S100000x128) S5000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S7x128.size a ≤ S7x128.size a
  hwx1_11 : ∀ i : grid1.Coords, EltTy.bits .f32 = 32 ∨ (Rect.block (s := S7x128) S7x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x128.size a ≤ S100000x128.size a
  hwx1_13 : ∀ i : grid1.Coords, EltTy.bits .f32 = 32 ∨ (Rect.block (s := S100000x128) S5000x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x7.size a ≤ S100000x7.size a
  hwx2_2 : ∀ i : grid2.Coords, EltTy.bits .f32 = 32 ∨ (Rect.block (s := S100000x7) S5000x7.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S7x128.size a ≤ S7x128.size a
  hwx2_11 : ∀ i : grid2.Coords, EltTy.bits .f32 = 32 ∨ (Rect.block (s := S7x128) S7x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S5000x128.size a ≤ S100000x128.size a
  hwx2_15 : ∀ i : grid2.Coords, EltTy.bits .f32 = 32 ∨ (Rect.block (s := S100000x128) S5000x128.size (cc2_transform_15 i) (hinb2_15 i)).WholeWords (EltTy.packing .f32)

variable [Facts₀]

def gather_S64x7_S100000x1_S100000x7_1_0_n_n_0_1_17 : GatherDims S64x7 S100000x1 S100000x7 where
  offsetDims := [1]
  collapsedSliceDims := [0]
  operandBatchingDims := []
  startIndicesBatchingDims := []
  startIndexMap := [0]
  indexVectorDim := 1
  sliceSizes := ![1, 7]
  wf := gather_S64x7_S100000x1_S100000x7_1_0_n_n_0_1_17_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x7_S7x128_S5000x128_1_0_0_1_n_n : DotDims S5000x7 S7x128 S5000x128 where
  lhsContracting := [1]
  rhsContracting := [0]
  lhsNonContracting := [0]
  rhsNonContracting := [1]
  lhsBatch := []
  rhsBatch := []
  wf := dot_S5000x7_S7x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v46) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v47) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39) S7x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v48) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v49) S5000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x7.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v61) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v80) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v81) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v82) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v83) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v84) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v73) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v85) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v77) S7x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v86) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v87) S5000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v87) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v97) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S5000x7.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v99) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v118) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v119) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v120) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v121) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v122) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v111) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v123) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v115) S7x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v124) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg14) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v125) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v126) S5000x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S64x7 : Shape := ⟨2, ![64, 7]⟩
abbrev S3x128x128 : Shape := ⟨3, ![3, 128, 128]⟩
abbrev S3x128 : Shape := ⟨2, ![3, 128]⟩
abbrev S3x7x128 : Shape := ⟨3, ![3, 7, 128]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S100000x7 : Shape := ⟨2, ![100000, 7]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S1x7x128 : Shape := ⟨3, ![1, 7, 128]⟩
abbrev S7x128 : Shape := ⟨2, ![7, 128]⟩

abbrev nBuf : Space → Nat
  | .hbm => 281
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S64x7, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S3x128, .f32⟩
  | 10 => ⟨S3x128x128, .f32⟩
  | 11 => ⟨S3x128, .f32⟩
  | 12 => ⟨S3x7x128, .f32⟩
  | 13 => ⟨S3x128, .f32⟩
  | 14 => ⟨S128x128, .f32⟩
  | 15 => ⟨S128, .f32⟩
  | 16 => ⟨S_, .f32⟩
  | 17 => ⟨S64x7, .i1⟩
  | 18 => ⟨S_, .f32⟩
  | 19 => ⟨S64x7, .f32⟩
  | 20 => ⟨S64x7, .f32⟩
  | 21 => ⟨S_, .f32⟩
  | 22 => ⟨S64x7, .f32⟩
  | 23 => ⟨S64x7, .i1⟩
  | 24 => ⟨S_, .f32⟩
  | 25 => ⟨S64x7, .f32⟩
  | 26 => ⟨S64x7, .f32⟩
  | 27 => ⟨S_, .f32⟩
  | 28 => ⟨S64x7, .f32⟩
  | 29 => ⟨S64x7, .i1⟩
  | 30 => ⟨S_, .f32⟩
  | 31 => ⟨S64x7, .f32⟩
  | 32 => ⟨S64x7, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x7, .f32⟩
  | 42 => ⟨S1x1600000, .i32⟩
  | 43 => ⟨S1600000, .i32⟩
  | 44 => ⟨S1x1600000, .i32⟩
  | 45 => ⟨S1600000, .i32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000x128, .f32⟩
  | 60 => ⟨S1x128x128, .f32⟩
  | 61 => ⟨S128x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S_, .f32⟩
  | 70 => ⟨S100000x128, .f32⟩
  | 71 => ⟨S100000x128, .i1⟩
  | 72 => ⟨S_, .f32⟩
  | 73 => ⟨S100000x128, .f32⟩
  | 74 => ⟨S100000x128, .f32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S128, .f32⟩
  | 83 => ⟨S1x128, .f32⟩
  | 84 => ⟨S128, .f32⟩
  | 85 => ⟨S_, .f32⟩
  | 86 => ⟨S128, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S1x128x128, .f32⟩
  | 99 => ⟨S128x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S_, .f32⟩
  | 108 => ⟨S100000x128, .f32⟩
  | 109 => ⟨S100000x128, .i1⟩
  | 110 => ⟨S_, .f32⟩
  | 111 => ⟨S100000x128, .f32⟩
  | 112 => ⟨S100000x128, .f32⟩
  | 113 => ⟨S100000x128, .f32⟩
  | 114 => ⟨S1x7x128, .f32⟩
  | 115 => ⟨S7x128, .f32⟩
  | 116 => ⟨S100000x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S100000x128, .f32⟩
  | 9 => ⟨S1x128x128, .f32⟩
  | 10 => ⟨S128x128, .f32⟩
  | 11 => ⟨S100000x128, .f32⟩
  | 12 => ⟨S1x128, .f32⟩
  | 13 => ⟨S128, .f32⟩
  | 14 => ⟨S1x128, .f32⟩
  | 15 => ⟨S100000x128, .f32⟩
  | 16 => ⟨S100000x128, .f32⟩
  | 17 => ⟨S_, .f32⟩
  | 18 => ⟨S_, .f32⟩
  | 19 => ⟨S100000x128, .f32⟩
  | 20 => ⟨S100000x128, .i1⟩
  | 21 => ⟨S_, .f32⟩
  | 22 => ⟨S100000x128, .f32⟩
  | 23 => ⟨S100000x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S128, .f32⟩
  | 32 => ⟨S1x128, .f32⟩
  | 33 => ⟨S128, .f32⟩
  | 34 => ⟨S_, .f32⟩
  | 35 => ⟨S128, .f32⟩
  | 36 => ⟨S128, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S128, .f32⟩
  | 44 => ⟨S1x128, .f32⟩
  | 45 => ⟨S100000x128, .f32⟩
  | 46 => ⟨S100000x128, .f32⟩
  | 47 => ⟨S1x128x128, .f32⟩
  | 48 => ⟨S128x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S_, .f32⟩
  | 56 => ⟨S_, .f32⟩
  | 57 => ⟨S100000x128, .f32⟩
  | 58 => ⟨S100000x128, .i1⟩
  | 59 => ⟨S_, .f32⟩
  | 60 => ⟨S100000x128, .f32⟩
  | 61 => ⟨S100000x128, .f32⟩
  | 62 => ⟨S100000x128, .f32⟩
  | 63 => ⟨S1x7x128, .f32⟩
  | 64 => ⟨S7x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S100000x128, .f32⟩
  | 86 => ⟨S1x128x128, .f32⟩
  | 87 => ⟨S128x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S_, .f32⟩
  | 96 => ⟨S100000x128, .f32⟩
  | 97 => ⟨S100000x128, .i1⟩
  | 98 => ⟨S_, .f32⟩
  | 99 => ⟨S100000x128, .f32⟩
  | 100 => ⟨S100000x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S128, .f32⟩
  | 109 => ⟨S1x128, .f32⟩
  | 110 => ⟨S128, .f32⟩
  | 111 => ⟨S_, .f32⟩
  | 112 => ⟨S128, .f32⟩
  | 113 => ⟨S128, .f32⟩
  | 114 => ⟨S128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S128, .f32⟩
  | 121 => ⟨S1x128, .f32⟩
  | 122 => ⟨S100000x128, .f32⟩
  | 123 => ⟨S100000x128, .f32⟩
  | 124 => ⟨S1x128x128, .f32⟩
  | 125 => ⟨S128x128, .f32⟩
  | 126 => ⟨S100000x128, .f32⟩
  | 127 => ⟨S1x128, .f32⟩
  | _ => ⟨S100000x128, .f32⟩

abbrev hbmTy0_2 (i : Nat) : BufTy := match i % 128 with
  | 0 => ⟨S128, .f32⟩
  | 1 => ⟨S1x128, .f32⟩
  | 2 => ⟨S100000x128, .f32⟩
  | 3 => ⟨S100000x128, .f32⟩
  | 4 => ⟨S_, .f32⟩
  | 5 => ⟨S_, .f32⟩
  | 6 => ⟨S100000x128, .f32⟩
  | 7 => ⟨S100000x128, .i1⟩
  | 8 => ⟨S_, .f32⟩
  | 9 => ⟨S100000x128, .f32⟩
  | 10 => ⟨S100000x128, .f32⟩
  | 11 => ⟨S100000x128, .f32⟩
  | 12 => ⟨S1x7x128, .f32⟩
  | 13 => ⟨S7x128, .f32⟩
  | 14 => ⟨S100000x128, .f32⟩
  | 15 => ⟨S100000x128, .f32⟩
  | 16 => ⟨S1x128, .f32⟩
  | 17 => ⟨S128, .f32⟩
  | 18 => ⟨S1x128, .f32⟩
  | 19 => ⟨S100000x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_call0_v0 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_call1_v0 : Ref sig .tc := ⟨.hbm, 25, rfl⟩
abbrev main_call0_v5 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_call0_cst_2 : Ref sig .tc := ⟨.hbm, 30, rfl⟩
abbrev main_call0_call2_v0 : Ref sig .tc := ⟨.hbm, 31, rfl⟩
abbrev main_v0 : Ref sig .tc := ⟨.hbm, 32, rfl⟩
abbrev main_c : Ref sig .tc := ⟨.hbm, 33, rfl⟩
abbrev main_v1 : Ref sig .tc := ⟨.hbm, 34, rfl⟩
abbrev main_v2 : Ref sig .tc := ⟨.hbm, 35, rfl⟩
abbrev main_c_0 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_c_1 : Ref sig .tc := ⟨.hbm, 46, rfl⟩
abbrev main_v12 : Ref sig .tc := ⟨.hbm, 47, rfl⟩
abbrev main_v13 : Ref sig .tc := ⟨.hbm, 48, rfl⟩
abbrev main_c_2 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_4 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_5 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_6 : Ref sig .tc := ⟨.hbm, 106, rfl⟩
abbrev main_call2_cst : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_c_7 : Ref sig .tc := ⟨.hbm, 123, rfl⟩
abbrev main_v71 : Ref sig .tc := ⟨.hbm, 124, rfl⟩
abbrev main_v72 : Ref sig .tc := ⟨.hbm, 125, rfl⟩
abbrev main_c_8 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_9 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_10 : Ref sig .tc := ⟨.hbm, 145, rfl⟩
abbrev main_call3_cst : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_11 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_cst_12 : Ref sig .tc := ⟨.hbm, 183, rfl⟩
abbrev main_call4_cst : Ref sig .tc := ⟨.hbm, 184, rfl⟩
abbrev main_call4_v0 : Ref sig .tc := ⟨.hbm, 185, rfl⟩
abbrev main_call4_v1 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_c_13 : Ref sig .tc := ⟨.hbm, 200, rfl⟩
abbrev main_v130 : Ref sig .tc := ⟨.hbm, 201, rfl⟩
abbrev main_v131 : Ref sig .tc := ⟨.hbm, 202, rfl⟩
abbrev main_c_14 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_cst_15 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_cst_16 : Ref sig .tc := ⟨.hbm, 222, rfl⟩
abbrev main_call5_cst : Ref sig .tc := ⟨.hbm, 223, rfl⟩
abbrev main_call5_v0 : Ref sig .tc := ⟨.hbm, 224, rfl⟩
abbrev main_call5_v1 : Ref sig .tc := ⟨.hbm, 225, rfl⟩
abbrev main_call5_v2 : Ref sig .tc := ⟨.hbm, 226, rfl⟩
abbrev main_call5_v3 : Ref sig .tc := ⟨.hbm, 227, rfl⟩
abbrev main_call5_v4 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_cst_17 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_cst_18 : Ref sig .tc := ⟨.hbm, 260, rfl⟩
abbrev main_call6_cst : Ref sig .tc := ⟨.hbm, 261, rfl⟩
abbrev main_call6_v0 : Ref sig .tc := ⟨.hbm, 262, rfl⟩
abbrev main_call6_v1 : Ref sig .tc := ⟨.hbm, 263, rfl⟩
abbrev main_call6_v2 : Ref sig .tc := ⟨.hbm, 264, rfl⟩
abbrev main_call6_v3 : Ref sig .tc := ⟨.hbm, 265, rfl⟩
abbrev main_call6_v4 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩

abbrev nD : Nat := 1
abbrev τ : Topo := Topo.v7x

variable {F : FTy → Type} [FloatOps F]

class Facts₀ : Prop where
  bcast_S_S64x7 : S_.BroadcastsInDim S64x7 (![] : Fin 0 → Fin S64x7.rank)
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x7x128_S1x7x128_0_0_0 : S3x7x128.Slices ![0, 0, 0] S1x7x128
  shapeCasts_S1x7x128_S7x128 : S1x7x128.ShapeCasts S7x128
  slices_S3x128x128_S1x128x128_1_0_0 : S3x128x128.Slices ![1, 0, 0] S1x128x128
  slices_S3x128_S1x128_1_0 : S3x128.Slices ![1, 0] S1x128
  slices_S3x7x128_S1x7x128_1_0_0 : S3x7x128.Slices ![1, 0, 0] S1x7x128
  slices_S3x128x128_S1x128x128_2_0_0 : S3x128x128.Slices ![2, 0, 0] S1x128x128
  slices_S3x128_S1x128_2_0 : S3x128.Slices ![2, 0] S1x128
  slices_S3x7x128_S1x7x128_2_0_0 : S3x7x128.Slices ![2, 0, 0] S1x7x128
  gather_S64x7_S100000x1_S100000x7_1_0_n_n_0_1_17_wf : GatherDims.WF S64x7 S100000x1 S100000x7 [1] [0] [] [0] [] 1 ![1, 7]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x7_S7x128_S100000x128_1_0_0_1_n_n_wf : DotDims.WF S100000x7 S7x128 S100000x128 [1] [0] [0] [1] [] []

variable [Facts₀]

def gather_S64x7_S100000x1_S100000x7_1_0_n_n_0_1_17 : GatherDims S64x7 S100000x1 S100000x7 where
  offsetDims := [1]
  collapsedSliceDims := [0]
  operandBatchingDims := []
  startIndicesBatchingDims := []
  startIndexMap := [0]
  indexVectorDim := 1
  sliceSizes := ![1, 7]
  wf := gather_S64x7_S100000x1_S100000x7_1_0_n_n_0_1_17_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x7_S7x128_S100000x128_1_0_0_1_n_n : DotDims S100000x7 S7x128 S100000x128 where
  lhsContracting := [1]
  rhsContracting := [0]
  lhsNonContracting := [0]
  rhsNonContracting := [1]
  lhsBatch := []
  rhsBatch := []
  wf := dot_S100000x7_S7x128_S100000x128_1_0_0_1_n_n_wf

class Facts : Prop extends Facts₀ where

variable [Facts]
-- ==== Proof.KRun.lean ====
/-
  The kernel program's run with its result named.

  Every weakly fair execution of the program terminates without a fault; in the final state the result buffer holds
  what the last region's write-backs leave in it — the contents `Gen.W8` of the last segment boundary at that buffer —
  and every argument array is as launched. The argument is the frame's: the launch over the program's eight segments
  (host stretches and the three regions), the last thread state read against the final memory; here the result buffer
  is read as well as the arguments.
-/
import proofs.«144638_j87729001988302_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v126) = W8 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v126 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.RunValue

end
-- ==== Proof.Spec.lean ====
/-
  The dense part of one graph-isomorphism layer, one node (one row) at a time, over the extended reals.

  For a node with feature row `h`, aggregated neighbour row `a` and conditioning row `s`, and the layer's
  parameters, the layer computes

    u   = lrelu ((h + a) · W1 + b1)
    n   = (u - mean) * scale + beta                  (the evaluated batch normalisation)
    v   = lrelu (n · W2 + b2)
    out = v + (s · SW + sb)

  where `lrelu x` is `x` for `x ≥ 0` and `0.2 · x` otherwise. The two programs differ in two places only: the
  normalisation's scale is `gamma * rsqrt (var + eps)` in one and `gamma / sqrt (var + eps)` in the other, and the last
  sum is grouped `v + (s · SW + sb)` in one and `(v + s · SW) + sb` in the other. On the extended reals the two scales
  agree wherever `var + eps > 0` (for every `gamma`, finite or not), and addition is associative, so the two rows are
  one function there. The last layer is followed by the output projection `out · fcW + fcB`.
-/
import Idealize.ShloMosaic.PureOps.Ideal.Laws
import Idealize.ShloMosaic.Lib.ValueIdx

noncomputable section

namespace Cert.Gin

open Idealize.ShloMosaic
open scoped BigOperators

/-- The word of `0.0`, of the slope `0.2` and of `eps = 1e-5`, read as extended reals (never evaluated: both programs
    carry the same words). -/
abbrev zeroW : EReal := Ideal.ofBits .f32 0x00000000#32
abbrev slope : EReal := Ideal.ofBits .f32 0x3E4CCCCD#32
abbrev eps : EReal := Ideal.ofBits .f32 0x3727C5AC#32

/-- The leaky rectifier: `x` where `x ≥ 0`, `slope · x` elsewhere. -/
def lrelu (x : EReal) : EReal :=
  Scalar.select (FloatOps.cmpf (F := Ideal) (φ := .f32) .oge x zeroW) x (slope * x)

/-- One layer's parameters, entry by entry. -/
structure Params where
  w1 : Fin 128 → Fin 128 → EReal
  b1 : Fin 128 → EReal
  g : Fin 128 → EReal
  be : Fin 128 → EReal
  mu : Fin 128 → EReal
  va : Fin 128 → EReal
  w2 : Fin 128 → Fin 128 → EReal
  b2 : Fin 128 → EReal
  sw : Fin 7 → Fin 128 → EReal
  sb : Fin 128 → EReal

/-- The first linear map and rectifier. -/
def pre1 (P : Params) (h a : Fin 128 → EReal) (c : Fin 128) : EReal :=
  lrelu ((∑ k : Fin 128, (h k + a k) * P.w1 k c) + P.b1 c)

/-- The normalisation's scale as a product with the reciprocal square root. -/
def scaleK (P : Params) (c : Fin 128) : EReal := P.g c * Ideal.rsqrt (P.va c + eps)
/-- The normalisation's scale as a quotient by the square root. -/
def scaleR (P : Params) (c : Fin 128) : EReal := Ideal.div (P.g c) (Ideal.sqrt (P.va c + eps))

def normK (P : Params) (h a : Fin 128 → EReal) (c : Fin 128) : EReal := (pre1 P h a c - P.mu c) * scaleK P c + P.be c
def normR (P : Params) (h a : Fin 128 → EReal) (c : Fin 128) : EReal := (pre1 P h a c - P.mu c) * scaleR P c + P.be c

def post2K (P : Params) (h a : Fin 128 → EReal) (c : Fin 128) : EReal :=
  lrelu ((∑ k : Fin 128, normK P h a k * P.w2 k c) + P.b2 c)
def post2R (P : Params) (h a : Fin 128 → EReal) (c : Fin 128) : EReal :=
  lrelu ((∑ k : Fin 128, normR P h a k * P.w2 k c) + P.b2 c)

/-- The layer's row with the conditioning term added as one summand. -/
def rowK (P : Params) (h a : Fin 128 → EReal) (s : Fin 7 → EReal) (c : Fin 128) : EReal :=
  post2K P h a c + ((∑ j : Fin 7, s j * P.sw j c) + P.sb c)
/-- The layer's row with the conditioning product and its bias added one after the other. -/
def rowR (P : Params) (h a : Fin 128 → EReal) (s : Fin 7 → EReal) (c : Fin 128) : EReal :=
  (post2R P h a c + ∑ j : Fin 7, s j * P.sw j c) + P.sb c

/-- The output projection of a row. -/
def fcRow (w : Fin 128 → Fin 128 → EReal) (b : Fin 128 → EReal) (x : Fin 128 → EReal) (c : Fin 128) : EReal :=
  (∑ k : Fin 128, x k * w k c) + b c

/-- `g * rsqrt y = g / sqrt y` for every `g` once `y > 0`: at a positive real both are `g · (√y)⁻¹`, at `+∞` both are `0`. -/
theorem mul_rsqrt_eq_div_sqrt (g y : EReal) (hy : 0 < y) : g * Ideal.rsqrt y = Ideal.div g (Ideal.sqrt y) := by
  induction y using EReal.rec with
  | bot => exact absurd hy (by simp)
  | top =>
    rw [Ideal.rsqrt_top, Ideal.sqrt_top]
    unfold Ideal.div
    rw [if_neg (by simp), EReal.inv_top]
  | coe r =>
    have hr : 0 < r := by exact_mod_cast hy
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

theorem scaleK_eq_scaleR (P : Params) (c : Fin 128) (h : 0 < P.va c + eps) : scaleK P c = scaleR P c :=
  mul_rsqrt_eq_div_sqrt _ _ h

/-- Where every `var + eps` is positive the two arrangements of the row are one function. -/
theorem rowK_eq_rowR (P : Params) (hpos : ∀ c, 0 < P.va c + eps) : rowK P = rowR P := by
  have hn : normK P = normR P := by
    funext h a c
    unfold normK normR
    rw [scaleK_eq_scaleR P c (hpos c)]
  funext h a s c
  unfold rowK rowR post2K post2R
  rw [hn, add_assoc]

end Cert.Gin

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.KBody.lean ====
/-
  The kernel's body, read at one entry of its output block.

  Each of the three layer kernels loads its whole input blocks, applies one fixed tree of array operations and stores
  the result as its whole output block. The tree is written here once as a function of the blocks (`bodyV`); each
  kernel's output block is shown to be that function of its input blocks (the reshapes to the same shape are the
  identity), and the function is read at an entry `(p, q)`: a matrix product into a zero array is the sum over the
  contracted coordinate, a row spread over the block's rows reads the row, and every other operation acts entry by
  entry. The entry is the specification's row function `rowK` of row `p` of the input blocks at column `q`; the last
  kernel follows it by the output projection `fcRow`.
-/
import proofs.«144638_j87729001988302_1_alg».proof.Proof.Gen.KernelIdeal.Frame
import proofs.«144638_j87729001988302_1_alg».proof.Proof.Spec
import proofs.«144638_j87729001988302_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen
open scoped BigOperators

/-- One layer's parameters read off the parameter blocks: a matrix entry by entry, a one-row block by its row. -/
def blockParams (x3 : Vec Ideal S128x128 .f32) (x4 x5 x6 x7 x8 : Vec Ideal S1x128 .f32) (x9 : Vec Ideal S128x128 .f32)
    (x10 : Vec Ideal S1x128 .f32) (x11 : Vec Ideal S7x128 .f32) (x12 : Vec Ideal S1x128 .f32) : Cert.Gin.Params where
  w1 := fun k c => x3 (ix2 k c)
  b1 := fun c => x4 (ix2 (0 : Fin 1) c)
  g := fun c => x5 (ix2 (0 : Fin 1) c)
  be := fun c => x6 (ix2 (0 : Fin 1) c)
  mu := fun c => x7 (ix2 (0 : Fin 1) c)
  va := fun c => x8 (ix2 (0 : Fin 1) c)
  w2 := fun k c => x9 (ix2 k c)
  b2 := fun c => x10 (ix2 (0 : Fin 1) c)
  sw := fun j c => x11 (ix2 j c)
  sb := fun c => x12 (ix2 (0 : Fin 1) c)

/-! ## The body as one function of the blocks -/

/-- The two products' dimension numbers are the plain ones: rows by contraction times contraction by columns. -/
theorem dot128_eq : dot_S5000x128_S128x128_S5000x128_1_0_0_1_n_n = DotDims.plain 5000 128 128 := rfl
theorem dot7_eq : dot_S5000x7_S7x128_S5000x128_1_0_0_1_n_n = DotDims.plain 5000 7 128 := rfl

/-- The leaky rectifier on a block: keep an entry that is at least `0`, else multiply it by the slope. -/
def lreluV (Y : FVec Ideal S5000x128 .f32) : FVec Ideal S5000x128 .f32 :=
  select (cmpf .oge Y (broadcast S5000x128 (Scalar.ofBits .f32 0x00000000#32 : Ideal .f32))) Y
    (mulf (broadcast S5000x128 (Scalar.ofBits .f32 0x3E4CCCCD#32 : Ideal .f32)) Y)

/-- A block times a `128 × 128` matrix, plus a row spread over the rows. -/
def affine128V (X : FVec Ideal S5000x128 .f32) (W : FVec Ideal S128x128 .f32) (b : FVec Ideal S1x128 .f32) :
    FVec Ideal S5000x128 .f32 :=
  addf (matmul dot_S5000x128_S128x128_S5000x128_1_0_0_1_n_n none X W (constant S5000x128 .f32 0x00000000#32))
    (broadcastTo S5000x128 b broadcasts_S1x128_S5000x128)

/-- The conditioning block times its `7 × 128` matrix, plus a row spread over the rows. -/
def affine7V (X : FVec Ideal S5000x7 .f32) (W : FVec Ideal S7x128 .f32) (b : FVec Ideal S1x128 .f32) :
    FVec Ideal S5000x128 .f32 :=
  addf (matmul dot_S5000x7_S7x128_S5000x128_1_0_0_1_n_n none X W (constant S5000x128 .f32 0x00000000#32))
    (broadcastTo S5000x128 b broadcasts_S1x128_S5000x128)

/-- The normalisation's scale row: `gamma * rsqrt (var + eps)`. -/
def scaleV (g va : FVec Ideal S1x128 .f32) : FVec Ideal S1x128 .f32 :=
  mulf g (rsqrt (addf va (broadcast S1x128 (Scalar.ofBits .f32 0x3727C5AC#32 : Ideal .f32))))

/-- The first linear map and rectifier, centred by the mean row. -/
def centredV (x0 x1 : FVec Ideal S5000x128 .f32) (x3 : FVec Ideal S128x128 .f32) (x4 x7 : FVec Ideal S1x128 .f32) :
    FVec Ideal S5000x128 .f32 :=
  subf (lreluV (affine128V (addf x0 x1) x3 x4)) (broadcastTo S5000x128 x7 broadcasts_S1x128_S5000x128)

/-- The normalised block: the centred block times the scale row plus the shift row. -/
def normV (x0 x1 : FVec Ideal S5000x128 .f32) (x3 : FVec Ideal S128x128 .f32) (x4 x5 x6 x7 x8 : FVec Ideal S1x128 .f32) :
    FVec Ideal S5000x128 .f32 :=
  addf (mulf (centredV x0 x1 x3 x4 x7) (broadcastTo S5000x128 (scaleV x5 x8) broadcasts_S1x128_S5000x128))
    (broadcastTo S5000x128 x6 broadcasts_S1x128_S5000x128)

/-- A layer's output block from its input blocks. -/
def bodyV (x0 x1 : FVec Ideal S5000x128 .f32) (x2 : FVec Ideal S5000x7 .f32) (x3 : FVec Ideal S128x128 .f32)
    (x4 x5 x6 x7 x8 : FVec Ideal S1x128 .f32) (x9 : FVec Ideal S128x128 .f32) (x10 : FVec Ideal S1x128 .f32)
    (x11 : FVec Ideal S7x128 .f32) (x12 : FVec Ideal S1x128 .f32) : FVec Ideal S5000x128 .f32 :=
  addf (lreluV (affine128V (normV x0 x1 x3 x4 x5 x6 x7 x8) x9 x10)) (affine7V x2 x11 x12)

/-! ## The pieces at an entry -/

theorem lreluV_apply (Y : FVec Ideal S5000x128 .f32) (p : Fin 5000) (c : Fin 128) :
    lreluV Y (ix2 p c) = Cert.Gin.lrelu (Y (ix2 p c)) := rfl

theorem affine128V_apply (X : FVec Ideal S5000x128 .f32) (W : FVec Ideal S128x128 .f32) (b : FVec Ideal S1x128 .f32)
    (p : Fin 5000) (c : Fin 128) :
    affine128V X W b (ix2 p c) = (∑ k : Fin 128, X (ix2 p k) * W (ix2 k c)) + b (ix2 (0 : Fin 1) c) := by
  unfold affine128V
  refine (addf_apply _ _ _).trans ?_
  refine congrArg₂ (· + ·) ?_ (broadcastTo_1b_ab_apply b _ p c)
  rw [dot128_eq]
  exact Cert.LibPlainMatmul.matmul_zero_apply 5000 128 128 none X W p c

theorem affine7V_apply (X : FVec Ideal S5000x7 .f32) (W : FVec Ideal S7x128 .f32) (b : FVec Ideal S1x128 .f32)
    (p : Fin 5000) (c : Fin 128) :
    affine7V X W b (ix2 p c) = (∑ j : Fin 7, X (ix2 p j) * W (ix2 j c)) + b (ix2 (0 : Fin 1) c) := by
  unfold affine7V
  refine (addf_apply _ _ _).trans ?_
  refine congrArg₂ (· + ·) ?_ (broadcastTo_1b_ab_apply b _ p c)
  rw [dot7_eq]
  exact Cert.LibPlainMatmul.matmul_zero_apply 5000 7 128 none X W p c

theorem scaleV_apply (g va : FVec Ideal S1x128 .f32) (c : Fin 128) :
    scaleV g va (ix2 (0 : Fin 1) c)
      = g (ix2 (0 : Fin 1) c) * Ideal.rsqrt (va (ix2 (0 : Fin 1) c) + Cert.Gin.eps) := rfl

section Entry

variable (x0 x1 : Vec Ideal S5000x128 .f32) (x2 : Vec Ideal S5000x7 .f32) (x3 : Vec Ideal S128x128 .f32)
  (x4 x5 x6 x7 x8 : Vec Ideal S1x128 .f32) (x9 : Vec Ideal S128x128 .f32) (x10 : Vec Ideal S1x128 .f32)
  (x11 : Vec Ideal S7x128 .f32) (x12 : Vec Ideal S1x128 .f32) (p : Fin 5000)

/-- The first linear map and rectifier at `(p, c)`. -/
theorem pre1V_apply (c : Fin 128) :
    lreluV (affine128V (addf x0 x1) x3 x4) (ix2 p c)
      = Cert.Gin.pre1 (blockParams x3 x4 x5 x6 x7 x8 x9 x10 x11 x12) (fun k => x0 (ix2 p k)) (fun k => x1 (ix2 p k)) c := by
  rw [lreluV_apply, affine128V_apply]
  rfl

/-- The normalised block at `(p, c)`. -/
theorem normV_apply (c : Fin 128) :
    normV x0 x1 x3 x4 x5 x6 x7 x8 (ix2 p c)
      = Cert.Gin.normK (blockParams x3 x4 x5 x6 x7 x8 x9 x10 x11 x12) (fun k => x0 (ix2 p k)) (fun k => x1 (ix2 p k)) c := by
  unfold normV centredV Cert.Gin.normK
  refine (addf_apply _ _ _).trans ?_
  refine congrArg₂ (· + ·) ?_ (broadcastTo_1b_ab_apply x6 _ p c)
  refine (mulf_apply _ _ _).trans ?_
  refine congrArg₂ (· * ·) ?_ ((broadcastTo_1b_ab_apply _ _ p c).trans (scaleV_apply x5 x8 c))
  refine (subf_apply _ _ _).trans ?_
  exact congrArg₂ (· - ·) (pre1V_apply x0 x1 x3 x4 x5 x6 x7 x8 x9 x10 x11 x12 p c) (broadcastTo_1b_ab_apply x7 _ p c)

/-- A layer's output block at `(p, q)` is the specification's row function of row `p`. -/
theorem bodyV_apply (q : Fin 128) :
    bodyV x0 x1 x2 x3 x4 x5 x6 x7 x8 x9 x10 x11 x12 (ix2 p q)
      = Cert.Gin.rowK (blockParams x3 x4 x5 x6 x7 x8 x9 x10 x11 x12) (fun k => x0 (ix2 p k)) (fun k => x1 (ix2 p k))
          (fun j => x2 (ix2 p j)) q := by
  unfold bodyV Cert.Gin.rowK Cert.Gin.post2K
  refine (addf_apply _ _ _).trans ?_
  refine congrArg₂ (· + ·) ?_ (affine7V_apply x2 x11 x12 p q)
  rw [lreluV_apply, affine128V_apply]
  refine congrArg Cert.Gin.lrelu (congrArg₂ (· + ·) (Finset.sum_congr rfl fun k _ => ?_) rfl)
  exact congrArg (· * x9 (ix2 k q)) (normV_apply x0 x1 x3 x4 x5 x6 x7 x8 x9 x10 x11 x12 p k)

end Entry

/-! ## Each kernel's output block is the body of its input blocks -/

/-- The whole-block rectangles sit at the zero offsets. -/
theorem hz : (![0, 0] : Fin 2 → Nat) = fun _ => 0 := funext fun a => by fin_cases a <;> rfl

/-- The output projection on a block: the block times the `128 × 128` matrix plus the bias row. -/
def fcV (Y : FVec Ideal S5000x128 .f32) (w : FVec Ideal S128x128 .f32) (b : FVec Ideal S1x128 .f32) :
    FVec Ideal S5000x128 .f32 := affine128V Y w b

theorem out0_13_eq (x0 x1 : Vec Ideal S5000x128 .f32) (x2 : Vec Ideal S5000x7 .f32) (x3 : Vec Ideal S128x128 .f32)
    (x4 x5 x6 x7 x8 : Vec Ideal S1x128 .f32) (x9 : Vec Ideal S128x128 .f32) (x10 : Vec Ideal S1x128 .f32)
    (x11 : Vec Ideal S7x128 .f32) (x12 : Vec Ideal S1x128 .f32) :
    Gen.out0_13 (F := Ideal) x0 x1 x2 x3 x4 x5 x6 x7 x8 x9 x10 x11 x12 = bodyV x0 x1 x2 x3 x4 x5 x6 x7 x8 x9 x10 x11 x12 := by
  unfold Gen.out0_13
  rw [View.canon_unit_zero hz]
  simp only [View.ld_unit_zero (S := S5000x128) hz, View.ld_unit_zero (S := S128x128) hz, View.ld_unit_zero (S := S1x128) hz,
    View.ld_unit_zero (S := S5000x7) hz, View.ld_unit_zero (S := S7x128) hz]
  unfold k0_pay1 k0_pay2 k0_pay3 k0_pay4 k0_pay5 k0_pay6
  simp only [shapeCast_self]
  rfl

theorem out1_13_eq (x0 x1 : Vec Ideal S5000x128 .f32) (x2 : Vec Ideal S5000x7 .f32) (x3 : Vec Ideal S128x128 .f32)
    (x4 x5 x6 x7 x8 : Vec Ideal S1x128 .f32) (x9 : Vec Ideal S128x128 .f32) (x10 : Vec Ideal S1x128 .f32)
    (x11 : Vec Ideal S7x128 .f32) (x12 : Vec Ideal S1x128 .f32) :
    Gen.out1_13 (F := Ideal) x0 x1 x2 x3 x4 x5 x6 x7 x8 x9 x10 x11 x12 = bodyV x0 x1 x2 x3 x4 x5 x6 x7 x8 x9 x10 x11 x12 := by
  unfold Gen.out1_13
  rw [View.canon_unit_zero hz]
  simp only [View.ld_unit_zero (S := S5000x128) hz, View.ld_unit_zero (S := S128x128) hz, View.ld_unit_zero (S := S1x128) hz,
    View.ld_unit_zero (S := S5000x7) hz, View.ld_unit_zero (S := S7x128) hz]
  unfold k1_pay1 k1_pay2 k1_pay3 k1_pay4 k1_pay5 k1_pay6
  simp only [shapeCast_self]
  rfl

theorem out2_15_eq (x0 x1 : Vec Ideal S5000x128 .f32) (x2 : Vec Ideal S5000x7 .f32) (x3 : Vec Ideal S128x128 .f32)
    (x4 x5 x6 x7 x8 : Vec Ideal S1x128 .f32) (x9 : Vec Ideal S128x128 .f32) (x10 : Vec Ideal S1x128 .f32)
    (x11 : Vec Ideal S7x128 .f32) (x12 : Vec Ideal S1x128 .f32)
    (x13 : Vec Ideal S128x128 .f32) (x14 : Vec Ideal S1x128 .f32) :
    Gen.out2_15 (F := Ideal) x0 x1 x2 x3 x4 x5 x6 x7 x8 x9 x10 x11 x12 x13 x14 = fcV (bodyV x0 x1 x2 x3 x4 x5 x6 x7 x8 x9 x10 x11 x12) x13 x14 := by
  unfold Gen.out2_15
  rw [View.canon_unit_zero hz]
  simp only [View.ld_unit_zero (S := S5000x128) hz, View.ld_unit_zero (S := S128x128) hz, View.ld_unit_zero (S := S1x128) hz,
    View.ld_unit_zero (S := S5000x7) hz, View.ld_unit_zero (S := S7x128) hz]
  unfold k2_pay1 k2_pay2 k2_pay3 k2_pay4 k2_pay5 k2_pay6
  simp only [shapeCast_self]
  rfl

/-! ## The three output blocks at an entry -/

theorem out0_13_apply (x0 x1 : Vec Ideal S5000x128 .f32) (x2 : Vec Ideal S5000x7 .f32) (x3 : Vec Ideal S128x128 .f32)
    (x4 x5 x6 x7 x8 : Vec Ideal S1x128 .f32) (x9 : Vec Ideal S128x128 .f32) (x10 : Vec Ideal S1x128 .f32)
    (x11 : Vec Ideal S7x128 .f32) (x12 : Vec Ideal S1x128 .f32) (p : Fin 5000) (q : Fin 128) :
    Gen.out0_13 (F := Ideal) x0 x1 x2 x3 x4 x5 x6 x7 x8 x9 x10 x11 x12 (ix2 p q)
      = Cert.Gin.rowK (blockParams x3 x4 x5 x6 x7 x8 x9 x10 x11 x12) (fun k => x0 (ix2 p k)) (fun k => x1 (ix2 p k))
          (fun j => x2 (ix2 p j)) q := by
  rw [out0_13_eq]
  exact bodyV_apply x0 x1 x2 x3 x4 x5 x6 x7 x8 x9 x10 x11 x12 p q

theorem out1_13_apply (x0 x1 : Vec Ideal S5000x128 .f32) (x2 : Vec Ideal S5000x7 .f32) (x3 : Vec Ideal S128x128 .f32)
    (x4 x5 x6 x7 x8 : Vec Ideal S1x128 .f32) (x9 : Vec Ideal S128x128 .f32) (x10 : Vec Ideal S1x128 .f32)
    (x11 : Vec Ideal S7x128 .f32) (x12 : Vec Ideal S1x128 .f32) (p : Fin 5000) (q : Fin 128) :
    Gen.out1_13 (F := Ideal) x0 x1 x2 x3 x4 x5 x6 x7 x8 x9 x10 x11 x12 (ix2 p q)
      = Cert.Gin.rowK (blockParams x3 x4 x5 x6 x7 x8 x9 x10 x11 x12) (fun k => x0 (ix2 p k)) (fun k => x1 (ix2 p k))
          (fun j => x2 (ix2 p j)) q := by
  rw [out1_13_eq]
  exact bodyV_apply x0 x1 x2 x3 x4 x5 x6 x7 x8 x9 x10 x11 x12 p q

theorem out2_15_apply (x0 x1 : Vec Ideal S5000x128 .f32) (x2 : Vec Ideal S5000x7 .f32) (x3 : Vec Ideal S128x128 .f32)
    (x4 x5 x6 x7 x8 : Vec Ideal S1x128 .f32) (x9 : Vec Ideal S128x128 .f32) (x10 : Vec Ideal S1x128 .f32)
    (x11 : Vec Ideal S7x128 .f32) (x12 : Vec Ideal S1x128 .f32)
    (x13 : Vec Ideal S128x128 .f32) (x14 : Vec Ideal S1x128 .f32) (p : Fin 5000) (q : Fin 128) :
    Gen.out2_15 (F := Ideal) x0 x1 x2 x3 x4 x5 x6 x7 x8 x9 x10 x11 x12 x13 x14 (ix2 p q)
      = Cert.Gin.fcRow (fun k c => x13 (ix2 k c)) (fun c => x14 (ix2 (0 : Fin 1) c))
          (Cert.Gin.rowK (blockParams x3 x4 x5 x6 x7 x8 x9 x10 x11 x12) (fun k => x0 (ix2 p k)) (fun k => x1 (ix2 p k))
            (fun j => x2 (ix2 p j))) q := by
  rw [out2_15_eq]
  unfold fcV Cert.Gin.fcRow
  rw [affine128V_apply]
  refine congrArg₂ (· + ·) (Finset.sum_congr rfl fun k _ => ?_) rfl
  exact congrArg (· * x13 (ix2 k q)) (bodyV_apply x0 x1 x2 x3 x4 x5 x6 x7 x8 x9 x10 x11 x12 p k)

end Cert.KernelIdeal.Body

end
-- ==== Proof.KRegion0.lean ====
/-
  Region 0 of the kernel program, from blocks to the array.

  The region is a grid of 20 points. At point `t` the feature, aggregated and conditioning windows and the output
  window are the row blocks `5000 t … 5000 t + 4999` of their arrays, and every parameter window is its whole array.
  The body's result at a row of the block is the layer's row function of that row of the three blocks and of the
  parameter arrays. Hence point `t` writes back block `t` of ONE function of the arrays as the region finds them
  (the layer's row function applied row by row), the 20 blocks cover the 100000 rows (row `r` is in block
  `r / 5000`), and the output array ends holding that function.
-/
import proofs.«144638_j87729001988302_1_alg».proof.Proof.Gen.KernelIdeal.Frame
import proofs.«144638_j87729001988302_1_alg».proof.Proof.KBody
import proofs.«144638_j87729001988302_1_alg».proof.Proof.Spec
import Idealize.ShloMosaic.Lib.Pipeline.Value
import Idealize.ShloMosaic.Lib.ValueIdx

noncomputable section

namespace Cert.KernelIdeal.Regions

open Cert.KernelIdeal Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the 20 points: the three row-block inputs and the output are at block
    `(t, 0)`, every parameter window at block `(0, 0)`. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_13.index t (0 : Fin 2) = t.val ∧ win0_13.index t (1 : Fin 2) = 0) :=
  (by decide +kernel : ∀ t : Fin grid0.N, _)

theorem idx_params0 : ∀ t : Fin cfg0.N,
    (win0_3.index t (0 : Fin 2) = 0 ∧ win0_3.index t (1 : Fin 2) = 0)
    ∧     (win0_4.index t (0 : Fin 2) = 0 ∧ win0_4.index t (1 : Fin 2) = 0)
    ∧     (win0_5.index t (0 : Fin 2) = 0 ∧ win0_5.index t (1 : Fin 2) = 0)
    ∧     (win0_6.index t (0 : Fin 2) = 0 ∧ win0_6.index t (1 : Fin 2) = 0)
    ∧     (win0_7.index t (0 : Fin 2) = 0 ∧ win0_7.index t (1 : Fin 2) = 0)
    ∧     (win0_8.index t (0 : Fin 2) = 0 ∧ win0_8.index t (1 : Fin 2) = 0)
    ∧     (win0_9.index t (0 : Fin 2) = 0 ∧ win0_9.index t (1 : Fin 2) = 0)
    ∧     (win0_10.index t (0 : Fin 2) = 0 ∧ win0_10.index t (1 : Fin 2) = 0)
    ∧     (win0_11.index t (0 : Fin 2) = 0 ∧ win0_11.index t (1 : Fin 2) = 0)
    ∧     (win0_12.index t (0 : Fin 2) = 0 ∧ win0_12.index t (1 : Fin 2) = 0) :=
  (by decide +kernel : ∀ t : Fin grid0.N, _)

/-- Row `p` of window 0's block at point `t` is row `5000 t + p` of its array. -/
theorem blk0_0_apply (c : Dev nD) (t : Fin cfg0.N) (p : Fin 5000) (k : Fin 128) (r : Fin 100000)
    (hr : r.val = t.val * 5000 + p.val) :
    Gen.iblk0 V c 0 t (ix2 p k) = V c main_arg0 (ix2 r k) := by
  obtain ⟨e0, e1⟩ := (idx_facts0 t).1
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row `p` of window 1's block at point `t` is row `5000 t + p` of its array. -/
theorem blk0_1_apply (c : Dev nD) (t : Fin cfg0.N) (p : Fin 5000) (k : Fin 128) (r : Fin 100000)
    (hr : r.val = t.val * 5000 + p.val) :
    Gen.iblk0 V c 1 t (ix2 p k) = V c main_v21 (ix2 r k) := by
  obtain ⟨e0, e1⟩ := (idx_facts0 t).2.1
  show V c main_v21 (((cfg0.win 1).blk t).view.emb (ix2 p k)) = V c main_v21 (ix2 r k)
  refine congrArg _ (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Row `p` of window 2's block at point `t` is row `5000 t + p` of its array. -/
theorem blk0_2_apply (c : Dev nD) (t : Fin cfg0.N) (p : Fin 5000) (k : Fin 7) (r : Fin 100000)
    (hr : r.val = t.val * 5000 + p.val) :
    Gen.iblk0 V c 2 t (ix2 p k) = V c main_v7 (ix2 r k) := by
  obtain ⟨e0, e1⟩ := (idx_facts0 t).2.2.1
  show V c main_v7 (((cfg0.win 2).blk t).view.emb (ix2 p k)) = V c main_v7 (ix2 r k)
  refine congrArg _ (funext fun a => Fin.ext ?_)
  match a with
  | ⟨0, _⟩ => show win0_2.index t (0 : Fin 2) * 5000 + 1 * p.val = r.val; rw [e0, hr]; omega
  | ⟨1, _⟩ => show win0_2.index t (1 : Fin 2) * 7 + 1 * k.val = k.val; rw [e1]; omega

/-- Window 3's block at every point is its whole array. -/
theorem blk0_3_eq (c : Dev nD) (t : Fin cfg0.N) : Gen.iblk0 V c 3 t = V c main_v23 := by
  obtain ⟨e0, e1⟩ := (idx_params0 t).1
  refine funext fun (y : S128x128.Idx) => ?_
  show V c main_v23 (((cfg0.win 3).blk t).view.emb y) = V c main_v23 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4's block at every point is its whole array. -/
theorem blk0_4_eq (c : Dev nD) (t : Fin cfg0.N) : Gen.iblk0 V c 4 t = V c main_v42 := by
  obtain ⟨e0, e1⟩ := (idx_params0 t).2.1
  refine funext fun (y : S1x128.Idx) => ?_
  show V c main_v42 (((cfg0.win 4).blk t).view.emb y) = V c main_v42 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Window 5's block at every point is its whole array. -/
theorem blk0_5_eq (c : Dev nD) (t : Fin cfg0.N) : Gen.iblk0 V c 5 t = V c main_v43 := by
  obtain ⟨e0, e1⟩ := (idx_params0 t).2.2.1
  refine funext fun (y : S1x128.Idx) => ?_
  show V c main_v43 (((cfg0.win 5).blk t).view.emb y) = V c main_v43 y
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6's block at every point is its whole array. -/
theorem blk0_6_eq (c : Dev nD) (t : Fin cfg0.N) : Gen.iblk0 V c 6 t = V c main_v44 := by
  obtain ⟨e0, e1⟩ := (idx_params0 t).2.2.2.1
  refine funext fun (y : S1x128.Idx) => ?_
  show V c main_v44 (((cfg0.win 6).blk t).view.emb y) = V c main_v44 y
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7's block at every point is its whole array. -/
theorem blk0_7_eq (c : Dev nD) (t : Fin cfg0.N) : Gen.iblk0 V c 7 t = V c main_v45 := by
  obtain ⟨e0, e1⟩ := (idx_params0 t).2.2.2.2.1
  refine funext fun (y : S1x128.Idx) => ?_
  show V c main_v45 (((cfg0.win 7).blk t).view.emb y) = V c main_v45 y
  refine congrArg _ (funext fun a => Fin.ext ?_)
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- Window 8's block at every point is its whole array. -/
theorem blk0_8_eq (c : Dev nD) (t : Fin cfg0.N) : Gen.iblk0 V c 8 t = V c main_v46 := by
  obtain ⟨e0, e1⟩ := (idx_params0 t).2.2.2.2.2.1
  refine funext fun (y : S1x128.Idx) => ?_
  show V c main_v46 (((cfg0.win 8).blk t).view.emb y) = V c main_v46 y
  refine congrArg _ (funext fun a => Fin.ext ?_)
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- Window 9's block at every point is its whole array. -/
theorem blk0_9_eq (c : Dev nD) (t : Fin cfg0.N) : Gen.iblk0 V c 9 t = V c main_v35 := by
  obtain ⟨e0, e1⟩ := (idx_params0 t).2.2.2.2.2.2.1
  refine funext fun (y : S128x128.Idx) => ?_
  show V c main_v35 (((cfg0.win 9).blk t).view.emb y) = V c main_v35 y
  refine congrArg _ (funext fun a => Fin.ext ?_)
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

/-- Window 10's block at every point is its whole array. -/
theorem blk0_10_eq (c : Dev nD) (t : Fin cfg0.N) : Gen.iblk0 V c 10 t = V c main_v47 := by
  obtain ⟨e0, e1⟩ := (idx_params0 t).2.2.2.2.2.2.2.1
  refine funext fun (y : S1x128.Idx) => ?_
  show V c main_v47 (((cfg0.win 10).blk t).view.emb y) = V c main_v47 y
  refine congrArg _ (funext fun a => Fin.ext ?_)
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-- Window 11's block at every point is its whole array. -/
theorem blk0_11_eq (c : Dev nD) (t : Fin cfg0.N) : Gen.iblk0 V c 11 t = V c main_v39 := by
  obtain ⟨e0, e1⟩ := (idx_params0 t).2.2.2.2.2.2.2.2.1
  refine funext fun (y : S7x128.Idx) => ?_
  show V c main_v39 (((cfg0.win 11).blk t).view.emb y) = V c main_v39 y
  refine congrArg _ (funext fun a => Fin.ext ?_)
  match a with
  | ⟨0, _⟩ => show win0_11.index t (0 : Fin 2) * 7 + 1 * (y 0).val = (y 0).val; rw [e0]; omega
  | ⟨1, _⟩ => show win0_11.index t (1 : Fin 2) * 128 + 1 * (y 1).val = (y 1).val; rw [e1]; omega

/-- Window 12's block at every point is its whole array. -/
theorem blk0_12_eq (c : Dev nD) (t : Fin cfg0.N) : Gen.iblk0 V c 12 t = V c main_v48 := by
  obtain ⟨e0, e1⟩ := (idx_params0 t).2.2.2.2.2.2.2.2.2
  refine funext fun (y : S1x128.Idx) => ?_
  show V c main_v48 (((cfg0.win 12).blk t).view.emb y) = V c main_v48 y
  refine congrArg _ (funext fun a => Fin.ext ?_)
  match a with
  | ⟨0, _⟩ => show win0_12.index t (0 : Fin 2) * 1 + 1 * (y 0).val = (y 0).val; rw [e0]; omega
  | ⟨1, _⟩ => show win0_12.index t (1 : Fin 2) * 128 + 1 * (y 1).val = (y 1).val; rw [e1]; omega

/-- Row `p` of the output window's block at point `t` sits at row `5000 t + p` of the output array. -/
theorem emb0_out (t : Fin cfg0.N) (p : Fin 5000) (q : Fin 128) (r : Fin 100000) (hr : r.val = t.val * 5000 + p.val) :
    ((cfg0.win 13).blk t).view.emb (ix2 p q) = (ix2 r q : S100000x128.Idx) := by
  obtain ⟨e0, e1⟩ := (idx_facts0 t).2.2.2
  refine funext fun a => Fin.ext ?_
  match a with
  | ⟨0, _⟩ => show win0_13.index t (0 : Fin 2) * 5000 + 1 * p.val = r.val; rw [e0, hr]; omega
  | ⟨1, _⟩ => show win0_13.index t (1 : Fin 2) * 128 + 1 * q.val = q.val; rw [e1]; omega

/-- The region's result at row `r`, column `q`: the layer's row function of row `r` of the three
    row arrays and of the parameter arrays, as the region finds them. -/
def rowOut0 (c : Dev nD) (r : Fin 100000) (q : Fin 128) : EReal :=
  Cert.Gin.rowK (Body.blockParams (V c main_v23) (V c main_v42) (V c main_v43) (V c main_v44) (V c main_v45) (V c main_v46) (V c main_v35) (V c main_v47) (V c main_v39) (V c main_v48))
      (fun k => V c main_arg0 (ix2 r k)) (fun k => V c main_v21 (ix2 r k)) (fun j => V c main_v7 (ix2 r j)) q

/-- The output array as one function of the arrays the region finds. -/
def G0 (c : Dev nD) : S100000x128.Idx → EReal := fun i => rowOut0 V c (i 0) (i 1)

/-- The body's result over VARIABLE blocks whose rows are rows of arrays: only the three row blocks are read through. -/
theorem point0 (x0 : Vec Ideal S5000x128 .f32) (x1 : Vec Ideal S5000x128 .f32) (x2 : Vec Ideal S5000x7 .f32) (x3 : Vec Ideal S128x128 .f32) (x4 : Vec Ideal S1x128 .f32) (x5 : Vec Ideal S1x128 .f32) (x6 : Vec Ideal S1x128 .f32) (x7 : Vec Ideal S1x128 .f32) (x8 : Vec Ideal S1x128 .f32) (x9 : Vec Ideal S128x128 .f32) (x10 : Vec Ideal S1x128 .f32) (x11 : Vec Ideal S7x128 .f32) (x12 : Vec Ideal S1x128 .f32)
    (A0 A1 : S100000x128.Idx → EReal) (A2 : S100000x7.Idx → EReal) (p : Fin 5000) (q : Fin 128) (r : Fin 100000)
    (h0 : ∀ k : Fin 128, x0 (ix2 p k) = A0 (ix2 r k)) (h1 : ∀ k : Fin 128, x1 (ix2 p k) = A1 (ix2 r k))
    (h2 : ∀ j : Fin 7, x2 (ix2 p j) = A2 (ix2 r j)) :
    Gen.out0_13 (F := Ideal) x0 x1 x2 x3 x4 x5 x6 x7 x8 x9 x10 x11 x12 (ix2 p q)
      = Cert.Gin.rowK (Body.blockParams x3 x4 x5 x6 x7 x8 x9 x10 x11 x12) (fun k => A0 (ix2 r k)) (fun k => A1 (ix2 r k)) (fun j => A2 (ix2 r j)) q := by
  refine (Body.out0_13_apply x0 x1 x2 x3 x4 x5 x6 x7 x8 x9 x10 x11 x12 p q).trans ?_
  rw [funext h0, funext h1, funext h2]

/-- WHAT POINT `t` WRITES BACK is block `t` of `G0`. -/
theorem flushed0_eq (c : Dev nD) (t : Fin cfg0.N) :
    (Gen.dat0 (F := Ideal) V c).flushed 13 t = ((cfg0.win 13).blk t).view.read (Elt Ideal) (G0 V c) := by
  show (cfg0.win 13).cut (grid0.coords t) ((Gen.dat0 (F := Ideal) V c).after 13 t) = _
  rw [Gen.after0_13]
  refine funext fun (y : S5000x128.Idx) => ?_
  obtain ⟨p, q, rfl⟩ : ∃ (p : Fin 5000) (q : Fin 128), y = ix2 p q := ⟨y 0, y 1, eq_ix2 y⟩
  have ht : t.val < 20 := Nat.lt_of_lt_of_eq t.isLt (show cfg0.N = 20 from Gen.N_0)
  have hp : p.val < 5000 := p.isLt
  have hr : t.val * 5000 + p.val < 100000 := by omega
  show Gen.out0_13 (F := Ideal) (Gen.iblk0 V c 0 t) (Gen.iblk0 V c 1 t) (Gen.iblk0 V c 2 t) (Gen.iblk0 V c 3 t) (Gen.iblk0 V c 4 t) (Gen.iblk0 V c 5 t) (Gen.iblk0 V c 6 t) (Gen.iblk0 V c 7 t) (Gen.iblk0 V c 8 t) (Gen.iblk0 V c 9 t) (Gen.iblk0 V c 10 t) (Gen.iblk0 V c 11 t) (Gen.iblk0 V c 12 t) (ix2 p q)
    = G0 V c (((cfg0.win 13).blk t).view.emb (ix2 p q))
  rw [emb0_out t p q ⟨t.val * 5000 + p.val, hr⟩ rfl]
  refine (point0 (Gen.iblk0 V c 0 t) (Gen.iblk0 V c 1 t) (Gen.iblk0 V c 2 t) (Gen.iblk0 V c 3 t) (Gen.iblk0 V c 4 t) (Gen.iblk0 V c 5 t) (Gen.iblk0 V c 6 t) (Gen.iblk0 V c 7 t) (Gen.iblk0 V c 8 t) (Gen.iblk0 V c 9 t) (Gen.iblk0 V c 10 t) (Gen.iblk0 V c 11 t) (Gen.iblk0 V c 12 t)
    (V c main_arg0) (V c main_v21) (V c main_v7) p q ⟨t.val * 5000 + p.val, hr⟩
    (fun k => blk0_0_apply V c t p k _ rfl) (fun k => blk0_1_apply V c t p k _ rfl) (fun j => blk0_2_apply V c t p j _ rfl)).trans ?_
  rw [blk0_3_eq V c t, blk0_4_eq V c t, blk0_5_eq V c t, blk0_6_eq V c t, blk0_7_eq V c t, blk0_8_eq V c t, blk0_9_eq V c t, blk0_10_eq V c t, blk0_11_eq V c t, blk0_12_eq V c t]
  rfl

/-- An index of the output array is in point `t`'s block iff each coordinate is in the block's range on its axis. -/
theorem mem_blk0 (t : Fin cfg0.N) (i : S100000x128.Idx) :
    i ∈ ((cfg0.win 13).blk t).view.set ↔ ∀ a : Fin 2, win0_13.index t a * S5000x128.size a ≤ (i a).val ∧ (i a).val < win0_13.index t a * S5000x128.size a + S5000x128.size a := by
  show i ∈ ((View.whole main_v49).slice (win0_13.rect t)).set ↔ _
  rw [View.set_slice_whole, Rect.mem_set_unit]
  exact Iff.rfl

/-- Every index of the output array is in the block of the point `row / 5000`. -/
theorem cover0 (i : S100000x128.Idx) :
    ∃ t : Fin cfg0.N, (cfg0.win 13).flush t = true ∧ i ∈ ((cfg0.win 13).blk t).view.set := by
  have hi0 : (i 0).val < 100000 := (i 0).isLt
  have hi1 : (i 1).val < 128 := (i 1).isLt
  have hN : cfg0.N = 20 := Gen.N_0
  have hlt : (i 0).val / 5000 < cfg0.N := by rw [hN]; omega
  obtain ⟨e0, e1⟩ := (idx_facts0 ⟨(i 0).val / 5000, hlt⟩).2.2.2
  refine ⟨⟨(i 0).val / 5000, hlt⟩, Gen.flush0_13 _, ?_⟩
  rw [mem_blk0]
  intro a
  match a with
  | ⟨0, _⟩ =>
    show win0_13.index ⟨(i 0).val / 5000, hlt⟩ (0 : Fin 2) * 5000 ≤ (i 0).val ∧ (i 0).val < win0_13.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_13.index ⟨(i 0).val / 5000, hlt⟩ (1 : Fin 2) * 128 ≤ (i 1).val ∧ (i 1).val < win0_13.index ⟨(i 0).val / 5000, hlt⟩ (1 : Fin 2) * 128 + 128
    rw [e1]; omega

/-- THE OUTPUT ARRAY after the region's 20 points, entry by entry. -/
theorem final0 (c : Dev nD) (r : Fin 100000) (q : Fin 128) :
    (Gen.dat0 (F := Ideal) V c).arrAt 13 cfg0.N (ix2 r q)
      = Cert.Gin.rowK (Body.blockParams (V c main_v23) (V c main_v42) (V c main_v43) (V c main_v44) (V c main_v45) (V c main_v46) (V c main_v35) (V c main_v47) (V c main_v39) (V c main_v48))
      (fun k => V c main_arg0 (ix2 r k)) (fun k => V c main_v21 (ix2 r k)) (fun j => V c main_v7 (ix2 r j)) q := by
  rw [(Gen.dat0 (F := Ideal) V c).arrAt_eq_of_cover 13 (G0 V c) (fun t _ => flushed0_eq V c t) (cover0)]
  rfl

end Cert.KernelIdeal.Regions

end
-- ==== Proof.KRegion1.lean ====
/-
  Region 1 of the kernel program, from blocks to the array.

  The region is a grid of 20 points. At point `t` the feature, aggregated and conditioning windows and the output
  window are the row blocks `5000 t … 5000 t + 4999` of their arrays, and every parameter window is its whole array.
  The body's result at a row of the block is the layer's row function of that row of the three blocks and of the
  parameter arrays. Hence point `t` writes back block `t` of ONE function of the arrays as the region finds them
  (the layer's row function applied row by row), the 20 blocks cover the 100000 rows (row `r` is in block
  `r / 5000`), and the output array ends holding that function.
-/
import proofs.«144638_j87729001988302_1_alg».proof.Proof.Gen.KernelIdeal.Frame
import proofs.«144638_j87729001988302_1_alg».proof.Proof.KBody
import proofs.«144638_j87729001988302_1_alg».proof.Proof.Spec
import Idealize.ShloMosaic.Lib.Pipeline.Value
import Idealize.ShloMosaic.Lib.ValueIdx

noncomputable section

namespace Cert.KernelIdeal.Regions

open Cert.KernelIdeal Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the 20 points: the three row-block inputs and the output are at block
    `(t, 0)`, every parameter window at block `(0, 0)`. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_13.index t (0 : Fin 2) = t.val ∧ win1_13.index t (1 : Fin 2) = 0) :=
  (by decide +kernel : ∀ t : Fin grid1.N, _)

theorem idx_params1 : ∀ t : Fin cfg1.N,
    (win1_3.index t (0 : Fin 2) = 0 ∧ win1_3.index t (1 : Fin 2) = 0)
    ∧     (win1_4.index t (0 : Fin 2) = 0 ∧ win1_4.index t (1 : Fin 2) = 0)
    ∧     (win1_5.index t (0 : Fin 2) = 0 ∧ win1_5.index t (1 : Fin 2) = 0)
    ∧     (win1_6.index t (0 : Fin 2) = 0 ∧ win1_6.index t (1 : Fin 2) = 0)
    ∧     (win1_7.index t (0 : Fin 2) = 0 ∧ win1_7.index t (1 : Fin 2) = 0)
    ∧     (win1_8.index t (0 : Fin 2) = 0 ∧ win1_8.index t (1 : Fin 2) = 0)
    ∧     (win1_9.index t (0 : Fin 2) = 0 ∧ win1_9.index t (1 : Fin 2) = 0)
    ∧     (win1_10.index t (0 : Fin 2) = 0 ∧ win1_10.index t (1 : Fin 2) = 0)
    ∧     (win1_11.index t (0 : Fin 2) = 0 ∧ win1_11.index t (1 : Fin 2) = 0)
    ∧     (win1_12.index t (0 : Fin 2) = 0 ∧ win1_12.index t (1 : Fin 2) = 0) :=
  (by decide +kernel : ∀ t : Fin grid1.N, _)

/-- Row `p` of window 0's block at point `t` is row `5000 t + p` of its array. -/
theorem blk1_0_apply (c : Dev nD) (t : Fin cfg1.N) (p : Fin 5000) (k : Fin 128) (r : Fin 100000)
    (hr : r.val = t.val * 5000 + p.val) :
    Gen.iblk1 V c 0 t (ix2 p k) = V c main_v49 (ix2 r k) := by
  obtain ⟨e0, e1⟩ := (idx_facts1 t).1
  show V c main_v49 (((cfg1.win 0).blk t).view.emb (ix2 p k)) = V c main_v49 (ix2 r k)
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row `p` of window 1's block at point `t` is row `5000 t + p` of its array. -/
theorem blk1_1_apply (c : Dev nD) (t : Fin cfg1.N) (p : Fin 5000) (k : Fin 128) (r : Fin 100000)
    (hr : r.val = t.val * 5000 + p.val) :
    Gen.iblk1 V c 1 t (ix2 p k) = V c main_v59 (ix2 r k) := by
  obtain ⟨e0, e1⟩ := (idx_facts1 t).2.1
  show V c main_v59 (((cfg1.win 1).blk t).view.emb (ix2 p k)) = V c main_v59 (ix2 r k)
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- Row `p` of window 2's block at point `t` is row `5000 t + p` of its array. -/
theorem blk1_2_apply (c : Dev nD) (t : Fin cfg1.N) (p : Fin 5000) (k : Fin 7) (r : Fin 100000)
    (hr : r.val = t.val * 5000 + p.val) :
    Gen.iblk1 V c 2 t (ix2 p k) = V c main_v7 (ix2 r k) := by
  obtain ⟨e0, e1⟩ := (idx_facts1 t).2.2.1
  show V c main_v7 (((cfg1.win 2).blk t).view.emb (ix2 p k)) = V c main_v7 (ix2 r k)
  refine congrArg _ (funext fun a => Fin.ext ?_)
  match a with
  | ⟨0, _⟩ => show win1_2.index t (0 : Fin 2) * 5000 + 1 * p.val = r.val; rw [e0, hr]; omega
  | ⟨1, _⟩ => show win1_2.index t (1 : Fin 2) * 7 + 1 * k.val = k.val; rw [e1]; omega

/-- Window 3's block at every point is its whole array. -/
theorem blk1_3_eq (c : Dev nD) (t : Fin cfg1.N) : Gen.iblk1 V c 3 t = V c main_v61 := by
  obtain ⟨e0, e1⟩ := (idx_params1 t).1
  refine funext fun (y : S128x128.Idx) => ?_
  show V c main_v61 (((cfg1.win 3).blk t).view.emb y) = V c main_v61 y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Window 4's block at every point is its whole array. -/
theorem blk1_4_eq (c : Dev nD) (t : Fin cfg1.N) : Gen.iblk1 V c 4 t = V c main_v80 := by
  obtain ⟨e0, e1⟩ := (idx_params1 t).2.1
  refine funext fun (y : S1x128.Idx) => ?_
  show V c main_v80 (((cfg1.win 4).blk t).view.emb y) = V c main_v80 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- Window 5's block at every point is its whole array. -/
theorem blk1_5_eq (c : Dev nD) (t : Fin cfg1.N) : Gen.iblk1 V c 5 t = V c main_v81 := by
  obtain ⟨e0, e1⟩ := (idx_params1 t).2.2.1
  refine funext fun (y : S1x128.Idx) => ?_
  show V c main_v81 (((cfg1.win 5).blk t).view.emb y) = V c main_v81 y
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- Window 6's block at every point is its whole array. -/
theorem blk1_6_eq (c : Dev nD) (t : Fin cfg1.N) : Gen.iblk1 V c 6 t = V c main_v82 := by
  obtain ⟨e0, e1⟩ := (idx_params1 t).2.2.2.1
  refine funext fun (y : S1x128.Idx) => ?_
  show V c main_v82 (((cfg1.win 6).blk t).view.emb y) = V c main_v82 y
  refine congrArg _ (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- Window 7's block at every point is its whole array. -/
theorem blk1_7_eq (c : Dev nD) (t : Fin cfg1.N) : Gen.iblk1 V c 7 t = V c main_v83 := by
  obtain ⟨e0, e1⟩ := (idx_params1 t).2.2.2.2.1
  refine funext fun (y : S1x128.Idx) => ?_
  show V c main_v83 (((cfg1.win 7).blk t).view.emb y) = V c main_v83 y
  refine congrArg _ (funext fun a => Fin.ext ?_)
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-- Window 8's block at every point is its whole array. -/
theorem blk1_8_eq (c : Dev nD) (t : Fin cfg1.N) : Gen.iblk1 V c 8 t = V c main_v84 := by
  obtain ⟨e0, e1⟩ := (idx_params1 t).2.2.2.2.2.1
  refine funext fun (y : S1x128.Idx) => ?_
  show V c main_v84 (((cfg1.win 8).blk t).view.emb y) = V c main_v84 y
  refine congrArg _ (funext fun a => Fin.ext ?_)
  match a with
  | ⟨0, _⟩ => show win1_8.index t (0 : Fin 2) * 1 + 1 * (y 0).val = (y 0).val; rw [e0]; omega
  | ⟨1, _⟩ => show win1_8.index t (1 : Fin 2) * 128 + 1 * (y 1).val = (y 1).val; rw [e1]; omega

/-- Window 9's block at every point is its whole array. -/
theorem blk1_9_eq (c : Dev nD) (t : Fin cfg1.N) : Gen.iblk1 V c 9 t = V c main_v73 := by
  obtain ⟨e0, e1⟩ := (idx_params1 t).2.2.2.2.2.2.1
  refine funext fun (y : S128x128.Idx) => ?_
  show V c main_v73 (((cfg1.win 9).blk t).view.emb y) = V c main_v73 y
  refine congrArg _ (funext fun a => Fin.ext ?_)
  match a with
  | ⟨0, _⟩ => show win1_9.index t (0 : Fin 2) * 128 + 1 * (y 0).val = (y 0).val; rw [e0]; omega
  | ⟨1, _⟩ => show win1_9.index t (1 : Fin 2) * 128 + 1 * (y 1).val = (y 1).val; rw [e1]; omega

/-- Window 10's block at every point is its whole array. -/
theorem blk1_10_eq (c : Dev nD) (t : Fin cfg1.N) : Gen.iblk1 V c 10 t = V c main_v85 := by
  obtain ⟨e0, e1⟩ := (idx_params1 t).2.2.2.2.2.2.2.1
  refine funext fun (y : S1x128.Idx) => ?_
  show V c main_v85 (((cfg1.win 10).blk t).view.emb y) = V c main_v85 y
  refine congrArg _ (funext fun a => Fin.ext ?_)
  match a with
  | ⟨0, _⟩ => show win1_10.index t (0 : Fin 2) * 1 + 1 * (y 0).val = (y 0).val; rw [e0]; omega
  | ⟨1, _⟩ => show win1_10.index t (1 : Fin 2) * 128 + 1 * (y 1).val = (y 1).val; rw [e1]; omega

/-- Window 11's block at every point is its whole array. -/
theorem blk1_11_eq (c : Dev nD) (t : Fin cfg1.N) : Gen.iblk1 V c 11 t = V c main_v77 := by
  obtain ⟨e0, e1⟩ := (idx_params1 t).2.2.2.2.2.2.2.2.1
  refine funext fun (y : S7x128.Idx) => ?_
  show V c main_v77 (((cfg1.win 11).blk t).view.emb y) = V c main_v77 y
  refine congrArg _ (funext fun a => Fin.ext ?_)
  match a with
  | ⟨0, _⟩ => show win1_11.index t (0 : Fin 2) * 7 + 1 * (y 0).val = (y 0).val; rw [e0]; omega
  | ⟨1, _⟩ => show win1_11.index t (1 : Fin 2) * 128 + 1 * (y 1).val = (y 1).val; rw [e1]; omega

/-- Window 12's block at every point is its whole array. -/
theorem blk1_12_eq (c : Dev nD) (t : Fin cfg1.N) : Gen.iblk1 V c 12 t = V c main_v86 := by
  obtain ⟨e0, e1⟩ := (idx_params1 t).2.2.2.2.2.2.2.2.2
  refine funext fun (y : S1x128.Idx) => ?_
  show V c main_v86 (((cfg1.win 12).blk t).view.emb y) = V c main_v86 y
  refine congrArg _ (funext fun a => Fin.ext ?_)
  match a with
  | ⟨0, _⟩ => show win1_12.index t (0 : Fin 2) * 1 + 1 * (y 0).val = (y 0).val; rw [e0]; omega
  | ⟨1, _⟩ => show win1_12.index t (1 : Fin 2) * 128 + 1 * (y 1).val = (y 1).val; rw [e1]; omega

/-- Row `p` of the output window's block at point `t` sits at row `5000 t + p` of the output array. -/
theorem emb1_out (t : Fin cfg1.N) (p : Fin 5000) (q : Fin 128) (r : Fin 100000) (hr : r.val = t.val * 5000 + p.val) :
    ((cfg1.win 13).blk t).view.emb (ix2 p q) = (ix2 r q : S100000x128.Idx) := by
  obtain ⟨e0, e1⟩ := (idx_facts1 t).2.2.2
  refine funext fun a => Fin.ext ?_
  match a with
  | ⟨0, _⟩ => show win1_13.index t (0 : Fin 2) * 5000 + 1 * p.val = r.val; rw [e0, hr]; omega
  | ⟨1, _⟩ => show win1_13.index t (1 : Fin 2) * 128 + 1 * q.val = q.val; rw [e1]; omega

/-- The region's result at row `r`, column `q`: the layer's row function of row `r` of the three
    row arrays and of the parameter arrays, as the region finds them. -/
def rowOut1 (c : Dev nD) (r : Fin 100000) (q : Fin 128) : EReal :=
  Cert.Gin.rowK (Body.blockParams (V c main_v61) (V c main_v80) (V c main_v81) (V c main_v82) (V c main_v83) (V c main_v84) (V c main_v73) (V c main_v85) (V c main_v77) (V c main_v86))
      (fun k => V c main_v49 (ix2 r k)) (fun k => V c main_v59 (ix2 r k)) (fun j => V c main_v7 (ix2 r j)) q

/-- The output array as one function of the arrays the region finds. -/
def G1 (c : Dev nD) : S100000x128.Idx → EReal := fun i => rowOut1 V c (i 0) (i 1)

/-- The body's result over VARIABLE blocks whose rows are rows of arrays: only the three row blocks are read through. -/
theorem point1 (x0 : Vec Ideal S5000x128 .f32) (x1 : Vec Ideal S5000x128 .f32) (x2 : Vec Ideal S5000x7 .f32) (x3 : Vec Ideal S128x128 .f32) (x4 : Vec Ideal S1x128 .f32) (x5 : Vec Ideal S1x128 .f32) (x6 : Vec Ideal S1x128 .f32) (x7 : Vec Ideal S1x128 .f32) (x8 : Vec Ideal S1x128 .f32) (x9 : Vec Ideal S128x128 .f32) (x10 : Vec Ideal S1x128 .f32) (x11 : Vec Ideal S7x128 .f32) (x12 : Vec Ideal S1x128 .f32)
    (A0 A1 : S100000x128.Idx → EReal) (A2 : S100000x7.Idx → EReal) (p : Fin 5000) (q : Fin 128) (r : Fin 100000)
    (h0 : ∀ k : Fin 128, x0 (ix2 p k) = A0 (ix2 r k)) (h1 : ∀ k : Fin 128, x1 (ix2 p k) = A1 (ix2 r k))
    (h2 : ∀ j : Fin 7, x2 (ix2 p j) = A2 (ix2 r j)) :
    Gen.out1_13 (F := Ideal) x0 x1 x2 x3 x4 x5 x6 x7 x8 x9 x10 x11 x12 (ix2 p q)
      = Cert.Gin.rowK (Body.blockParams x3 x4 x5 x6 x7 x8 x9 x10 x11 x12) (fun k => A0 (ix2 r k)) (fun k => A1 (ix2 r k)) (fun j => A2 (ix2 r j)) q := by
  refine (Body.out1_13_apply x0 x1 x2 x3 x4 x5 x6 x7 x8 x9 x10 x11 x12 p q).trans ?_
  rw [funext h0, funext h1, funext h2]

/-- WHAT POINT `t` WRITES BACK is block `t` of `G1`. -/
theorem flushed1_eq (c : Dev nD) (t : Fin cfg1.N) :
    (Gen.dat1 (F := Ideal) V c).flushed 13 t = ((cfg1.win 13).blk t).view.read (Elt Ideal) (G1 V c) := by
  show (cfg1.win 13).cut (grid1.coords t) ((Gen.dat1 (F := Ideal) V c).after 13 t) = _
  rw [Gen.after1_13]
  refine funext fun (y : S5000x128.Idx) => ?_
  obtain ⟨p, q, rfl⟩ : ∃ (p : Fin 5000) (q : Fin 128), y = ix2 p q := ⟨y 0, y 1, eq_ix2 y⟩
  have ht : t.val < 20 := Nat.lt_of_lt_of_eq t.isLt (show cfg1.N = 20 from Gen.N_1)
  have hp : p.val < 5000 := p.isLt
  have hr : t.val * 5000 + p.val < 100000 := by omega
  show Gen.out1_13 (F := Ideal) (Gen.iblk1 V c 0 t) (Gen.iblk1 V c 1 t) (Gen.iblk1 V c 2 t) (Gen.iblk1 V c 3 t) (Gen.iblk1 V c 4 t) (Gen.iblk1 V c 5 t) (Gen.iblk1 V c 6 t) (Gen.iblk1 V c 7 t) (Gen.iblk1 V c 8 t) (Gen.iblk1 V c 9 t) (Gen.iblk1 V c 10 t) (Gen.iblk1 V c 11 t) (Gen.iblk1 V c 12 t) (ix2 p q)
    = G1 V c (((cfg1.win 13).blk t).view.emb (ix2 p q))
  rw [emb1_out t p q ⟨t.val * 5000 + p.val, hr⟩ rfl]
  refine (point1 (Gen.iblk1 V c 0 t) (Gen.iblk1 V c 1 t) (Gen.iblk1 V c 2 t) (Gen.iblk1 V c 3 t) (Gen.iblk1 V c 4 t) (Gen.iblk1 V c 5 t) (Gen.iblk1 V c 6 t) (Gen.iblk1 V c 7 t) (Gen.iblk1 V c 8 t) (Gen.iblk1 V c 9 t) (Gen.iblk1 V c 10 t) (Gen.iblk1 V c 11 t) (Gen.iblk1 V c 12 t)
    (V c main_v49) (V c main_v59) (V c main_v7) p q ⟨t.val * 5000 + p.val, hr⟩
    (fun k => blk1_0_apply V c t p k _ rfl) (fun k => blk1_1_apply V c t p k _ rfl) (fun j => blk1_2_apply V c t p j _ rfl)).trans ?_
  rw [blk1_3_eq V c t, blk1_4_eq V c t, blk1_5_eq V c t, blk1_6_eq V c t, blk1_7_eq V c t, blk1_8_eq V c t, blk1_9_eq V c t, blk1_10_eq V c t, blk1_11_eq V c t, blk1_12_eq V c t]
  rfl

/-- An index of the output array is in point `t`'s block iff each coordinate is in the block's range on its axis. -/
theorem mem_blk1 (t : Fin cfg1.N) (i : S100000x128.Idx) :
    i ∈ ((cfg1.win 13).blk t).view.set ↔ ∀ a : Fin 2, win1_13.index t a * S5000x128.size a ≤ (i a).val ∧ (i a).val < win1_13.index t a * S5000x128.size a + S5000x128.size a := by
  show i ∈ ((View.whole main_v87).slice (win1_13.rect t)).set ↔ _
  rw [View.set_slice_whole, Rect.mem_set_unit]
  exact Iff.rfl

/-- Every index of the output array is in the block of the point `row / 5000`. -/
theorem cover1 (i : S100000x128.Idx) :
    ∃ t : Fin cfg1.N, (cfg1.win 13).flush t = true ∧ i ∈ ((cfg1.win 13).blk t).view.set := by
  have hi0 : (i 0).val < 100000 := (i 0).isLt
  have hi1 : (i 1).val < 128 := (i 1).isLt
  have hN : cfg1.N = 20 := Gen.N_1
  have hlt : (i 0).val / 5000 < cfg1.N := by rw [hN]; omega
  obtain ⟨e0, e1⟩ := (idx_facts1 ⟨(i 0).val / 5000, hlt⟩).2.2.2
  refine ⟨⟨(i 0).val / 5000, hlt⟩, Gen.flush1_13 _, ?_⟩
  rw [mem_blk1]
  intro a
  match a with
  | ⟨0, _⟩ =>
    show win1_13.index ⟨(i 0).val / 5000, hlt⟩ (0 : Fin 2) * 5000 ≤ (i 0).val ∧ (i 0).val < win1_13.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_13.index ⟨(i 0).val / 5000, hlt⟩ (1 : Fin 2) * 128 ≤ (i 1).val ∧ (i 1).val < win1_13.index ⟨(i 0).val / 5000, hlt⟩ (1 : Fin 2) * 128 + 128
    rw [e1]; omega

/-- THE OUTPUT ARRAY after the region's 20 points, entry by entry. -/
theorem final1 (c : Dev nD) (r : Fin 100000) (q : Fin 128) :
    (Gen.dat1 (F := Ideal) V c).arrAt 13 cfg1.N (ix2 r q)
      = Cert.Gin.rowK (Body.blockParams (V c main_v61) (V c main_v80) (V c main_v81) (V c main_v82) (V c main_v83) (V c main_v84) (V c main_v73) (V c main_v85) (V c main_v77) (V c main_v86))
      (fun k => V c main_v49 (ix2 r k)) (fun k => V c main_v59 (ix2 r k)) (fun j => V c main_v7 (ix2 r j)) q := by
  rw [(Gen.dat1 (F := Ideal) V c).arrAt_eq_of_cover 13 (G1 V c) (fun t _ => flushed1_eq V c t) (cover1)]
  rfl

end Cert.KernelIdeal.Regions

end
-- ==== Proof.KRegion2.lean ====
/-
  Region 2 of the kernel program, from blocks to the array.

  The region is a grid of 20 points. At point `t` the feature, aggregated and conditioning windows and the output
  window are the row blocks `5000 t … 5000 t + 4999` of their arrays, and every parameter window is its whole array.
  The body's result at a row of the block is the layer's row function of that row of the three blocks and of the
  parameter arrays. Hence point `t` writes back block `t` of ONE function of the arrays as the region finds them
  (the layer's row function applied row by row), the 20 blocks cover the 100000 rows (row `r` is in block
  `r / 5000`), and the output array ends holding that function.
-/
import proofs.«144638_j87729001988302_1_alg».proof.Proof.Gen.KernelIdeal.Frame
import proofs.«144638_j87729001988302_1_alg».proof.Proof.KBody
import proofs.«144638_j87729001988302_1_alg».proof.Proof.Spec
import Idealize.ShloMosaic.Lib.Pipeline.Value
import Idealize.ShloMosaic.Lib.ValueIdx

noncomputable section

namespace Cert.KernelIdeal.Regions

open Cert.KernelIdeal Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the 20 points: the three row-block inputs and the output are at block
    `(t, 0)`, every parameter window at block `(0, 0)`. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_15.index t (0 : Fin 2) = t.val ∧ win2_15.index t (1 : Fin 2) = 0) :=
  (by decide +kernel : ∀ t : Fin grid2.N, _)

theorem idx_params2 : ∀ t : Fin cfg2.N,
    (win2_3.index t (0 : Fin 2) = 0 ∧ win2_3.index t (1 : Fin 2) = 0)
    ∧     (win2_4.index t (0 : Fin 2) = 0 ∧ win2_4.index t (1 : Fin 2) = 0)
    ∧     (win2_5.index t (0 : Fin 2) = 0 ∧ win2_5.index t (1 : Fin 2) = 0)
    ∧     (win2_6.index t (0 : Fin 2) = 0 ∧ win2_6.index t (1 : Fin 2) = 0)
    ∧     (win2_7.index t (0 : Fin 2) = 0 ∧ win2_7.index t (1 : Fin 2) = 0)
    ∧     (win2_8.index t (0 : Fin 2) = 0 ∧ win2_8.index t (1 : Fin 2) = 0)
    ∧     (win2_9.index t (0 : Fin 2) = 0 ∧ win2_9.index t (1 : Fin 2) = 0)
    ∧     (win2_10.index t (0 : Fin 2) = 0 ∧ win2_10.index t (1 : Fin 2) = 0)
    ∧     (win2_11.index t (0 : Fin 2) = 0 ∧ win2_11.index t (1 : Fin 2) = 0)
    ∧     (win2_12.index t (0 : Fin 2) = 0 ∧ win2_12.index t (1 : Fin 2) = 0)
    ∧     (win2_13.index t (0 : Fin 2) = 0 ∧ win2_13.index t (1 : Fin 2) = 0)
    ∧     (win2_14.index t (0 : Fin 2) = 0 ∧ win2_14.index t (1 : Fin 2) = 0) :=
  (by decide +kernel : ∀ t : Fin grid2.N, _)

/-- Row `p` of window 0's block at point `t` is row `5000 t + p` of its array. -/
theorem blk2_0_apply (c : Dev nD) (t : Fin cfg2.N) (p : Fin 5000) (k : Fin 128) (r : Fin 100000)
    (hr : r.val = t.val * 5000 + p.val) :
    Gen.iblk2 V c 0 t (ix2 p k) = V c main_v87 (ix2 r k) := by
  obtain ⟨e0, e1⟩ := (idx_facts2 t).1
  show V c main_v87 (((cfg2.win 0).blk t).view.emb (ix2 p k)) = V c main_v87 (ix2 r k)
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Row `p` of window 1's block at point `t` is row `5000 t + p` of its array. -/
theorem blk2_1_apply (c : Dev nD) (t : Fin cfg2.N) (p : Fin 5000) (k : Fin 128) (r : Fin 100000)
    (hr : r.val = t.val * 5000 + p.val) :
    Gen.iblk2 V c 1 t (ix2 p k) = V c main_v97 (ix2 r k) := by
  obtain ⟨e0, e1⟩ := (idx_facts2 t).2.1
  show V c main_v97 (((cfg2.win 1).blk t).view.emb (ix2 p k)) = V c main_v97 (ix2 r k)
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- Row `p` of window 2's block at point `t` is row `5000 t + p` of its array. -/
theorem blk2_2_apply (c : Dev nD) (t : Fin cfg2.N) (p : Fin 5000) (k : Fin 7) (r : Fin 100000)
    (hr : r.val = t.val * 5000 + p.val) :
    Gen.iblk2 V c 2 t (ix2 p k) = V c main_v7 (ix2 r k) := by
  obtain ⟨e0, e1⟩ := (idx_facts2 t).2.2.1
  show V c main_v7 (((cfg2.win 2).blk t).view.emb (ix2 p k)) = V c main_v7 (ix2 r k)
  refine congrArg _ (funext fun a => Fin.ext ?_)
  match a with
  | ⟨0, _⟩ => show win2_2.index t (0 : Fin 2) * 5000 + 1 * p.val = r.val; rw [e0, hr]; omega
  | ⟨1, _⟩ => show win2_2.index t (1 : Fin 2) * 7 + 1 * k.val = k.val; rw [e1]; omega

/-- Window 3's block at every point is its whole array. -/
theorem blk2_3_eq (c : Dev nD) (t : Fin cfg2.N) : Gen.iblk2 V c 3 t = V c main_v99 := by
  obtain ⟨e0, e1⟩ := (idx_params2 t).1
  refine funext fun (y : S128x128.Idx) => ?_
  show V c main_v99 (((cfg2.win 3).blk t).view.emb y) = V c main_v99 y
  refine congrArg _ (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- Window 4's block at every point is its whole array. -/
theorem blk2_4_eq (c : Dev nD) (t : Fin cfg2.N) : Gen.iblk2 V c 4 t = V c main_v118 := by
  obtain ⟨e0, e1⟩ := (idx_params2 t).2.1
  refine funext fun (y : S1x128.Idx) => ?_
  show V c main_v118 (((cfg2.win 4).blk t).view.emb y) = V c main_v118 y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- Window 5's block at every point is its whole array. -/
theorem blk2_5_eq (c : Dev nD) (t : Fin cfg2.N) : Gen.iblk2 V c 5 t = V c main_v119 := by
  obtain ⟨e0, e1⟩ := (idx_params2 t).2.2.1
  refine funext fun (y : S1x128.Idx) => ?_
  show V c main_v119 (((cfg2.win 5).blk t).view.emb y) = V c main_v119 y
  refine congrArg _ (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- Window 6's block at every point is its whole array. -/
theorem blk2_6_eq (c : Dev nD) (t : Fin cfg2.N) : Gen.iblk2 V c 6 t = V c main_v120 := by
  obtain ⟨e0, e1⟩ := (idx_params2 t).2.2.2.1
  refine funext fun (y : S1x128.Idx) => ?_
  show V c main_v120 (((cfg2.win 6).blk t).view.emb y) = V c main_v120 y
  refine congrArg _ (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-- Window 7's block at every point is its whole array. -/
theorem blk2_7_eq (c : Dev nD) (t : Fin cfg2.N) : Gen.iblk2 V c 7 t = V c main_v121 := by
  obtain ⟨e0, e1⟩ := (idx_params2 t).2.2.2.2.1
  refine funext fun (y : S1x128.Idx) => ?_
  show V c main_v121 (((cfg2.win 7).blk t).view.emb y) = V c main_v121 y
  refine congrArg _ (funext fun a => Fin.ext ?_)
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega

/-- Window 8's block at every point is its whole array. -/
theorem blk2_8_eq (c : Dev nD) (t : Fin cfg2.N) : Gen.iblk2 V c 8 t = V c main_v122 := by
  obtain ⟨e0, e1⟩ := (idx_params2 t).2.2.2.2.2.1
  refine funext fun (y : S1x128.Idx) => ?_
  show V c main_v122 (((cfg2.win 8).blk t).view.emb y) = V c main_v122 y
  refine congrArg _ (funext fun a => Fin.ext ?_)
  match a with
  | ⟨0, _⟩ => show win2_8.index t (0 : Fin 2) * 1 + 1 * (y 0).val = (y 0).val; rw [e0]; omega
  | ⟨1, _⟩ => show win2_8.index t (1 : Fin 2) * 128 + 1 * (y 1).val = (y 1).val; rw [e1]; omega

/-- Window 9's block at every point is its whole array. -/
theorem blk2_9_eq (c : Dev nD) (t : Fin cfg2.N) : Gen.iblk2 V c 9 t = V c main_v111 := by
  obtain ⟨e0, e1⟩ := (idx_params2 t).2.2.2.2.2.2.1
  refine funext fun (y : S128x128.Idx) => ?_
  show V c main_v111 (((cfg2.win 9).blk t).view.emb y) = V c main_v111 y
  refine congrArg _ (funext fun a => Fin.ext ?_)
  match a with
  | ⟨0, _⟩ => show win2_9.index t (0 : Fin 2) * 128 + 1 * (y 0).val = (y 0).val; rw [e0]; omega
  | ⟨1, _⟩ => show win2_9.index t (1 : Fin 2) * 128 + 1 * (y 1).val = (y 1).val; rw [e1]; omega

/-- Window 10's block at every point is its whole array. -/
theorem blk2_10_eq (c : Dev nD) (t : Fin cfg2.N) : Gen.iblk2 V c 10 t = V c main_v123 := by
  obtain ⟨e0, e1⟩ := (idx_params2 t).2.2.2.2.2.2.2.1
  refine funext fun (y : S1x128.Idx) => ?_
  show V c main_v123 (((cfg2.win 10).blk t).view.emb y) = V c main_v123 y
  refine congrArg _ (funext fun a => Fin.ext ?_)
  match a with
  | ⟨0, _⟩ => show win2_10.index t (0 : Fin 2) * 1 + 1 * (y 0).val = (y 0).val; rw [e0]; omega
  | ⟨1, _⟩ => show win2_10.index t (1 : Fin 2) * 128 + 1 * (y 1).val = (y 1).val; rw [e1]; omega

/-- Window 11's block at every point is its whole array. -/
theorem blk2_11_eq (c : Dev nD) (t : Fin cfg2.N) : Gen.iblk2 V c 11 t = V c main_v115 := by
  obtain ⟨e0, e1⟩ := (idx_params2 t).2.2.2.2.2.2.2.2.1
  refine funext fun (y : S7x128.Idx) => ?_
  show V c main_v115 (((cfg2.win 11).blk t).view.emb y) = V c main_v115 y
  refine congrArg _ (funext fun a => Fin.ext ?_)
  match a with
  | ⟨0, _⟩ => show win2_11.index t (0 : Fin 2) * 7 + 1 * (y 0).val = (y 0).val; rw [e0]; omega
  | ⟨1, _⟩ => show win2_11.index t (1 : Fin 2) * 128 + 1 * (y 1).val = (y 1).val; rw [e1]; omega

/-- Window 12's block at every point is its whole array. -/
theorem blk2_12_eq (c : Dev nD) (t : Fin cfg2.N) : Gen.iblk2 V c 12 t = V c main_v124 := by
  obtain ⟨e0, e1⟩ := (idx_params2 t).2.2.2.2.2.2.2.2.2.1
  refine funext fun (y : S1x128.Idx) => ?_
  show V c main_v124 (((cfg2.win 12).blk t).view.emb y) = V c main_v124 y
  refine congrArg _ (funext fun a => Fin.ext ?_)
  match a with
  | ⟨0, _⟩ => show win2_12.index t (0 : Fin 2) * 1 + 1 * (y 0).val = (y 0).val; rw [e0]; omega
  | ⟨1, _⟩ => show win2_12.index t (1 : Fin 2) * 128 + 1 * (y 1).val = (y 1).val; rw [e1]; omega

/-- Window 13's block at every point is its whole array. -/
theorem blk2_13_eq (c : Dev nD) (t : Fin cfg2.N) : Gen.iblk2 V c 13 t = V c main_arg14 := by
  obtain ⟨e0, e1⟩ := (idx_params2 t).2.2.2.2.2.2.2.2.2.2.1
  refine funext fun (y : S128x128.Idx) => ?_
  show V c main_arg14 (((cfg2.win 13).blk t).view.emb y) = V c main_arg14 y
  refine congrArg _ (funext fun a => Fin.ext ?_)
  match a with
  | ⟨0, _⟩ => show win2_13.index t (0 : Fin 2) * 128 + 1 * (y 0).val = (y 0).val; rw [e0]; omega
  | ⟨1, _⟩ => show win2_13.index t (1 : Fin 2) * 128 + 1 * (y 1).val = (y 1).val; rw [e1]; omega

/-- Window 14's block at every point is its whole array. -/
theorem blk2_14_eq (c : Dev nD) (t : Fin cfg2.N) : Gen.iblk2 V c 14 t = V c main_v125 := by
  obtain ⟨e0, e1⟩ := (idx_params2 t).2.2.2.2.2.2.2.2.2.2.2
  refine funext fun (y : S1x128.Idx) => ?_
  show V c main_v125 (((cfg2.win 14).blk t).view.emb y) = V c main_v125 y
  refine congrArg _ (funext fun a => Fin.ext ?_)
  match a with
  | ⟨0, _⟩ => show win2_14.index t (0 : Fin 2) * 1 + 1 * (y 0).val = (y 0).val; rw [e0]; omega
  | ⟨1, _⟩ => show win2_14.index t (1 : Fin 2) * 128 + 1 * (y 1).val = (y 1).val; rw [e1]; omega

/-- Row `p` of the output window's block at point `t` sits at row `5000 t + p` of the output array. -/
theorem emb2_out (t : Fin cfg2.N) (p : Fin 5000) (q : Fin 128) (r : Fin 100000) (hr : r.val = t.val * 5000 + p.val) :
    ((cfg2.win 15).blk t).view.emb (ix2 p q) = (ix2 r q : S100000x128.Idx) := by
  obtain ⟨e0, e1⟩ := (idx_facts2 t).2.2.2
  refine funext fun a => Fin.ext ?_
  match a with
  | ⟨0, _⟩ => show win2_15.index t (0 : Fin 2) * 5000 + 1 * p.val = r.val; rw [e0, hr]; omega
  | ⟨1, _⟩ => show win2_15.index t (1 : Fin 2) * 128 + 1 * q.val = q.val; rw [e1]; omega

/-- The region's result at row `r`, column `q`: the layer's row function followed by the output projection of row `r` of the three
    row arrays and of the parameter arrays, as the region finds them. -/
def rowOut2 (c : Dev nD) (r : Fin 100000) (q : Fin 128) : EReal :=
  Cert.Gin.fcRow (fun k c' => V c main_arg14 (ix2 k c')) (fun c' => V c main_v125 (ix2 (0 : Fin 1) c'))
      (Cert.Gin.rowK (Body.blockParams (V c main_v99) (V c main_v118) (V c main_v119) (V c main_v120) (V c main_v121) (V c main_v122) (V c main_v111) (V c main_v123) (V c main_v115) (V c main_v124))
      (fun k => V c main_v87 (ix2 r k)) (fun k => V c main_v97 (ix2 r k)) (fun j => V c main_v7 (ix2 r j))) q

/-- The output array as one function of the arrays the region finds. -/
def G2 (c : Dev nD) : S100000x128.Idx → EReal := fun i => rowOut2 V c (i 0) (i 1)

/-- The body's result over VARIABLE blocks whose rows are rows of arrays: only the three row blocks are read through. -/
theorem point2 (x0 : Vec Ideal S5000x128 .f32) (x1 : Vec Ideal S5000x128 .f32) (x2 : Vec Ideal S5000x7 .f32) (x3 : Vec Ideal S128x128 .f32) (x4 : Vec Ideal S1x128 .f32) (x5 : Vec Ideal S1x128 .f32) (x6 : Vec Ideal S1x128 .f32) (x7 : Vec Ideal S1x128 .f32) (x8 : Vec Ideal S1x128 .f32) (x9 : Vec Ideal S128x128 .f32) (x10 : Vec Ideal S1x128 .f32) (x11 : Vec Ideal S7x128 .f32) (x12 : Vec Ideal S1x128 .f32) (x13 : Vec Ideal S128x128 .f32) (x14 : Vec Ideal S1x128 .f32)
    (A0 A1 : S100000x128.Idx → EReal) (A2 : S100000x7.Idx → EReal) (p : Fin 5000) (q : Fin 128) (r : Fin 100000)
    (h0 : ∀ k : Fin 128, x0 (ix2 p k) = A0 (ix2 r k)) (h1 : ∀ k : Fin 128, x1 (ix2 p k) = A1 (ix2 r k))
    (h2 : ∀ j : Fin 7, x2 (ix2 p j) = A2 (ix2 r j)) :
    Gen.out2_15 (F := Ideal) x0 x1 x2 x3 x4 x5 x6 x7 x8 x9 x10 x11 x12 x13 x14 (ix2 p q)
      = Cert.Gin.fcRow (fun k c => x13 (ix2 k c)) (fun c => x14 (ix2 (0 : Fin 1) c)) (Cert.Gin.rowK (Body.blockParams x3 x4 x5 x6 x7 x8 x9 x10 x11 x12) (fun k => A0 (ix2 r k)) (fun k => A1 (ix2 r k)) (fun j => A2 (ix2 r j))) q := by
  refine (Body.out2_15_apply x0 x1 x2 x3 x4 x5 x6 x7 x8 x9 x10 x11 x12 x13 x14 p q).trans ?_
  rw [funext h0, funext h1, funext h2]

/-- WHAT POINT `t` WRITES BACK is block `t` of `G2`. -/
theorem flushed2_eq (c : Dev nD) (t : Fin cfg2.N) :
    (Gen.dat2 (F := Ideal) V c).flushed 15 t = ((cfg2.win 15).blk t).view.read (Elt Ideal) (G2 V c) := by
  show (cfg2.win 15).cut (grid2.coords t) ((Gen.dat2 (F := Ideal) V c).after 15 t) = _
  rw [Gen.after2_15]
  refine funext fun (y : S5000x128.Idx) => ?_
  obtain ⟨p, q, rfl⟩ : ∃ (p : Fin 5000) (q : Fin 128), y = ix2 p q := ⟨y 0, y 1, eq_ix2 y⟩
  have ht : t.val < 20 := Nat.lt_of_lt_of_eq t.isLt (show cfg2.N = 20 from Gen.N_2)
  have hp : p.val < 5000 := p.isLt
  have hr : t.val * 5000 + p.val < 100000 := by omega
  show Gen.out2_15 (F := Ideal) (Gen.iblk2 V c 0 t) (Gen.iblk2 V c 1 t) (Gen.iblk2 V c 2 t) (Gen.iblk2 V c 3 t) (Gen.iblk2 V c 4 t) (Gen.iblk2 V c 5 t) (Gen.iblk2 V c 6 t) (Gen.iblk2 V c 7 t) (Gen.iblk2 V c 8 t) (Gen.iblk2 V c 9 t) (Gen.iblk2 V c 10 t) (Gen.iblk2 V c 11 t) (Gen.iblk2 V c 12 t) (Gen.iblk2 V c 13 t) (Gen.iblk2 V c 14 t) (ix2 p q)
    = G2 V c (((cfg2.win 15).blk t).view.emb (ix2 p q))
  rw [emb2_out t p q ⟨t.val * 5000 + p.val, hr⟩ rfl]
  refine (point2 (Gen.iblk2 V c 0 t) (Gen.iblk2 V c 1 t) (Gen.iblk2 V c 2 t) (Gen.iblk2 V c 3 t) (Gen.iblk2 V c 4 t) (Gen.iblk2 V c 5 t) (Gen.iblk2 V c 6 t) (Gen.iblk2 V c 7 t) (Gen.iblk2 V c 8 t) (Gen.iblk2 V c 9 t) (Gen.iblk2 V c 10 t) (Gen.iblk2 V c 11 t) (Gen.iblk2 V c 12 t) (Gen.iblk2 V c 13 t) (Gen.iblk2 V c 14 t)
    (V c main_v87) (V c main_v97) (V c main_v7) p q ⟨t.val * 5000 + p.val, hr⟩
    (fun k => blk2_0_apply V c t p k _ rfl) (fun k => blk2_1_apply V c t p k _ rfl) (fun j => blk2_2_apply V c t p j _ rfl)).trans ?_
  rw [blk2_3_eq V c t, blk2_4_eq V c t, blk2_5_eq V c t, blk2_6_eq V c t, blk2_7_eq V c t, blk2_8_eq V c t, blk2_9_eq V c t, blk2_10_eq V c t, blk2_11_eq V c t, blk2_12_eq V c t, blk2_13_eq V c t, blk2_14_eq V c t]
  rfl

/-- An index of the output array is in point `t`'s block iff each coordinate is in the block's range on its axis. -/
theorem mem_blk2 (t : Fin cfg2.N) (i : S100000x128.Idx) :
    i ∈ ((cfg2.win 15).blk t).view.set ↔ ∀ a : Fin 2, win2_15.index t a * S5000x128.size a ≤ (i a).val ∧ (i a).val < win2_15.index t a * S5000x128.size a + S5000x128.size a := by
  show i ∈ ((View.whole main_v126).slice (win2_15.rect t)).set ↔ _
  rw [View.set_slice_whole, Rect.mem_set_unit]
  exact Iff.rfl

/-- Every index of the output array is in the block of the point `row / 5000`. -/
theorem cover2 (i : S100000x128.Idx) :
    ∃ t : Fin cfg2.N, (cfg2.win 15).flush t = true ∧ i ∈ ((cfg2.win 15).blk t).view.set := by
  have hi0 : (i 0).val < 100000 := (i 0).isLt
  have hi1 : (i 1).val < 128 := (i 1).isLt
  have hN : cfg2.N = 20 := Gen.N_2
  have hlt : (i 0).val / 5000 < cfg2.N := by rw [hN]; omega
  obtain ⟨e0, e1⟩ := (idx_facts2 ⟨(i 0).val / 5000, hlt⟩).2.2.2
  refine ⟨⟨(i 0).val / 5000, hlt⟩, Gen.flush2_15 _, ?_⟩
  rw [mem_blk2]
  intro a
  match a with
  | ⟨0, _⟩ =>
    show win2_15.index ⟨(i 0).val / 5000, hlt⟩ (0 : Fin 2) * 5000 ≤ (i 0).val ∧ (i 0).val < win2_15.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_15.index ⟨(i 0).val / 5000, hlt⟩ (1 : Fin 2) * 128 ≤ (i 1).val ∧ (i 1).val < win2_15.index ⟨(i 0).val / 5000, hlt⟩ (1 : Fin 2) * 128 + 128
    rw [e1]; omega

/-- THE OUTPUT ARRAY after the region's 20 points, entry by entry. -/
theorem final2 (c : Dev nD) (r : Fin 100000) (q : Fin 128) :
    (Gen.dat2 (F := Ideal) V c).arrAt 15 cfg2.N (ix2 r q)
      = Cert.Gin.fcRow (fun k c' => V c main_arg14 (ix2 k c')) (fun c' => V c main_v125 (ix2 (0 : Fin 1) c'))
      (Cert.Gin.rowK (Body.blockParams (V c main_v99) (V c main_v118) (V c main_v119) (V c main_v120) (V c main_v121) (V c main_v122) (V c main_v111) (V c main_v123) (V c main_v115) (V c main_v124))
      (fun k => V c main_v87 (ix2 r k)) (fun k => V c main_v97 (ix2 r k)) (fun j => V c main_v7 (ix2 r j))) q := by
  rw [(Gen.dat2 (F := Ideal) V c).arrAt_eq_of_cover 15 (G2 V c) (fun t _ => flushed2_eq V c t) (cover2)]
  rfl

end Cert.KernelIdeal.Regions

end
-- ==== Proof.KHost.lean ====
/-
  The host arithmetic both programs share, as pure functions of the argument arrays (the kernel program's spelling):
  the cleaned per-graph statistics gathered per node, the edge list's two rows, and the neighbour aggregation
  (gather the sources' rows, scatter-add them into the destinations' rows). Neither is ever opened: the two programs
  apply the same functions to the same arrays.
-/
import proofs.«144638_j87729001988302_1_alg».proof.KernelIdeal
import Idealize.ShloMosaic.PureOps.Ideal

noncomputable section

namespace Cert.KernelIdeal.Host

open Idealize.ShloMosaic Cert.KernelIdeal

variable [Facts]
open Facts₀ Facts

/-- Not-a-number entries replaced by `-100`: no extended real differs from itself, so this keeps every entry; kept as
    the programs spell it. -/
def nan1 (gs : FVec Ideal S64x7 .f32) : FVec Ideal S64x7 .f32 :=
  select (cmpf .une gs gs) (broadcastInDim S64x7 ![] bcast_S_S64x7 (id (constant (F := Ideal) S_ .f32 0xC2C80000#32))) gs
/-- `+∞` entries replaced by the largest finite word. -/
def nan2 (gs : FVec Ideal S64x7 .f32) : FVec Ideal S64x7 .f32 :=
  select (cmpf .oeq (nan1 gs) (broadcastInDim S64x7 ![] bcast_S_S64x7 (constant (F := Ideal) S_ .f32 0x7F800000#32)))
    (broadcastInDim S64x7 ![] bcast_S_S64x7 (constant (F := Ideal) S_ .f32 0x7F7FFFFF#32)) (nan1 gs)
/-- `-∞` entries replaced by the smallest finite word. -/
def nan3 (gs : FVec Ideal S64x7 .f32) : FVec Ideal S64x7 .f32 :=
  select (cmpf .oeq (nan2 gs) (broadcastInDim S64x7 ![] bcast_S_S64x7 (constant (F := Ideal) S_ .f32 0xFF800000#32)))
    (broadcastInDim S64x7 ![] bcast_S_S64x7 (constant (F := Ideal) S_ .f32 0xFF7FFFFF#32)) (nan2 gs)

/-- Each node's conditioning row: its graph's row of the cleaned statistics (a negative graph id wrapped by 64). -/
def nodeStats (gs : FVec Ideal S64x7 .f32) (batch : IVec S100000 32) : FVec Ideal S100000x7 .f32 :=
  Host.gather gather_S64x7_S100000x1_S100000x7_1_0_n_n_0_1_17 (nan3 gs)
    (broadcastInDim S100000x1 ![0] bcast_S100000_S100000x1_0
      (select (cmpi .slt batch (broadcastInDim S100000 ![] bcast_S_S100000 (constantI S_ 32 0#32)))
        (addi batch (broadcastInDim S100000 ![] bcast_S_S100000 (constantI S_ 32 64#32))) batch))

/-- The edges' source nodes: row 0 of the edge list. -/
def srcIdx (e : IVec S2x1600000 32) : IVec S1600000 32 :=
  fun i => shapeCast S1600000 (extractStridedSlice S1x1600000 ![0, 0] e slices_S2x1600000_S1x1600000_0_0) shapeCasts_S1x1600000_S1600000 i
/-- The edges' destination nodes: row 1 of the edge list. -/
def dstIdx (e : IVec S2x1600000 32) : IVec S1600000 32 :=
  fun i => shapeCast S1600000 (extractStridedSlice S1x1600000 ![1, 0] e slices_S2x1600000_S1x1600000_1_0) shapeCasts_S1x1600000_S1600000 i

/-- The neighbour aggregation: each edge's source row (a negative source wrapped by 100000) gathered, and added into
    the edge's destination row of a zero array. -/
def aggregate (h : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstIdx e))
    (Host.gather gather_S100000x128_S1600000x1_S1600000x128_1_0_n_n_0_1_1128 h
      (broadcastInDim S1600000x1 ![0] bcast_S1600000_S1600000x1_0
        (select (cmpi .slt (srcIdx e) (broadcastInDim S1600000 ![] bcast_S_S1600000 (constantI S_ 32 0#32)))
          (addi (srcIdx e) (broadcastInDim S1600000 ![] bcast_S_S1600000 (constantI S_ 32 100000#32))) (srcIdx e))))

end Cert.KernelIdeal.Host

end
-- ==== Proof.SpecArr.lean ====
/-
  Arrays of rows: the layer and the output projection as whole-array functions, and the layer's parameters read off
  the stacked parameter arrays.
-/
import proofs.«144638_j87729001988302_1_alg».proof.Proof.Spec

noncomputable section

namespace Cert.Gin

open Idealize.ShloMosaic Idealize.ShloMosaic.ValueIdx
open scoped BigOperators

/-- A node-by-feature array, a node-by-statistic array. -/
abbrev Arr : Type := (⟨2, ![100000, 128]⟩ : Shape).Idx → EReal
abbrev Arr7 : Type := (⟨2, ![100000, 7]⟩ : Shape).Idx → EReal

/-- The array whose entry `(r, q)` is `f r q`. -/
def ofRows (f : Fin 100000 → Fin 128 → EReal) : Arr := fun i => f ⟨(i 0).val, (i 0).isLt⟩ ⟨(i 1).val, (i 1).isLt⟩

theorem ofRows_apply (f : Fin 100000 → Fin 128 → EReal) (r : Fin 100000) (q : Fin 128) : ofRows f (ix2 r q) = f r q := rfl

/-- Two arrays that agree at every `(r, q)` are equal. -/
theorem arr_ext {a b : Arr} (h : ∀ (r : Fin 100000) (q : Fin 128), a (ix2 r q) = b (ix2 r q)) : a = b := by
  funext i
  obtain ⟨r, q, rfl⟩ : ∃ (r : Fin 100000) (q : Fin 128), i = ix2 r q := ⟨i 0, i 1, eq_ix2 i⟩
  exact h r q

/-- Layer `l`'s parameters, read off the stacked arrays. -/
def argParams (l : Fin 3) (W1s : (⟨3, ![3, 128, 128]⟩ : Shape).Idx → EReal) (b1s gam bet mea var : (⟨2, ![3, 128]⟩ : Shape).Idx → EReal)
    (W2s : (⟨3, ![3, 128, 128]⟩ : Shape).Idx → EReal) (b2s : (⟨2, ![3, 128]⟩ : Shape).Idx → EReal)
    (sWs : (⟨3, ![3, 7, 128]⟩ : Shape).Idx → EReal) (sBs : (⟨2, ![3, 128]⟩ : Shape).Idx → EReal) : Params where
  w1 := fun k c => W1s (ix3 l k c)
  b1 := fun c => b1s (ix2 l c)
  g := fun c => gam (ix2 l c)
  be := fun c => bet (ix2 l c)
  mu := fun c => mea (ix2 l c)
  va := fun c => var (ix2 l c)
  w2 := fun k c => W2s (ix3 l k c)
  b2 := fun c => b2s (ix2 l c)
  sw := fun j c => sWs (ix3 l j c)
  sb := fun c => sBs (ix2 l c)

/-- One layer over whole arrays, in either arrangement. -/
def layerK (P : Params) (h a : Arr) (s : Arr7) : Arr :=
  ofRows fun r q => rowK P (fun k => h (ix2 r k)) (fun k => a (ix2 r k)) (fun j => s (ix2 r j)) q
def layerR (P : Params) (h a : Arr) (s : Arr7) : Arr :=
  ofRows fun r q => rowR P (fun k => h (ix2 r k)) (fun k => a (ix2 r k)) (fun j => s (ix2 r j)) q

theorem layerK_eq_layerR (P : Params) (hpos : ∀ c, 0 < P.va c + eps) : layerK P = layerR P := by
  unfold layerK layerR
  rw [rowK_eq_rowR P hpos]

/-- The output projection over a whole array. -/
def fcArr (w : Fin 128 → Fin 128 → EReal) (b : Fin 128 → EReal) (h : Arr) : Arr :=
  ofRows fun r q => fcRow w b (fun k => h (ix2 r k)) q

end Cert.Gin

end
-- ==== Proof.LibBroadcasts.lean ====
/-
  The small broadcasts and the one reshape the graph convolution's host arithmetic uses, read at an index, for any
  sizes: a vector as a one-column matrix, a one-column matrix spread over C columns, a scalar spread over any shape, a
  vector as a one-row matrix (as a broadcast and as a reshape), a one-row matrix spread over N rows.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A [K] vector broadcast to a [K, 1] column, read at (e, 0), is the vector at e. -/
theorem column_apply {K : Nat} (h : (⟨1, ![K]⟩ : Shape).BroadcastsInDim ⟨2, ![K, 1]⟩ ![0])
    (y : (⟨1, ![K]⟩ : Shape).Idx → α) (e : Fin K) (z : Fin 1) :
    broadcastInDim ⟨2, ![K, 1]⟩ ![0] h y (ix2 e z) = y (ix1 e) :=
  broadcastInDim_apply _ h y _ _ (fun a => match a with
    | ⟨0, _⟩ => by
      have := e.isLt
      show e.val = if K = 1 then 0 else e.val
      split <;> omega)

/-- A [K, 1] column broadcast over C columns, read at (e, k), is the column at (e, 0). -/
theorem spread_apply {K C : Nat} (h : (⟨2, ![K, 1]⟩ : Shape).BroadcastsInDim ⟨2, ![K, C]⟩ ![0, 1])
    (y : (⟨2, ![K, 1]⟩ : Shape).Idx → α) (e : Fin K) (k : Fin C) :
    broadcastInDim ⟨2, ![K, C]⟩ ![0, 1] h y (ix2 e k) = y (ix2 e 0) :=
  broadcastInDim_apply _ h y _ _ (fun a => match a with
    | ⟨0, _⟩ => by
      have := e.isLt
      show e.val = if K = 1 then 0 else e.val
      split <;> omega
    | ⟨1, _⟩ => by show 0 = if (1 : Nat) = 1 then 0 else k.val; rw [if_pos rfl])

/-- A scalar broadcast to any shape is the scalar everywhere. -/
theorem scalar_apply {t : Shape} (h : (⟨0, ![]⟩ : Shape).BroadcastsInDim t ![])
    (y : (⟨0, ![]⟩ : Shape).Idx → α) (j : t.Idx) :
    broadcastInDim t ![] h y j = y (fun a => a.elim0) :=
  broadcastInDim_apply _ h y _ _ (fun a => a.elim0)

/-- A [C] vector broadcast to a [1, C] row, read at (0, k), is the vector at k. -/
theorem row_apply {C : Nat} (h : (⟨1, ![C]⟩ : Shape).BroadcastsInDim ⟨2, ![1, C]⟩ ![1])
    (y : (⟨1, ![C]⟩ : Shape).Idx → α) (z : Fin 1) (k : Fin C) :
    broadcastInDim ⟨2, ![1, C]⟩ ![1] h y (ix2 z k) = y (ix1 k) :=
  broadcastInDim_apply _ h y _ _ (fun a => match a with
    | ⟨0, _⟩ => by
      have := k.isLt
      show k.val = if C = 1 then 0 else k.val
      split <;> omega)

/-- A [1, C] row broadcast over N rows, read at (i, k), is the row at (0, k). -/
theorem rows_apply {N C : Nat} (h : (⟨2, ![1, C]⟩ : Shape).BroadcastsInDim ⟨2, ![N, C]⟩ ![0, 1])
    (y : (⟨2, ![1, C]⟩ : Shape).Idx → α) (i : Fin N) (k : Fin C) :
    broadcastInDim ⟨2, ![N, C]⟩ ![0, 1] h y (ix2 i k) = y (ix2 0 k) :=
  broadcastInDim_apply _ h y _ _ (fun a => match a with
    | ⟨0, _⟩ => by show 0 = if (1 : Nat) = 1 then 0 else i.val; rw [if_pos rfl]
    | ⟨1, _⟩ => by
      have := k.isLt
      show k.val = if C = 1 then 0 else k.val
      split <;> omega)

/-- A [C] vector reshaped to a [1, C] row, read at (0, k), is the vector at k. -/
theorem row_cast_apply {C : Nat} (h : (⟨1, ![C]⟩ : Shape).ShapeCasts ⟨2, ![1, C]⟩)
    (y : (⟨1, ![C]⟩ : Shape).Idx → α) (z : Fin 1) (k : Fin C) :
    shapeCast ⟨2, ![1, C]⟩ y h (ix2 z k) = y (ix1 k) :=
  shapeCast_apply y h (ix2 z k) (ix1 k) (by
    rewrite [Shape.rowMajor_val_two, Shape.rowMajor_val_one]
    have := z.isLt
    show k.val = z.val * C + k.val
    have hz : z.val = 0 := by omega
    rw [hz]; omega)

end Cert.LibBroadcasts

end
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.KEntry.lean ====
/-
  The buffer contents at each region's entry, in the kernel program: the node features, the neighbour aggregation, the
  per-node conditioning rows and the layer's parameters, each as a function of the launch arrays (regions 1 and 2: of
  the previous region's output array), and the output array at the return.
-/
import proofs.«144638_j87729001988302_1_alg».proof.Proof.Gen.KernelIdeal.Frame
import proofs.«144638_j87729001988302_1_alg».proof.Proof.KHost
import proofs.«144638_j87729001988302_1_alg».proof.Proof.SpecArr
import proofs.«144638_j87729001988302_1_alg».proof.Proof.KBody
import proofs.«144638_j87729001988302_1_alg».proof.Proof.LibBroadcasts
import proofs.«144638_j87729001988302_1_alg».proof.Proof.LibUnitAxisCasts
import Idealize.ShloMosaic.Lib.ValueIdx
import Idealize.ShloMosaic.Lib.Pipeline.Value
import Idealize.ShloMosaic.Lib.StableHlo.Run

set_option maxRecDepth 16384

noncomputable section

namespace Cert.KernelIdeal.Entry

open Idealize.ShloMosaic Idealize.ShloMosaic.TcCoe Idealize.ShloMosaic.Tactic Idealize.ShloMosaic.ValueIdx
open Cert.KernelIdeal Cert.KernelIdeal.Gen
open Idealize.ShloMosaic.Pipeline (Dat Cfg Window)

attribute [local instance] Cert.KernelIdeal.Gen.facts

variable (m : (ℓ : Loc nD τ sig) → Buf (Elt Ideal) ℓ) (ρ : Dev nD → PrngReg) (c : Dev nD)

/-! ## A layer's slice of a stacked parameter array, read at an entry -/

/-- Row `l` of a stacked `[3, 128]` array, cut out as a `[1, 128]` slice, flattened to `[128]` and put back as a
    `[1, 128]` row: entry `(0, c)` is the stacked array's entry `(l, c)`. -/
theorem row_of_stack {α : Type} (l : Fin 3) (o : Nat) (ho : o = l.val) (x : S3x128.Idx → α)
    (hS : S3x128.Slices ![o, 0] S1x128) (h1 : S1x128.ShapeCasts S128) (h2 : S128.ShapeCasts S1x128) (q : Fin 128) :
    shapeCast S1x128 (fun i => shapeCast S128 (extractStridedSlice S1x128 ![o, 0] x hS) h1 i) h2 (ix2 (0 : Fin 1) q)
      = x (ix2 l q) := by
  refine (Cert.LibBroadcasts.row_cast_apply h2 _ (0 : Fin 1) q).trans ?_
  show shapeCast S128 (extractStridedSlice S1x128 ![o, 0] x hS) h1 (ix1 q) = _
  refine (shapeCast_apply _ h1 (ix1 q) (ix2 (0 : Fin 1) q) ?_).trans ?_
  · rw [Shape.rowMajor_val_two, Shape.rowMajor_val_one]
    show (0 : ℕ) * 128 + q.val = q.val
    omega
  · exact extractStridedSlice_apply _ x hS _ (ix2 l q) (fun a => match a with
      | ⟨0, _⟩ => by show l.val = o + 0; omega
      | ⟨1, _⟩ => by show q.val = 0 + q.val; omega)

/-- Matrix `l` of a stacked `[3, a, 128]` array, cut out as a `[1, a, 128]` slice with the unit axis dropped: entry
    `(k, c)` is the stacked array's entry `(l, k, c)`. -/
theorem mat_of_stack {α : Type} {a : Nat} (l : Fin 3) (o : Nat) (ho : o = l.val) (x : (⟨3, ![3, a, 128]⟩ : Shape).Idx → α)
    (hS : (⟨3, ![3, a, 128]⟩ : Shape).Slices ![o, 0, 0] ⟨3, ![1, a, 128]⟩)
    (h : (⟨3, ![1, a, 128]⟩ : Shape).ShapeCasts ⟨2, ![a, 128]⟩) (k : Fin a) (q : Fin 128) :
    shapeCast ⟨2, ![a, 128]⟩ (extractStridedSlice ⟨3, ![1, a, 128]⟩ ![o, 0, 0] x hS) h (ix2 k q) = x (ix3 l k q) := by
  refine (Cert.LibUnitAxisCasts.shapeCast_1ab_ab_apply _ h k q).trans ?_
  exact extractStridedSlice_apply _ x hS _ (ix3 l k q) (fun d => match d with
    | ⟨0, _⟩ => by show l.val = o + 0; omega
    | ⟨1, _⟩ => by show k.val = 0 + k.val; omega
    | ⟨2, _⟩ => by show q.val = 0 + q.val; omega)

/-- The ten window arrays of layer `l`, each a slice of a stacked argument reshaped, are layer `l`'s parameters. -/
theorem params_of_stack (l : Fin 3) (o : Nat) (ho : o = l.val)
    (A4 : S3x128x128.Idx → EReal) (A5 A6 A7 A8 A9 : S3x128.Idx → EReal) (A10 : S3x128x128.Idx → EReal)
    (A11 : S3x128.Idx → EReal) (A12 : S3x7x128.Idx → EReal) (A13 : S3x128.Idx → EReal)
    (hS3 : S3x128x128.Slices ![o, 0, 0] S1x128x128) (hS2 : S3x128.Slices ![o, 0] S1x128)
    (hS7 : S3x7x128.Slices ![o, 0, 0] S1x7x128)
    (h3 : S1x128x128.ShapeCasts S128x128) (h7 : S1x7x128.ShapeCasts S7x128)
    (h1 : S1x128.ShapeCasts S128) (h2 : S128.ShapeCasts S1x128) :
    Body.blockParams
      (fun i => shapeCast S128x128 (extractStridedSlice S1x128x128 ![o, 0, 0] A4 hS3) h3 i)
      (fun i => shapeCast S1x128 (fun i => shapeCast S128 (extractStridedSlice S1x128 ![o, 0] A5 hS2) h1 i) h2 i)
      (fun i => shapeCast S1x128 (fun i => shapeCast S128 (extractStridedSlice S1x128 ![o, 0] A6 hS2) h1 i) h2 i)
      (fun i => shapeCast S1x128 (fun i => shapeCast S128 (extractStridedSlice S1x128 ![o, 0] A7 hS2) h1 i) h2 i)
      (fun i => shapeCast S1x128 (fun i => shapeCast S128 (extractStridedSlice S1x128 ![o, 0] A8 hS2) h1 i) h2 i)
      (fun i => shapeCast S1x128 (fun i => shapeCast S128 (extractStridedSlice S1x128 ![o, 0] A9 hS2) h1 i) h2 i)
      (fun i => shapeCast S128x128 (extractStridedSlice S1x128x128 ![o, 0, 0] A10 hS3) h3 i)
      (fun i => shapeCast S1x128 (fun i => shapeCast S128 (extractStridedSlice S1x128 ![o, 0] A11 hS2) h1 i) h2 i)
      (fun i => shapeCast S7x128 (extractStridedSlice S1x7x128 ![o, 0, 0] A12 hS7) h7 i)
      (fun i => shapeCast S1x128 (fun i => shapeCast S128 (extractStridedSlice S1x128 ![o, 0] A13 hS2) h1 i) h2 i)
      = Cert.Gin.argParams l A4 A5 A6 A7 A8 A9 A10 A11 A12 A13 := by
  unfold Body.blockParams Cert.Gin.argParams
  congr 1
  · funext k q; exact mat_of_stack l o ho A4 hS3 h3 k q
  · funext q; exact row_of_stack l o ho A5 hS2 h1 h2 q
  · funext q; exact row_of_stack l o ho A6 hS2 h1 h2 q
  · funext q; exact row_of_stack l o ho A7 hS2 h1 h2 q
  · funext q; exact row_of_stack l o ho A8 hS2 h1 h2 q
  · funext q; exact row_of_stack l o ho A9 hS2 h1 h2 q
  · funext k q; exact mat_of_stack l o ho A10 hS3 h3 k q
  · funext q; exact row_of_stack l o ho A11 hS2 h1 h2 q
  · funext k q; exact mat_of_stack l o ho A12 hS7 h7 k q
  · funext q; exact row_of_stack l o ho A13 hS2 h1 h2 q

/-! ## Region 0's entry -/

theorem V3_h : Gen.V3 m ρ c main_arg0 = m ((c : Thread nD τ).loc main_arg0) := by
  show StableHlo.after hostOps0_2 (Gen.W2 m ρ c) (Proc.devRef .tc main_arg0) = _
  after_results_simp

theorem V3_agg : Gen.V3 m ρ c main_v21 = Host.aggregate (m ((c : Thread nD τ).loc main_arg0)) (m ((c : Thread nD τ).loc main_arg1)) := by
  show StableHlo.after hostOps0_2 (Gen.W2 m ρ c) (Proc.devRef .tc main_v21) = _
  after_results_simp
  rfl

theorem V3_ns : Gen.V3 m ρ c main_v7 = Host.nodeStats (m ((c : Thread nD τ).loc main_arg3)) (m ((c : Thread nD τ).loc main_arg2)) := by
  show StableHlo.after hostOps0_2 (Gen.W2 m ρ c) (Proc.devRef .tc main_v7) = _
  after_results_simp
  rfl

theorem V3_params :
    Body.blockParams (Gen.V3 m ρ c main_v23) (Gen.V3 m ρ c main_v42) (Gen.V3 m ρ c main_v43) (Gen.V3 m ρ c main_v44)
      (Gen.V3 m ρ c main_v45) (Gen.V3 m ρ c main_v46) (Gen.V3 m ρ c main_v35) (Gen.V3 m ρ c main_v47)
      (Gen.V3 m ρ c main_v39) (Gen.V3 m ρ c main_v48)
      = Cert.Gin.argParams 0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  dsimp only [Gen.V3, Gen.W3]
  after_results_simp
  exact params_of_stack 0 0 rfl _ _ _ _ _ _ _ _ _ _ _ _ _ _ _ _ _

/-! ## The argument arrays and the edge rows at the later boundaries: no host operation and no region writes them -/

theorem W3_arg1 : Gen.W3 m ρ c (Proc.devRef .tc main_arg1) = m ((c : Thread nD τ).loc main_arg1) := by
  show StableHlo.after hostOps0_2 (Gen.W2 m ρ c) (Proc.devRef .tc main_arg1) = _
  after_results_simp
theorem W4_arg1 : Gen.W4 m ρ c (Proc.devRef .tc main_arg1) = m ((c : Thread nD τ).loc main_arg1) :=
  (Gen.W4_of_ne m ρ c main_arg1 (by decide)).trans (W3_arg1 m ρ c)
theorem W5_arg1 : Gen.W5 m ρ c (Proc.devRef .tc main_arg1) = m ((c : Thread nD τ).loc main_arg1) := by
  show StableHlo.after hostOps1 (Gen.W4 m ρ c) (Proc.devRef .tc main_arg1) = _
  after_results_simp
  exact W4_arg1 m ρ c
theorem W6_arg1 : Gen.W6 m ρ c (Proc.devRef .tc main_arg1) = m ((c : Thread nD τ).loc main_arg1) :=
  (Gen.W6_of_ne m ρ c main_arg1 (by decide)).trans (W5_arg1 m ρ c)

theorem W3_arg4 : Gen.W3 m ρ c (Proc.devRef .tc main_arg4) = m ((c : Thread nD τ).loc main_arg4) := by
  show StableHlo.after hostOps0_2 (Gen.W2 m ρ c) (Proc.devRef .tc main_arg4) = _
  after_results_simp
theorem W4_arg4 : Gen.W4 m ρ c (Proc.devRef .tc main_arg4) = m ((c : Thread nD τ).loc main_arg4) :=
  (Gen.W4_of_ne m ρ c main_arg4 (by decide)).trans (W3_arg4 m ρ c)
theorem W5_arg4 : Gen.W5 m ρ c (Proc.devRef .tc main_arg4) = m ((c : Thread nD τ).loc main_arg4) := by
  show StableHlo.after hostOps1 (Gen.W4 m ρ c) (Proc.devRef .tc main_arg4) = _
  after_results_simp
  exact W4_arg4 m ρ c
theorem W6_arg4 : Gen.W6 m ρ c (Proc.devRef .tc main_arg4) = m ((c : Thread nD τ).loc main_arg4) :=
  (Gen.W6_of_ne m ρ c main_arg4 (by decide)).trans (W5_arg4 m ρ c)

theorem W3_arg5 : Gen.W3 m ρ c (Proc.devRef .tc main_arg5) = m ((c : Thread nD τ).loc main_arg5) := by
  show StableHlo.after hostOps0_2 (Gen.W2 m ρ c) (Proc.devRef .tc main_arg5) = _
  after_results_simp
theorem W4_arg5 : Gen.W4 m ρ c (Proc.devRef .tc main_arg5) = m ((c : Thread nD τ).loc main_arg5) :=
  (Gen.W4_of_ne m ρ c main_arg5 (by decide)).trans (W3_arg5 m ρ c)
theorem W5_arg5 : Gen.W5 m ρ c (Proc.devRef .tc main_arg5) = m ((c : Thread nD τ).loc main_arg5) := by
  show StableHlo.after hostOps1 (Gen.W4 m ρ c) (Proc.devRef .tc main_arg5) = _
  after_results_simp
  exact W4_arg5 m ρ c
theorem W6_arg5 : Gen.W6 m ρ c (Proc.devRef .tc main_arg5) = m ((c : Thread nD τ).loc main_arg5) :=
  (Gen.W6_of_ne m ρ c main_arg5 (by decide)).trans (W5_arg5 m ρ c)

theorem W3_arg6 : Gen.W3 m ρ c (Proc.devRef .tc main_arg6) = m ((c : Thread nD τ).loc main_arg6) := by
  show StableHlo.after hostOps0_2 (Gen.W2 m ρ c) (Proc.devRef .tc main_arg6) = _
  after_results_simp
theorem W4_arg6 : Gen.W4 m ρ c (Proc.devRef .tc main_arg6) = m ((c : Thread nD τ).loc main_arg6) :=
  (Gen.W4_of_ne m ρ c main_arg6 (by decide)).trans (W3_arg6 m ρ c)
theorem W5_arg6 : Gen.W5 m ρ c (Proc.devRef .tc main_arg6) = m ((c : Thread nD τ).loc main_arg6) := by
  show StableHlo.after hostOps1 (Gen.W4 m ρ c) (Proc.devRef .tc main_arg6) = _
  after_results_simp
  exact W4_arg6 m ρ c
theorem W6_arg6 : Gen.W6 m ρ c (Proc.devRef .tc main_arg6) = m ((c : Thread nD τ).loc main_arg6) :=
  (Gen.W6_of_ne m ρ c main_arg6 (by decide)).trans (W5_arg6 m ρ c)

theorem W3_arg7 : Gen.W3 m ρ c (Proc.devRef .tc main_arg7) = m ((c : Thread nD τ).loc main_arg7) := by
  show StableHlo.after hostOps0_2 (Gen.W2 m ρ c) (Proc.devRef .tc main_arg7) = _
  after_results_simp
theorem W4_arg7 : Gen.W4 m ρ c (Proc.devRef .tc main_arg7) = m ((c : Thread nD τ).loc main_arg7) :=
  (Gen.W4_of_ne m ρ c main_arg7 (by decide)).trans (W3_arg7 m ρ c)
theorem W5_arg7 : Gen.W5 m ρ c (Proc.devRef .tc main_arg7) = m ((c : Thread nD τ).loc main_arg7) := by
  show StableHlo.after hostOps1 (Gen.W4 m ρ c) (Proc.devRef .tc main_arg7) = _
  after_results_simp
  exact W4_arg7 m ρ c
theorem W6_arg7 : Gen.W6 m ρ c (Proc.devRef .tc main_arg7) = m ((c : Thread nD τ).loc main_arg7) :=
  (Gen.W6_of_ne m ρ c main_arg7 (by decide)).trans (W5_arg7 m ρ c)

theorem W3_arg8 : Gen.W3 m ρ c (Proc.devRef .tc main_arg8) = m ((c : Thread nD τ).loc main_arg8) := by
  show StableHlo.after hostOps0_2 (Gen.W2 m ρ c) (Proc.devRef .tc main_arg8) = _
  after_results_simp
theorem W4_arg8 : Gen.W4 m ρ c (Proc.devRef .tc main_arg8) = m ((c : Thread nD τ).loc main_arg8) :=
  (Gen.W4_of_ne m ρ c main_arg8 (by decide)).trans (W3_arg8 m ρ c)
theorem W5_arg8 : Gen.W5 m ρ c (Proc.devRef .tc main_arg8) = m ((c : Thread nD τ).loc main_arg8) := by
  show StableHlo.after hostOps1 (Gen.W4 m ρ c) (Proc.devRef .tc main_arg8) = _
  after_results_simp
  exact W4_arg8 m ρ c
theorem W6_arg8 : Gen.W6 m ρ c (Proc.devRef .tc main_arg8) = m ((c : Thread nD τ).loc main_arg8) :=
  (Gen.W6_of_ne m ρ c main_arg8 (by decide)).trans (W5_arg8 m ρ c)

theorem W3_arg9 : Gen.W3 m ρ c (Proc.devRef .tc main_arg9) = m ((c : Thread nD τ).loc main_arg9) := by
  show StableHlo.after hostOps0_2 (Gen.W2 m ρ c) (Proc.devRef .tc main_arg9) = _
  after_results_simp
theorem W4_arg9 : Gen.W4 m ρ c (Proc.devRef .tc main_arg9) = m ((c : Thread nD τ).loc main_arg9) :=
  (Gen.W4_of_ne m ρ c main_arg9 (by decide)).trans (W3_arg9 m ρ c)
theorem W5_arg9 : Gen.W5 m ρ c (Proc.devRef .tc main_arg9) = m ((c : Thread nD τ).loc main_arg9) := by
  show StableHlo.after hostOps1 (Gen.W4 m ρ c) (Proc.devRef .tc main_arg9) = _
  after_results_simp
  exact W4_arg9 m ρ c
theorem W6_arg9 : Gen.W6 m ρ c (Proc.devRef .tc main_arg9) = m ((c : Thread nD τ).loc main_arg9) :=
  (Gen.W6_of_ne m ρ c main_arg9 (by decide)).trans (W5_arg9 m ρ c)

theorem W3_arg10 : Gen.W3 m ρ c (Proc.devRef .tc main_arg10) = m ((c : Thread nD τ).loc main_arg10) := by
  show StableHlo.after hostOps0_2 (Gen.W2 m ρ c) (Proc.devRef .tc main_arg10) = _
  after_results_simp
theorem W4_arg10 : Gen.W4 m ρ c (Proc.devRef .tc main_arg10) = m ((c : Thread nD τ).loc main_arg10) :=
  (Gen.W4_of_ne m ρ c main_arg10 (by decide)).trans (W3_arg10 m ρ c)
theorem W5_arg10 : Gen.W5 m ρ c (Proc.devRef .tc main_arg10) = m ((c : Thread nD τ).loc main_arg10) := by
  show StableHlo.after hostOps1 (Gen.W4 m ρ c) (Proc.devRef .tc main_arg10) = _
  after_results_simp
  exact W4_arg10 m ρ c
theorem W6_arg10 : Gen.W6 m ρ c (Proc.devRef .tc main_arg10) = m ((c : Thread nD τ).loc main_arg10) :=
  (Gen.W6_of_ne m ρ c main_arg10 (by decide)).trans (W5_arg10 m ρ c)

theorem W3_arg11 : Gen.W3 m ρ c (Proc.devRef .tc main_arg11) = m ((c : Thread nD τ).loc main_arg11) := by
  show StableHlo.after hostOps0_2 (Gen.W2 m ρ c) (Proc.devRef .tc main_arg11) = _
  after_results_simp
theorem W4_arg11 : Gen.W4 m ρ c (Proc.devRef .tc main_arg11) = m ((c : Thread nD τ).loc main_arg11) :=
  (Gen.W4_of_ne m ρ c main_arg11 (by decide)).trans (W3_arg11 m ρ c)
theorem W5_arg11 : Gen.W5 m ρ c (Proc.devRef .tc main_arg11) = m ((c : Thread nD τ).loc main_arg11) := by
  show StableHlo.after hostOps1 (Gen.W4 m ρ c) (Proc.devRef .tc main_arg11) = _
  after_results_simp
  exact W4_arg11 m ρ c
theorem W6_arg11 : Gen.W6 m ρ c (Proc.devRef .tc main_arg11) = m ((c : Thread nD τ).loc main_arg11) :=
  (Gen.W6_of_ne m ρ c main_arg11 (by decide)).trans (W5_arg11 m ρ c)

theorem W3_arg12 : Gen.W3 m ρ c (Proc.devRef .tc main_arg12) = m ((c : Thread nD τ).loc main_arg12) := by
  show StableHlo.after hostOps0_2 (Gen.W2 m ρ c) (Proc.devRef .tc main_arg12) = _
  after_results_simp
theorem W4_arg12 : Gen.W4 m ρ c (Proc.devRef .tc main_arg12) = m ((c : Thread nD τ).loc main_arg12) :=
  (Gen.W4_of_ne m ρ c main_arg12 (by decide)).trans (W3_arg12 m ρ c)
theorem W5_arg12 : Gen.W5 m ρ c (Proc.devRef .tc main_arg12) = m ((c : Thread nD τ).loc main_arg12) := by
  show StableHlo.after hostOps1 (Gen.W4 m ρ c) (Proc.devRef .tc main_arg12) = _
  after_results_simp
  exact W4_arg12 m ρ c
theorem W6_arg12 : Gen.W6 m ρ c (Proc.devRef .tc main_arg12) = m ((c : Thread nD τ).loc main_arg12) :=
  (Gen.W6_of_ne m ρ c main_arg12 (by decide)).trans (W5_arg12 m ρ c)

theorem W3_arg13 : Gen.W3 m ρ c (Proc.devRef .tc main_arg13) = m ((c : Thread nD τ).loc main_arg13) := by
  show StableHlo.after hostOps0_2 (Gen.W2 m ρ c) (Proc.devRef .tc main_arg13) = _
  after_results_simp
theorem W4_arg13 : Gen.W4 m ρ c (Proc.devRef .tc main_arg13) = m ((c : Thread nD τ).loc main_arg13) :=
  (Gen.W4_of_ne m ρ c main_arg13 (by decide)).trans (W3_arg13 m ρ c)
theorem W5_arg13 : Gen.W5 m ρ c (Proc.devRef .tc main_arg13) = m ((c : Thread nD τ).loc main_arg13) := by
  show StableHlo.after hostOps1 (Gen.W4 m ρ c) (Proc.devRef .tc main_arg13) = _
  after_results_simp
  exact W4_arg13 m ρ c
theorem W6_arg13 : Gen.W6 m ρ c (Proc.devRef .tc main_arg13) = m ((c : Thread nD τ).loc main_arg13) :=
  (Gen.W6_of_ne m ρ c main_arg13 (by decide)).trans (W5_arg13 m ρ c)

theorem W3_arg14 : Gen.W3 m ρ c (Proc.devRef .tc main_arg14) = m ((c : Thread nD τ).loc main_arg14) := by
  show StableHlo.after hostOps0_2 (Gen.W2 m ρ c) (Proc.devRef .tc main_arg14) = _
  after_results_simp
theorem W4_arg14 : Gen.W4 m ρ c (Proc.devRef .tc main_arg14) = m ((c : Thread nD τ).loc main_arg14) :=
  (Gen.W4_of_ne m ρ c main_arg14 (by decide)).trans (W3_arg14 m ρ c)
theorem W5_arg14 : Gen.W5 m ρ c (Proc.devRef .tc main_arg14) = m ((c : Thread nD τ).loc main_arg14) := by
  show StableHlo.after hostOps1 (Gen.W4 m ρ c) (Proc.devRef .tc main_arg14) = _
  after_results_simp
  exact W4_arg14 m ρ c
theorem W6_arg14 : Gen.W6 m ρ c (Proc.devRef .tc main_arg14) = m ((c : Thread nD τ).loc main_arg14) :=
  (Gen.W6_of_ne m ρ c main_arg14 (by decide)).trans (W5_arg14 m ρ c)

theorem W3_arg15 : Gen.W3 m ρ c (Proc.devRef .tc main_arg15) = m ((c : Thread nD τ).loc main_arg15) := by
  show StableHlo.after hostOps0_2 (Gen.W2 m ρ c) (Proc.devRef .tc main_arg15) = _
  after_results_simp
theorem W4_arg15 : Gen.W4 m ρ c (Proc.devRef .tc main_arg15) = m ((c : Thread nD τ).loc main_arg15) :=
  (Gen.W4_of_ne m ρ c main_arg15 (by decide)).trans (W3_arg15 m ρ c)
theorem W5_arg15 : Gen.W5 m ρ c (Proc.devRef .tc main_arg15) = m ((c : Thread nD τ).loc main_arg15) := by
  show StableHlo.after hostOps1 (Gen.W4 m ρ c) (Proc.devRef .tc main_arg15) = _
  after_results_simp
  exact W4_arg15 m ρ c
theorem W6_arg15 : Gen.W6 m ρ c (Proc.devRef .tc main_arg15) = m ((c : Thread nD τ).loc main_arg15) :=
  (Gen.W6_of_ne m ρ c main_arg15 (by decide)).trans (W5_arg15 m ρ c)

/-- The edges' source and destination rows are computed once, before region 0. -/
theorem W3_v9 : Gen.W3 m ρ c (Proc.devRef .tc main_v9) = Host.srcIdx (m ((c : Thread nD τ).loc main_arg1)) := by
  show StableHlo.after hostOps0_2 (Gen.W2 m ρ c) (Proc.devRef .tc main_v9) = _
  after_results_simp
  rfl
theorem W3_v11 : Gen.W3 m ρ c (Proc.devRef .tc main_v11) = Host.dstIdx (m ((c : Thread nD τ).loc main_arg1)) := by
  show StableHlo.after hostOps0_2 (Gen.W2 m ρ c) (Proc.devRef .tc main_v11) = _
  after_results_simp
  rfl

theorem W4_v9 : Gen.W4 m ρ c (Proc.devRef .tc main_v9) = Host.srcIdx (m ((c : Thread nD τ).loc main_arg1)) :=
  (Gen.W4_of_ne m ρ c main_v9 (by decide)).trans (W3_v9 m ρ c)
theorem W5_v9 : Gen.W5 m ρ c (Proc.devRef .tc main_v9) = Host.srcIdx (m ((c : Thread nD τ).loc main_arg1)) := by
  show StableHlo.after hostOps1 (Gen.W4 m ρ c) (Proc.devRef .tc main_v9) = _
  after_results_simp
  exact W4_v9 m ρ c
theorem W6_v9 : Gen.W6 m ρ c (Proc.devRef .tc main_v9) = Host.srcIdx (m ((c : Thread nD τ).loc main_arg1)) :=
  (Gen.W6_of_ne m ρ c main_v9 (by decide)).trans (W5_v9 m ρ c)

theorem W4_v11 : Gen.W4 m ρ c (Proc.devRef .tc main_v11) = Host.dstIdx (m ((c : Thread nD τ).loc main_arg1)) :=
  (Gen.W4_of_ne m ρ c main_v11 (by decide)).trans (W3_v11 m ρ c)
theorem W5_v11 : Gen.W5 m ρ c (Proc.devRef .tc main_v11) = Host.dstIdx (m ((c : Thread nD τ).loc main_arg1)) := by
  show StableHlo.after hostOps1 (Gen.W4 m ρ c) (Proc.devRef .tc main_v11) = _
  after_results_simp
  exact W4_v11 m ρ c
theorem W6_v11 : Gen.W6 m ρ c (Proc.devRef .tc main_v11) = Host.dstIdx (m ((c : Thread nD τ).loc main_arg1)) :=
  (Gen.W6_of_ne m ρ c main_v11 (by decide)).trans (W5_v11 m ρ c)

/-- The conditioning rows are an input window of every region: a region leaves them as it found them. -/
theorem W4_v7 : Gen.W4 m ρ c (Proc.devRef .tc main_v7) = Host.nodeStats (m ((c : Thread nD τ).loc main_arg3)) (m ((c : Thread nD τ).loc main_arg2)) :=
  ((Gen.W4_arr m ρ c 2).trans (((Gen.dat0 (Gen.V3 m ρ) c).arrAt_in 2 rfl _).trans (Gen.A_eq0 (Gen.V3 m ρ) c 2))).trans
    (V3_ns m ρ c)
/-- Region 0's output array at its exit. -/
theorem W4_v49 : Gen.W4 m ρ c (Proc.devRef .tc main_v49) = (Gen.dat0 (F := Ideal) (Gen.V3 m ρ) c).arrAt 13 cfg0.N :=
  Gen.W4_arr m ρ c 13

/-! ## Region 1's entry -/

theorem V5_h : Gen.V5 m ρ c main_v49 = (Gen.dat0 (F := Ideal) (Gen.V3 m ρ) c).arrAt 13 cfg0.N := by
  show StableHlo.after hostOps1 (Gen.W4 m ρ c) (Proc.devRef .tc main_v49) = _
  after_results_simp
  exact W4_v49 m ρ c

theorem V5_agg : Gen.V5 m ρ c main_v59
    = Host.aggregate ((Gen.dat0 (F := Ideal) (Gen.V3 m ρ) c).arrAt 13 cfg0.N) (m ((c : Thread nD τ).loc main_arg1)) := by
  show StableHlo.after hostOps1 (Gen.W4 m ρ c) (Proc.devRef .tc main_v59) = _
  after_results_simp
  rw [W4_v9 m ρ c, W4_v11 m ρ c, W4_v49 m ρ c]
  rfl

theorem V5_ns : Gen.V5 m ρ c main_v7 = Host.nodeStats (m ((c : Thread nD τ).loc main_arg3)) (m ((c : Thread nD τ).loc main_arg2)) := by
  show StableHlo.after hostOps1 (Gen.W4 m ρ c) (Proc.devRef .tc main_v7) = _
  after_results_simp
  exact W4_v7 m ρ c

theorem V5_params :
    Body.blockParams (Gen.V5 m ρ c main_v61) (Gen.V5 m ρ c main_v80) (Gen.V5 m ρ c main_v81) (Gen.V5 m ρ c main_v82) (Gen.V5 m ρ c main_v83) (Gen.V5 m ρ c main_v84) (Gen.V5 m ρ c main_v73) (Gen.V5 m ρ c main_v85) (Gen.V5 m ρ c main_v77) (Gen.V5 m ρ c main_v86)
      = Cert.Gin.argParams 1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  dsimp only [Gen.V5, Gen.W5]
  after_results_simp
  rw [W4_arg4 m ρ c, W4_arg5 m ρ c, W4_arg6 m ρ c, W4_arg7 m ρ c, W4_arg8 m ρ c, W4_arg9 m ρ c, W4_arg10 m ρ c, W4_arg11 m ρ c, W4_arg12 m ρ c, W4_arg13 m ρ c]
  exact params_of_stack 1 1 rfl _ _ _ _ _ _ _ _ _ _ _ _ _ _ _ _ _

/-! ## Region 2's entry -/

theorem W6_v7 : Gen.W6 m ρ c (Proc.devRef .tc main_v7) = Host.nodeStats (m ((c : Thread nD τ).loc main_arg3)) (m ((c : Thread nD τ).loc main_arg2)) :=
  ((Gen.W6_arr m ρ c 2).trans (((Gen.dat1 (Gen.V5 m ρ) c).arrAt_in 2 rfl _).trans (Gen.A_eq1 (Gen.V5 m ρ) c 2))).trans
    (V5_ns m ρ c)
/-- Region 1's output array at its exit. -/
theorem W6_v87 : Gen.W6 m ρ c (Proc.devRef .tc main_v87) = (Gen.dat1 (F := Ideal) (Gen.V5 m ρ) c).arrAt 13 cfg1.N :=
  Gen.W6_arr m ρ c 13

theorem V7_h : Gen.V7 m ρ c main_v87 = (Gen.dat1 (F := Ideal) (Gen.V5 m ρ) c).arrAt 13 cfg1.N := by
  show StableHlo.after hostOps2 (Gen.W6 m ρ c) (Proc.devRef .tc main_v87) = _
  after_results_simp
  exact W6_v87 m ρ c

theorem V7_agg : Gen.V7 m ρ c main_v97
    = Host.aggregate ((Gen.dat1 (F := Ideal) (Gen.V5 m ρ) c).arrAt 13 cfg1.N) (m ((c : Thread nD τ).loc main_arg1)) := by
  show StableHlo.after hostOps2 (Gen.W6 m ρ c) (Proc.devRef .tc main_v97) = _
  after_results_simp
  rw [W6_v9 m ρ c, W6_v11 m ρ c, W6_v87 m ρ c]
  rfl

theorem V7_ns : Gen.V7 m ρ c main_v7 = Host.nodeStats (m ((c : Thread nD τ).loc main_arg3)) (m ((c : Thread nD τ).loc main_arg2)) := by
  show StableHlo.after hostOps2 (Gen.W6 m ρ c) (Proc.devRef .tc main_v7) = _
  after_results_simp
  exact W6_v7 m ρ c

theorem V7_params :
    Body.blockParams (Gen.V7 m ρ c main_v99) (Gen.V7 m ρ c main_v118) (Gen.V7 m ρ c main_v119) (Gen.V7 m ρ c main_v120) (Gen.V7 m ρ c main_v121) (Gen.V7 m ρ c main_v122) (Gen.V7 m ρ c main_v111) (Gen.V7 m ρ c main_v123) (Gen.V7 m ρ c main_v115) (Gen.V7 m ρ c main_v124)
      = Cert.Gin.argParams 2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  dsimp only [Gen.V7, Gen.W7]
  after_results_simp
  rw [W6_arg4 m ρ c, W6_arg5 m ρ c, W6_arg6 m ρ c, W6_arg7 m ρ c, W6_arg8 m ρ c, W6_arg9 m ρ c, W6_arg10 m ρ c, W6_arg11 m ρ c, W6_arg12 m ρ c, W6_arg13 m ρ c]
  exact params_of_stack 2 2 rfl _ _ _ _ _ _ _ _ _ _ _ _ _ _ _ _ _

theorem V7_fcW : Gen.V7 m ρ c main_arg14 = m ((c : Thread nD τ).loc main_arg14) := by
  show StableHlo.after hostOps2 (Gen.W6 m ρ c) (Proc.devRef .tc main_arg14) = _
  after_results_simp
  exact W6_arg14 m ρ c

theorem V7_fcB (c' : Fin 128) :
    Gen.V7 m ρ c main_v125 (ix2 (0 : Fin 1) c') = m ((c : Thread nD τ).loc main_arg15) (ix1 c') := by
  show StableHlo.after hostOps2 (Gen.W6 m ρ c) (Proc.devRef .tc main_v125) (ix2 (0 : Fin 1) c') = _
  after_results_simp
  rw [W6_arg15 m ρ c]
  exact Cert.LibBroadcasts.row_cast_apply _ _ (0 : Fin 1) c'

/-! ## The return -/

theorem W8_out : Gen.W8 m ρ c (Proc.devRef .tc main_v126) = (Gen.dat2 (F := Ideal) (Gen.V7 m ρ) c).arrAt 15 cfg2.N :=
  Gen.W8_arr m ρ c 15

end Cert.KernelIdeal.Entry
end
-- ==== Proof.KValue.lean ====
/-
  The kernel program's result as a composition of layers.

  The program's three regions each leave, in their output array, the layer's row function of the rows of their input
  arrays; between them the host gathers and adds the neighbours' rows and slices the stacked parameters. Reading each
  region's inputs back to the launch arrays, the first region's output is one layer of the node features, their
  aggregation and the per-node statistics; the second is one layer of that array; the last is the output projection of
  one layer of the second. The result buffer therefore ends at `kOut` of the sixteen argument arrays, in every run.
-/
import proofs.«144638_j87729001988302_1_alg».proof.Proof.KRun
import proofs.«144638_j87729001988302_1_alg».proof.Proof.KRegion0
import proofs.«144638_j87729001988302_1_alg».proof.Proof.KRegion1
import proofs.«144638_j87729001988302_1_alg».proof.Proof.KRegion2
import proofs.«144638_j87729001988302_1_alg».proof.Proof.KEntry
import proofs.«144638_j87729001988302_1_alg».proof.Proof.SpecArr
import proofs.«144638_j87729001988302_1_alg».proof.Proof.KHost

noncomputable section

namespace Cert.KernelIdeal.Value0

open Cert.KernelIdeal Cert.KernelIdeal.Gen
open Idealize.ShloMosaic Idealize.ShloMosaic.TcCoe Idealize.ShloMosaic.ValueIdx
open Idealize.SL Idealize.SL.Sem

/-- Layer `l` of the network on a node-feature array: the layer's row function of the array, of its neighbour
    aggregation along the edges, and of the per-node statistics, with the layer's slice of the stacked parameters. -/
def kLayer (l : Fin 3) (h : Cert.Gin.Arr) (e : IVec S2x1600000 32) (batch : IVec S100000 32) (gs : FVec Ideal S64x7 .f32)
    (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) : Cert.Gin.Arr :=
  Cert.Gin.layerK (Cert.Gin.argParams l W1s b1s gam bet mea var W2s b2s sWs sBs) h (Host.aggregate h e) (Host.nodeStats gs batch)

/-- The kernel program's result: three layers, then the output projection. -/
def kOut (x : Cert.Gin.Arr) (e : IVec S2x1600000 32) (batch : IVec S100000 32) (gs : FVec Ideal S64x7 .f32)
    (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) (fcW : FVec Ideal S128x128 .f32) (fcB : FVec Ideal S128 .f32) : Cert.Gin.Arr :=
  Cert.Gin.fcArr (fun k c => fcW (ix2 k c)) (fun c => fcB (ix1 c))
    (kLayer 2 (kLayer 1 (kLayer 0 x e batch gs W1s b1s gam bet mea var W2s b2s sWs sBs) e batch gs W1s b1s gam bet mea var W2s b2s sWs sBs) e batch gs W1s b1s gam bet mea var W2s b2s sWs sBs)

/-- A layer's array at `(r, q)` is the row function of row `r`. -/
theorem kLayer_apply (l : Fin 3) (h : Cert.Gin.Arr) (e : IVec S2x1600000 32) (batch : IVec S100000 32)
    (gs : FVec Ideal S64x7 .f32) (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) (r : Fin 100000) (q : Fin 128) :
    kLayer l h e batch gs W1s b1s gam bet mea var W2s b2s sWs sBs (ix2 r q)
      = Cert.Gin.rowK (Cert.Gin.argParams l W1s b1s gam bet mea var W2s b2s sWs sBs) (fun k => h (ix2 r k)) (fun k => Host.aggregate h e (ix2 r k))
          (fun j => Host.nodeStats gs batch (ix2 r j)) q := rfl

/-- The output projection of an array at `(r, q)`, from any row that agrees with the array's row `r`. -/
theorem fcArr_apply_of_row (w : Fin 128 → Fin 128 → EReal) (b : Fin 128 → EReal) (H : Cert.Gin.Arr) (f : Fin 128 → EReal)
    (r : Fin 100000) (q : Fin 128) (hf : ∀ k, f k = H (ix2 r k)) :
    Cert.Gin.fcRow w b f q = Cert.Gin.fcArr w b H (ix2 r q) := by
  obtain rfl : f = fun k => H (ix2 r k) := funext hf
  rfl

section Run

variable (m : (ℓ : Loc nD τ sig) → Buf (Elt Ideal) ℓ) (ρ : Dev nD → PrngReg) (c : Dev nD)

/-- The first region's output array is layer 0 of the node features. -/
theorem hK1_eq : (Gen.dat0 (F := Ideal) (Gen.V3 m ρ) c).arrAt 13 cfg0.N
    = kLayer 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine Cert.Gin.arr_ext fun r q => ?_
  refine (Regions.final0 (Gen.V3 m ρ) c r q).trans ?_
  rw [Entry.V3_params m ρ c, Entry.V3_h m ρ c, Entry.V3_agg m ρ c, Entry.V3_ns m ρ c]
  exact (kLayer_apply _ _ _ _ _ _ _ _ _ _ _ _ _ _ _ r q).symm

/-- The second region's output array is layer 1 of the first's. -/
theorem hK2_eq : (Gen.dat1 (F := Ideal) (Gen.V5 m ρ) c).arrAt 13 cfg1.N
    = kLayer 1 (kLayer 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine Cert.Gin.arr_ext fun r q => ?_
  refine (Regions.final1 (Gen.V5 m ρ) c r q).trans ?_
  rw [Entry.V5_params m ρ c, Entry.V5_h m ρ c, Entry.V5_agg m ρ c, Entry.V5_ns m ρ c, hK1_eq m ρ c]
  exact (kLayer_apply _ _ _ _ _ _ _ _ _ _ _ _ _ _ _ r q).symm

/-- The result buffer's last contents are the three layers and the output projection of the argument arrays. -/
theorem out_value : Gen.W8 m ρ c (Proc.devRef .tc main_v126) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [Entry.W8_out m ρ c]
  refine Cert.Gin.arr_ext fun r q => ?_
  refine (Regions.final2 (Gen.V7 m ρ) c r q).trans ?_
  rw [Entry.V7_params m ρ c, Entry.V7_h m ρ c, Entry.V7_agg m ρ c, Entry.V7_ns m ρ c, Entry.V7_fcW m ρ c,
    show (fun c' : Fin 128 => Gen.V7 m ρ c main_v125 (ix2 (0 : Fin 1) c')) = fun c' => (m ((c : Thread nD τ).loc main_arg15)) (ix1 c') from
      funext (Entry.V7_fcB m ρ c),
    hK2_eq m ρ c]
  unfold kOut
  exact fcArr_apply_of_row _ _ _ _ r q fun k => (kLayer_apply _ _ _ _ _ _ _ _ _ _ _ _ _ _ _ r k).symm

end Run

/-- Every run of the kernel program ends with `kOut` of the launch arrays in the result buffer and the arguments
    as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v126) = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun _ h c => ⟨(h c).1.trans (out_value m ρ c), (h c).2⟩) (RunValue.run_value (F := Ideal) m ρ)

end Cert.KernelIdeal.Value0

end
-- ==== Proof.RefRun.lean ====
/- The run of the reference program's @main, which is host operations only. @main is printed in four windows and
   calls functions that themselves call functions; unfolded at its calls it is ONE straight line of StableHLO
   operations (`seq ops`), so its run is `run_seq`'s: every weakly fair execution terminates with each TensorCore
   buffer at the fold `after ops` of the operations' results over the launch contents. -/
import proofs.«144638_j87729001988302_1_alg».proof.Proof.Gen.ReferenceIdeal
import Idealize.ShloMosaic.Lib.StableHlo.Run
import Idealize.ShloMosaic.Lib.Pipeline.Regions

-- lists of dozens of operations, each with its buffers' side conditions decided, and chains of as many binds
set_option maxHeartbeats 4000000
set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch

A stretch is a maximal run of @main's own operations between two calls, or one call's operations: the called
function's body over the call's operands and the call's record of buffers, a call inside it unfolded the same way
(`nan_to_num` runs `_where` once and `_where_0` twice; `leaky_relu` runs `_where_1`). -/

/-- Window 0, stretch 0: 1 operation of @main. -/
abbrev ops0_0 : List (HloOp τ sig (Elt F)) :=
  [ StableHlo.nullary main_cst (constant S_ .f32 0xC2C80000#32) ]

/-- Window 0, stretch 1: 16 operations of the call  fn_nan_to_num.body (.of main_arg3) (.of main_cst) main_call0. -/
abbrev ops0_1 : List (HloOp τ sig (Elt F)) :=
  [ StableHlo.TRef.binary (.of main_arg3 : StableHlo.TRef sig ⟨S64x7, .f32⟩) (.of main_arg3 : StableHlo.TRef sig ⟨S64x7, .f32⟩) main_call0.v0 (cmpf .une),
    StableHlo.TRef.unary (.of main_cst : StableHlo.TRef sig ⟨S_, .f32⟩) main_call0.v1 id,
    StableHlo.TRef.unary (main_call0.v1 : StableHlo.TRef sig ⟨S_, .f32⟩) main_call0.call0.v0 (broadcastInDim S64x7 ![] bcast_S_S64x7),
    StableHlo.TRef.ternary (main_call0.v0 : StableHlo.TRef sig ⟨S64x7, .i1⟩) main_call0.call0.v0 (.of main_arg3 : StableHlo.TRef sig ⟨S64x7, .f32⟩) main_call0.call0.v1 select,
    StableHlo.TRef.nullary main_call0.cst (constant S_ .f32 0x7F800000#32),
    StableHlo.TRef.unary main_call0.cst main_call0.v3 (broadcastInDim S64x7 ![] bcast_S_S64x7),
    StableHlo.TRef.binary main_call0.call0.v1 main_call0.v3 main_call0.v4 (cmpf .oeq),
    StableHlo.TRef.nullary main_call0.cst_0 (constant S_ .f32 0x7F7FFFFF#32),
    StableHlo.TRef.unary (main_call0.cst_0 : StableHlo.TRef sig ⟨S_, .f32⟩) main_call0.call1.v0 (broadcastInDim S64x7 ![] bcast_S_S64x7),
    StableHlo.TRef.ternary (main_call0.v4 : StableHlo.TRef sig ⟨S64x7, .i1⟩) main_call0.call1.v0 (main_call0.call0.v1 : StableHlo.TRef sig ⟨S64x7, .f32⟩) main_call0.call1.v1 select,
    StableHlo.TRef.nullary main_call0.cst_1 (constant S_ .f32 0xFF800000#32),
    StableHlo.TRef.unary main_call0.cst_1 main_call0.v6 (broadcastInDim S64x7 ![] bcast_S_S64x7),
    StableHlo.TRef.binary main_call0.call1.v1 main_call0.v6 main_call0.v7 (cmpf .oeq),
    StableHlo.TRef.nullary main_call0.cst_2 (constant S_ .f32 0xFF7FFFFF#32),
    StableHlo.TRef.unary (main_call0.cst_2 : StableHlo.TRef sig ⟨S_, .f32⟩) main_call0.call2.v0 (broadcastInDim S64x7 ![] bcast_S_S64x7),
    StableHlo.TRef.ternary (main_call0.v7 : StableHlo.TRef sig ⟨S64x7, .i1⟩) main_call0.call2.v0 (main_call0.call1.v1 : StableHlo.TRef sig ⟨S64x7, .f32⟩) main_call0.call2.v1 select ]

/-- Window 0, stretch 2: 36 operations of @main. -/
abbrev ops0_2 : List (HloOp τ sig (Elt F)) :=
  [ StableHlo.nullary main_c (constantI S_ 32 0#32),
    StableHlo.unary main_c main_v1 (broadcastInDim S100000 ![] bcast_S_S100000 : (⟨S_, .i32⟩ : BufTy).Contents (Elt F) → (⟨S100000, .i32⟩ : BufTy).Contents (Elt F)),
    StableHlo.binary main_arg2 main_v1 main_v2 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 64#32),
    StableHlo.unary main_c_0 main_v3 (broadcastInDim S100000 ![] bcast_S_S100000 : (⟨S_, .i32⟩ : BufTy).Contents (Elt F) → (⟨S100000, .i32⟩ : BufTy).Contents (Elt F)),
    StableHlo.binary main_arg2 main_v3 main_v4 (addi : (⟨S100000, .i32⟩ : BufTy).Contents (Elt F) → (⟨S100000, .i32⟩ : BufTy).Contents (Elt F) → (⟨S100000, .i32⟩ : BufTy).Contents (Elt F)),
    StableHlo.ternary main_v2 main_v4 main_arg2 main_v5 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v5 main_v6 (broadcastInDim S100000x1 ![0] bcast_S100000_S100000x1_0 : (⟨S100000, .i32⟩ : BufTy).Contents (Elt F) → (⟨S100000x1, .i32⟩ : BufTy).Contents (Elt F)),
    StableHlo.binary main_v0 main_v6 main_v7 ((fun x i => Host.gather gather_S64x7_S100000x1_S100000x7_1_0_n_n_0_1_17 x i) : (⟨S64x7, .f32⟩ : BufTy).Contents (Elt F) → (⟨S100000x1, .i32⟩ : BufTy).Contents (Elt F) → (⟨S100000x7, .f32⟩ : BufTy).Contents (Elt F)),
    StableHlo.unary main_arg1 main_v8 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v8 main_v9 rfl shapeCasts_S1x1600000_S1600000,
    StableHlo.unary main_arg1 main_v10 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v10 main_v11 rfl shapeCasts_S1x1600000_S1600000,
    StableHlo.nullary main_c_1 (constantI S_ 32 0#32),
    StableHlo.unary main_c_1 main_v12 (broadcastInDim S1600000 ![] bcast_S_S1600000 : (⟨S_, .i32⟩ : BufTy).Contents (Elt F) → (⟨S1600000, .i32⟩ : BufTy).Contents (Elt F)),
    StableHlo.binary main_v9 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v9 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v9 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_arg0 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_3 (constant S_ .f32 0x00000000#32),
    StableHlo.unary main_cst_3 main_v19 (broadcastInDim S100000x128 ![] bcast_S_S100000x128 : (⟨S_, .f32⟩ : BufTy).Contents (Elt F) → (⟨S100000x128, .f32⟩ : BufTy).Contents (Elt F)),
    StableHlo.unary main_v11 main_v20 (broadcastInDim S1600000x1 ![0] bcast_S1600000_S1600000x1_0 : (⟨S1600000, .i32⟩ : BufTy).Contents (Elt F) → (⟨S1600000x1, .i32⟩ : BufTy).Contents (Elt F)),
    StableHlo.ternary main_v19 main_v20 main_v18 main_v21 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v21 main_v22 (addf : (⟨S100000x128, .f32⟩ : BufTy).Contents (Elt F) → (⟨S100000x128, .f32⟩ : BufTy).Contents (Elt F) → (⟨S100000x128, .f32⟩ : BufTy).Contents (Elt F)),
    StableHlo.unary main_arg4 main_v23 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v23 main_v24 rfl shapeCasts_S1x128x128_S128x128,
    StableHlo.binary main_v22 main_v24 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v26 ((extractStridedSlice S1x128 ![0, 0] · slices_S3x128_S1x128_0_0) : (⟨S3x128, .f32⟩ : BufTy).Contents (Elt F) → (⟨S1x128, .f32⟩ : BufTy).Contents (Elt F)),
    StableHlo.reshape main_v26 main_v27 rfl shapeCasts_S1x128_S128,
    StableHlo.unary main_v27 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v29 main_v30 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3E4CCCCD#32) ]

/-- Window 0, stretch 3: 7 operations of the call  fn_leaky_relu.body (.of main_v30) (.of main_cst_4) main_call1. -/
abbrev ops0_3 : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v30 : StableHlo.TRef sig ⟨S100000x128, .f32⟩) main_call1.v0 main_call1.v1 (cmpf .oge),
    StableHlo.TRef.unary (.of main_cst_4 : StableHlo.TRef sig ⟨S_, .f32⟩) main_call1.v2 id,
    StableHlo.TRef.unary main_call1.v2 main_call1.v3 (broadcastInDim S100000x128 ![] bcast_S_S100000x128),
    StableHlo.TRef.binary main_call1.v3 (.of main_v30 : StableHlo.TRef sig ⟨S100000x128, .f32⟩) main_call1.v4 mulf,
    StableHlo.TRef.ternary (main_call1.v1 : StableHlo.TRef sig ⟨S100000x128, .i1⟩) (.of main_v30 : StableHlo.TRef sig ⟨S100000x128, .f32⟩) (main_call1.v4 : StableHlo.TRef sig ⟨S100000x128, .f32⟩) main_call1.call0.v0 select ]

/-- Window 0, stretch 4: 21 operations of @main. -/
abbrev ops0_4 : List (HloOp τ sig (Elt F)) :=
  [ StableHlo.unary main_arg8 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v35 main_v36 (subf : (⟨S100000x128, .f32⟩ : BufTy).Contents (Elt F) → (⟨S100000x128, .f32⟩ : BufTy).Contents (Elt F) → (⟨S100000x128, .f32⟩ : BufTy).Contents (Elt F)),
    StableHlo.unary main_arg6 main_v37 ((extractStridedSlice S1x128 ![0, 0] · slices_S3x128_S1x128_0_0) : (⟨S3x128, .f32⟩ : BufTy).Contents (Elt F) → (⟨S1x128, .f32⟩ : BufTy).Contents (Elt F)),
    StableHlo.reshape main_v37 main_v38 rfl shapeCasts_S1x128_S128,
    StableHlo.unary main_arg9 main_v39 ((extractStridedSlice S1x128 ![0, 0] · slices_S3x128_S1x128_0_0) : (⟨S3x128, .f32⟩ : BufTy).Contents (Elt F) → (⟨S1x128, .f32⟩ : BufTy).Contents (Elt F)),
    StableHlo.reshape main_v39 main_v40 rfl shapeCasts_S1x128_S128,
    StableHlo.nullary main_cst_5 (constant S_ .f32 0x3727C5AC#32),
    StableHlo.unary main_cst_5 main_v41 (broadcastInDim S128 ![] bcast_S_S128 : (⟨S_, .f32⟩ : BufTy).Contents (Elt F) → (⟨S128, .f32⟩ : BufTy).Contents (Elt F)),
    StableHlo.binary main_v40 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (Host.sqrt : (⟨S128, .f32⟩ : BufTy).Contents (Elt F) → (⟨S128, .f32⟩ : BufTy).Contents (Elt F)),
    StableHlo.binary main_v38 main_v43 main_v44 (Host.divf : (⟨S128, .f32⟩ : BufTy).Contents (Elt F) → (⟨S128, .f32⟩ : BufTy).Contents (Elt F) → (⟨S128, .f32⟩ : BufTy).Contents (Elt F)),
    StableHlo.unary main_v44 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v46 main_v47 (mulf : (⟨S100000x128, .f32⟩ : BufTy).Contents (Elt F) → (⟨S100000x128, .f32⟩ : BufTy).Contents (Elt F) → (⟨S100000x128, .f32⟩ : BufTy).Contents (Elt F)),
    StableHlo.unary main_arg7 main_v48 ((extractStridedSlice S1x128 ![0, 0] · slices_S3x128_S1x128_0_0) : (⟨S3x128, .f32⟩ : BufTy).Contents (Elt F) → (⟨S1x128, .f32⟩ : BufTy).Contents (Elt F)),
    StableHlo.reshape main_v48 main_v49 rfl shapeCasts_S1x128_S128,
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)) ]

/-- Window 1, stretch 0: 10 operations of @main. -/
abbrev ops1_0 : List (HloOp τ sig (Elt F)) :=
  [ StableHlo.binary main_v47 main_v51 main_v52 (addf : (⟨S100000x128, .f32⟩ : BufTy).Contents (Elt F) → (⟨S100000x128, .f32⟩ : BufTy).Contents (Elt F) → (⟨S100000x128, .f32⟩ : BufTy).Contents (Elt F)),
    StableHlo.unary main_arg10 main_v53 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v53 main_v54 rfl shapeCasts_S1x128x128_S128x128,
    StableHlo.binary main_v52 main_v54 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v56 ((extractStridedSlice S1x128 ![0, 0] · slices_S3x128_S1x128_0_0) : (⟨S3x128, .f32⟩ : BufTy).Contents (Elt F) → (⟨S1x128, .f32⟩ : BufTy).Contents (Elt F)),
    StableHlo.reshape main_v56 main_v57 rfl shapeCasts_S1x128_S128,
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v59 main_v60 (addf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3E4CCCCD#32) ]

/-- Window 1, stretch 1: 7 operations of the call  fn_leaky_relu.body (.of main_v60) (.of main_cst_6) main_call2. -/
abbrev ops1_1 : List (HloOp τ sig (Elt F)) :=
  [ StableHlo.TRef.nullary main_call2.cst (constant S_ .f32 0x00000000#32),
    StableHlo.TRef.unary main_call2.cst main_call2.v0 (broadcastInDim S100000x128 ![] bcast_S_S100000x128),
    StableHlo.TRef.binary (.of main_v60 : StableHlo.TRef sig ⟨S100000x128, .f32⟩) main_call2.v0 main_call2.v1 (cmpf .oge),
    StableHlo.TRef.unary (.of main_cst_6 : StableHlo.TRef sig ⟨S_, .f32⟩) main_call2.v2 id,
    StableHlo.TRef.unary main_call2.v2 main_call2.v3 (broadcastInDim S100000x128 ![] bcast_S_S100000x128),
    StableHlo.TRef.binary main_call2.v3 (.of main_v60 : StableHlo.TRef sig ⟨S100000x128, .f32⟩) main_call2.v4 mulf,
    StableHlo.TRef.ternary (main_call2.v1 : StableHlo.TRef sig ⟨S100000x128, .i1⟩) (.of main_v60 : StableHlo.TRef sig ⟨S100000x128, .f32⟩) (main_call2.v4 : StableHlo.TRef sig ⟨S100000x128, .f32⟩) main_call2.call0.v0 select ]

/-- Window 1, stretch 2: 32 operations of @main. -/
abbrev ops1_2 : List (HloOp τ sig (Elt F)) :=
  [ StableHlo.unary main_arg12 main_v62 ((extractStridedSlice S1x7x128 ![0, 0, 0] · slices_S3x7x128_S1x7x128_0_0_0) : (⟨S3x7x128, .f32⟩ : BufTy).Contents (Elt F) → (⟨S1x7x128, .f32⟩ : BufTy).Contents (Elt F)),
    StableHlo.reshape main_v62 main_v63 rfl shapeCasts_S1x7x128_S7x128,
    StableHlo.binary main_v7 main_v63 main_v64 ((fun l r => Host.dotGeneral dot_S100000x7_S7x128_S100000x128_1_0_0_1_n_n none l r) : (⟨S100000x7, .f32⟩ : BufTy).Contents (Elt F) → (⟨S7x128, .f32⟩ : BufTy).Contents (Elt F) → (⟨S100000x128, .f32⟩ : BufTy).Contents (Elt F)),
    StableHlo.binary main_v61 main_v64 main_v65 (addf : (⟨S100000x128, .f32⟩ : BufTy).Contents (Elt F) → (⟨S100000x128, .f32⟩ : BufTy).Contents (Elt F) → (⟨S100000x128, .f32⟩ : BufTy).Contents (Elt F)),
    StableHlo.unary main_arg13 main_v66 ((extractStridedSlice S1x128 ![0, 0] · slices_S3x128_S1x128_0_0) : (⟨S3x128, .f32⟩ : BufTy).Contents (Elt F) → (⟨S1x128, .f32⟩ : BufTy).Contents (Elt F)),
    StableHlo.reshape main_v66 main_v67 rfl shapeCasts_S1x128_S128,
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v69 main_v70 (addf : (⟨S100000x128, .f32⟩ : BufTy).Contents (Elt F) → (⟨S100000x128, .f32⟩ : BufTy).Contents (Elt F) → (⟨S100000x128, .f32⟩ : BufTy).Contents (Elt F)),
    StableHlo.nullary main_c_7 (constantI S_ 32 0#32),
    StableHlo.unary main_c_7 main_v71 (broadcastInDim S1600000 ![] bcast_S_S1600000 : (⟨S_, .i32⟩ : BufTy).Contents (Elt F) → (⟨S1600000, .i32⟩ : BufTy).Contents (Elt F)),
    StableHlo.binary main_v9 main_v71 main_v72 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v73 (broadcastInDim S1600000 ![] bcast_S_S1600000 : (⟨S_, .i32⟩ : BufTy).Contents (Elt F) → (⟨S1600000, .i32⟩ : BufTy).Contents (Elt F)),
    StableHlo.binary main_v9 main_v73 main_v74 (addi : (⟨S1600000, .i32⟩ : BufTy).Contents (Elt F) → (⟨S1600000, .i32⟩ : BufTy).Contents (Elt F) → (⟨S1600000, .i32⟩ : BufTy).Contents (Elt F)),
    StableHlo.ternary main_v72 main_v74 main_v9 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v75 main_v76 (broadcastInDim S1600000x1 ![0] bcast_S1600000_S1600000x1_0 : (⟨S1600000, .i32⟩ : BufTy).Contents (Elt F) → (⟨S1600000x1, .i32⟩ : BufTy).Contents (Elt F)),
    StableHlo.binary main_v70 main_v76 main_v77 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_9 (constant S_ .f32 0x00000000#32),
    StableHlo.unary main_cst_9 main_v78 (broadcastInDim S100000x128 ![] bcast_S_S100000x128 : (⟨S_, .f32⟩ : BufTy).Contents (Elt F) → (⟨S100000x128, .f32⟩ : BufTy).Contents (Elt F)),
    StableHlo.unary main_v11 main_v79 (broadcastInDim S1600000x1 ![0] bcast_S1600000_S1600000x1_0 : (⟨S1600000, .i32⟩ : BufTy).Contents (Elt F) → (⟨S1600000x1, .i32⟩ : BufTy).Contents (Elt F)),
    StableHlo.ternary main_v78 main_v79 main_v77 main_v80 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v70 main_v80 main_v81 (addf : (⟨S100000x128, .f32⟩ : BufTy).Contents (Elt F) → (⟨S100000x128, .f32⟩ : BufTy).Contents (Elt F) → (⟨S100000x128, .f32⟩ : BufTy).Contents (Elt F)),
    StableHlo.unary main_arg4 main_v82 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v82 main_v83 rfl shapeCasts_S1x128x128_S128x128,
    StableHlo.binary main_v81 main_v83 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v85 ((extractStridedSlice S1x128 ![1, 0] · slices_S3x128_S1x128_1_0) : (⟨S3x128, .f32⟩ : BufTy).Contents (Elt F) → (⟨S1x128, .f32⟩ : BufTy).Contents (Elt F)),
    StableHlo.reshape main_v85 main_v86 rfl shapeCasts_S1x128_S128,
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v88 main_v89 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3E4CCCCD#32) ]

/-- Window 1, stretch 3: 7 operations of the call  fn_leaky_relu.body (.of main_v89) (.of main_cst_10) main_call3. -/
abbrev ops1_3 : List (HloOp τ sig (Elt F)) :=
  [ StableHlo.TRef.nullary main_call3.cst (constant S_ .f32 0x00000000#32),
    StableHlo.TRef.unary main_call3.cst main_call3.v0 (broadcastInDim S100000x128 ![] bcast_S_S100000x128),
    StableHlo.TRef.binary (.of main_v89 : StableHlo.TRef sig ⟨S100000x128, .f32⟩) main_call3.v0 main_call3.v1 (cmpf .oge),
    StableHlo.TRef.unary (.of main_cst_10 : StableHlo.TRef sig ⟨S_, .f32⟩) main_call3.v2 id,
    StableHlo.TRef.unary main_call3.v2 main_call3.v3 (broadcastInDim S100000x128 ![] bcast_S_S100000x128),
    StableHlo.TRef.binary main_call3.v3 (.of main_v89 : StableHlo.TRef sig ⟨S100000x128, .f32⟩) main_call3.v4 mulf,
    StableHlo.TRef.ternary (main_call3.v1 : StableHlo.TRef sig ⟨S100000x128, .i1⟩) (.of main_v89 : StableHlo.TRef sig ⟨S100000x128, .f32⟩) (main_call3.v4 : StableHlo.TRef sig ⟨S100000x128, .f32⟩) main_call3.call0.v0 select ]

/-- Window 1, stretch 4: 16 operations of @main. -/
abbrev ops1_4 : List (HloOp τ sig (Elt F)) :=
  [ StableHlo.unary main_arg8 main_v91 ((extractStridedSlice S1x128 ![1, 0] · slices_S3x128_S1x128_1_0) : (⟨S3x128, .f32⟩ : BufTy).Contents (Elt F) → (⟨S1x128, .f32⟩ : BufTy).Contents (Elt F)),
    StableHlo.reshape main_v91 main_v92 rfl shapeCasts_S1x128_S128,
    StableHlo.unary main_v92 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v94 main_v95 (subf : (⟨S100000x128, .f32⟩ : BufTy).Contents (Elt F) → (⟨S100000x128, .f32⟩ : BufTy).Contents (Elt F) → (⟨S100000x128, .f32⟩ : BufTy).Contents (Elt F)),
    StableHlo.unary main_arg6 main_v96 ((extractStridedSlice S1x128 ![1, 0] · slices_S3x128_S1x128_1_0) : (⟨S3x128, .f32⟩ : BufTy).Contents (Elt F) → (⟨S1x128, .f32⟩ : BufTy).Contents (Elt F)),
    StableHlo.reshape main_v96 main_v97 rfl shapeCasts_S1x128_S128,
    StableHlo.unary main_arg9 main_v98 ((extractStridedSlice S1x128 ![1, 0] · slices_S3x128_S1x128_1_0) : (⟨S3x128, .f32⟩ : BufTy).Contents (Elt F) → (⟨S1x128, .f32⟩ : BufTy).Contents (Elt F)),
    StableHlo.reshape main_v98 main_v99 rfl shapeCasts_S1x128_S128,
    StableHlo.nullary main_cst_11 (constant S_ .f32 0x3727C5AC#32),
    StableHlo.unary main_cst_11 main_v100 (broadcastInDim S128 ![] bcast_S_S128 : (⟨S_, .f32⟩ : BufTy).Contents (Elt F) → (⟨S128, .f32⟩ : BufTy).Contents (Elt F)),
    StableHlo.binary main_v99 main_v100 main_v101 (addf : (⟨S128, .f32⟩ : BufTy).Contents (Elt F) → (⟨S128, .f32⟩ : BufTy).Contents (Elt F) → (⟨S128, .f32⟩ : BufTy).Contents (Elt F)),
    StableHlo.unary main_v101 main_v102 (Host.sqrt : (⟨S128, .f32⟩ : BufTy).Contents (Elt F) → (⟨S128, .f32⟩ : BufTy).Contents (Elt F)),
    StableHlo.binary main_v97 main_v102 main_v103 (Host.divf : (⟨S128, .f32⟩ : BufTy).Contents (Elt F) → (⟨S128, .f32⟩ : BufTy).Contents (Elt F) → (⟨S128, .f32⟩ : BufTy).Contents (Elt F)),
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S100000x128 ![0, 1] bcast_S1x128_S100000x128_0_1 : (⟨S1x128, .f32⟩ : BufTy).Contents (Elt F) → (⟨S100000x128, .f32⟩ : BufTy).Contents (Elt F)) ]

/-- Window 2, stretch 0: 15 operations of @main. -/
abbrev ops2_0 : List (HloOp τ sig (Elt F)) :=
  [ StableHlo.binary main_v95 main_v105 main_v106 (mulf : (⟨S100000x128, .f32⟩ : BufTy).Contents (Elt F) → (⟨S100000x128, .f32⟩ : BufTy).Contents (Elt F) → (⟨S100000x128, .f32⟩ : BufTy).Contents (Elt F)),
    StableHlo.unary main_arg7 main_v107 ((extractStridedSlice S1x128 ![1, 0] · slices_S3x128_S1x128_1_0) : (⟨S3x128, .f32⟩ : BufTy).Contents (Elt F) → (⟨S1x128, .f32⟩ : BufTy).Contents (Elt F)),
    StableHlo.reshape main_v107 main_v108 rfl shapeCasts_S1x128_S128,
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v110 main_v111 (addf : (⟨S100000x128, .f32⟩ : BufTy).Contents (Elt F) → (⟨S100000x128, .f32⟩ : BufTy).Contents (Elt F) → (⟨S100000x128, .f32⟩ : BufTy).Contents (Elt F)),
    StableHlo.unary main_arg10 main_v112 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v112 main_v113 rfl shapeCasts_S1x128x128_S128x128,
    StableHlo.binary main_v111 main_v113 main_v114 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v115 ((extractStridedSlice S1x128 ![1, 0] · slices_S3x128_S1x128_1_0) : (⟨S3x128, .f32⟩ : BufTy).Contents (Elt F) → (⟨S1x128, .f32⟩ : BufTy).Contents (Elt F)),
    StableHlo.reshape main_v115 main_v116 rfl shapeCasts_S1x128_S128,
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v118 main_v119 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3E4CCCCD#32) ]

/-- Window 2, stretch 1: 7 operations of the call  fn_leaky_relu.body (.of main_v119) (.of main_cst_12) main_call4. -/
abbrev ops2_1 : List (HloOp τ sig (Elt F)) :=
  [ StableHlo.TRef.nullary main_call4.cst (constant S_ .f32 0x00000000#32),
    StableHlo.TRef.unary main_call4.cst main_call4.v0 (broadcastInDim S100000x128 ![] bcast_S_S100000x128),
    StableHlo.TRef.binary (.of main_v119 : StableHlo.TRef sig ⟨S100000x128, .f32⟩) main_call4.v0 main_call4.v1 (cmpf .oge),
    StableHlo.TRef.unary (.of main_cst_12 : StableHlo.TRef sig ⟨S_, .f32⟩) main_call4.v2 id,
    StableHlo.TRef.unary main_call4.v2 main_call4.v3 (broadcastInDim S100000x128 ![] bcast_S_S100000x128),
    StableHlo.TRef.binary main_call4.v3 (.of main_v119 : StableHlo.TRef sig ⟨S100000x128, .f32⟩) main_call4.v4 mulf,
    StableHlo.TRef.ternary (main_call4.v1 : StableHlo.TRef sig ⟨S100000x128, .i1⟩) (.of main_v119 : StableHlo.TRef sig ⟨S100000x128, .f32⟩) (main_call4.v4 : StableHlo.TRef sig ⟨S100000x128, .f32⟩) main_call4.call0.v0 select ]

/-- Window 2, stretch 2: 32 operations of @main. -/
abbrev ops2_2 : List (HloOp τ sig (Elt F)) :=
  [ StableHlo.unary main_arg12 main_v121 ((extractStridedSlice S1x7x128 ![1, 0, 0] · slices_S3x7x128_S1x7x128_1_0_0) : (⟨S3x7x128, .f32⟩ : BufTy).Contents (Elt F) → (⟨S1x7x128, .f32⟩ : BufTy).Contents (Elt F)),
    StableHlo.reshape main_v121 main_v122 rfl shapeCasts_S1x7x128_S7x128,
    StableHlo.binary main_v7 main_v122 main_v123 ((fun l r => Host.dotGeneral dot_S100000x7_S7x128_S100000x128_1_0_0_1_n_n none l r) : (⟨S100000x7, .f32⟩ : BufTy).Contents (Elt F) → (⟨S7x128, .f32⟩ : BufTy).Contents (Elt F) → (⟨S100000x128, .f32⟩ : BufTy).Contents (Elt F)),
    StableHlo.binary main_v120 main_v123 main_v124 (addf : (⟨S100000x128, .f32⟩ : BufTy).Contents (Elt F) → (⟨S100000x128, .f32⟩ : BufTy).Contents (Elt F) → (⟨S100000x128, .f32⟩ : BufTy).Contents (Elt F)),
    StableHlo.unary main_arg13 main_v125 ((extractStridedSlice S1x128 ![1, 0] · slices_S3x128_S1x128_1_0) : (⟨S3x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v128 main_v129 (addf : (⟨S100000x128, .f32⟩ : BufTy).Contents (Elt F) → (⟨S100000x128, .f32⟩ : BufTy).Contents (Elt F) → (⟨S100000x128, .f32⟩ : BufTy).Contents (Elt F)),
    StableHlo.nullary main_c_13 (constantI S_ 32 0#32),
    StableHlo.unary main_c_13 main_v130 (broadcastInDim S1600000 ![] bcast_S_S1600000 : (⟨S_, .i32⟩ : BufTy).Contents (Elt F) → (⟨S1600000, .i32⟩ : BufTy).Contents (Elt F)),
    StableHlo.binary main_v9 main_v130 main_v131 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v132 (broadcastInDim S1600000 ![] bcast_S_S1600000 : (⟨S_, .i32⟩ : BufTy).Contents (Elt F) → (⟨S1600000, .i32⟩ : BufTy).Contents (Elt F)),
    StableHlo.binary main_v9 main_v132 main_v133 (addi : (⟨S1600000, .i32⟩ : BufTy).Contents (Elt F) → (⟨S1600000, .i32⟩ : BufTy).Contents (Elt F) → (⟨S1600000, .i32⟩ : BufTy).Contents (Elt F)),
    StableHlo.ternary main_v131 main_v133 main_v9 main_v134 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v134 main_v135 (broadcastInDim S1600000x1 ![0] bcast_S1600000_S1600000x1_0 : (⟨S1600000, .i32⟩ : BufTy).Contents (Elt F) → (⟨S1600000x1, .i32⟩ : BufTy).Contents (Elt F)),
    StableHlo.binary main_v129 main_v135 main_v136 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_15 (constant S_ .f32 0x00000000#32),
    StableHlo.unary main_cst_15 main_v137 (broadcastInDim S100000x128 ![] bcast_S_S100000x128 : (⟨S_, .f32⟩ : BufTy).Contents (Elt F) → (⟨S100000x128, .f32⟩ : BufTy).Contents (Elt F)),
    StableHlo.unary main_v11 main_v138 (broadcastInDim S1600000x1 ![0] bcast_S1600000_S1600000x1_0 : (⟨S1600000, .i32⟩ : BufTy).Contents (Elt F) → (⟨S1600000x1, .i32⟩ : BufTy).Contents (Elt F)),
    StableHlo.ternary main_v137 main_v138 main_v136 main_v139 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v129 main_v139 main_v140 (addf : (⟨S100000x128, .f32⟩ : BufTy).Contents (Elt F) → (⟨S100000x128, .f32⟩ : BufTy).Contents (Elt F) → (⟨S100000x128, .f32⟩ : BufTy).Contents (Elt F)),
    StableHlo.unary main_arg4 main_v141 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v141 main_v142 rfl shapeCasts_S1x128x128_S128x128,
    StableHlo.binary main_v140 main_v142 main_v143 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v144 ((extractStridedSlice S1x128 ![2, 0] · slices_S3x128_S1x128_2_0) : (⟨S3x128, .f32⟩ : BufTy).Contents (Elt F) → (⟨S1x128, .f32⟩ : BufTy).Contents (Elt F)),
    StableHlo.reshape main_v144 main_v145 rfl shapeCasts_S1x128_S128,
    StableHlo.unary main_v145 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v147 main_v148 (addf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x3E4CCCCD#32) ]

/-- Window 2, stretch 3: 7 operations of the call  fn_leaky_relu.body (.of main_v148) (.of main_cst_16) main_call5. -/
abbrev ops2_3 : List (HloOp τ sig (Elt F)) :=
  [ StableHlo.TRef.nullary main_call5.cst (constant S_ .f32 0x00000000#32),
    StableHlo.TRef.unary main_call5.cst main_call5.v0 (broadcastInDim S100000x128 ![] bcast_S_S100000x128),
    StableHlo.TRef.binary (.of main_v148 : StableHlo.TRef sig ⟨S100000x128, .f32⟩) main_call5.v0 main_call5.v1 (cmpf .oge),
    StableHlo.TRef.unary (.of main_cst_16 : StableHlo.TRef sig ⟨S_, .f32⟩) main_call5.v2 id,
    StableHlo.TRef.unary main_call5.v2 main_call5.v3 (broadcastInDim S100000x128 ![] bcast_S_S100000x128),
    StableHlo.TRef.binary main_call5.v3 (.of main_v148 : StableHlo.TRef sig ⟨S100000x128, .f32⟩) main_call5.v4 mulf,
    StableHlo.TRef.ternary (main_call5.v1 : StableHlo.TRef sig ⟨S100000x128, .i1⟩) (.of main_v148 : StableHlo.TRef sig ⟨S100000x128, .f32⟩) (main_call5.v4 : StableHlo.TRef sig ⟨S100000x128, .f32⟩) main_call5.call0.v0 select ]

/-- Window 2, stretch 4: 11 operations of @main. -/
abbrev ops2_4 : List (HloOp τ sig (Elt F)) :=
  [ StableHlo.unary main_arg8 main_v150 ((extractStridedSlice S1x128 ![2, 0] · slices_S3x128_S1x128_2_0) : (⟨S3x128, .f32⟩ : BufTy).Contents (Elt F) → (⟨S1x128, .f32⟩ : BufTy).Contents (Elt F)),
    StableHlo.reshape main_v150 main_v151 rfl shapeCasts_S1x128_S128,
    StableHlo.unary main_v151 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S100000x128 ![0, 1] bcast_S1x128_S100000x128_0_1 : (⟨S1x128, .f32⟩ : BufTy).Contents (Elt F) → (⟨S100000x128, .f32⟩ : BufTy).Contents (Elt F)),
    StableHlo.binary main_v149 main_v153 main_v154 (subf : (⟨S100000x128, .f32⟩ : BufTy).Contents (Elt F) → (⟨S100000x128, .f32⟩ : BufTy).Contents (Elt F) → (⟨S100000x128, .f32⟩ : BufTy).Contents (Elt F)),
    StableHlo.unary main_arg6 main_v155 ((extractStridedSlice S1x128 ![2, 0] · slices_S3x128_S1x128_2_0) : (⟨S3x128, .f32⟩ : BufTy).Contents (Elt F) → (⟨S1x128, .f32⟩ : BufTy).Contents (Elt F)),
    StableHlo.reshape main_v155 main_v156 rfl shapeCasts_S1x128_S128,
    StableHlo.unary main_arg9 main_v157 ((extractStridedSlice S1x128 ![2, 0] · slices_S3x128_S1x128_2_0) : (⟨S3x128, .f32⟩ : BufTy).Contents (Elt F) → (⟨S1x128, .f32⟩ : BufTy).Contents (Elt F)),
    StableHlo.reshape main_v157 main_v158 rfl shapeCasts_S1x128_S128,
    StableHlo.nullary main_cst_17 (constant S_ .f32 0x3727C5AC#32),
    StableHlo.unary main_cst_17 main_v159 (broadcastInDim S128 ![] bcast_S_S128 : (⟨S_, .f32⟩ : BufTy).Contents (Elt F) → (⟨S128, .f32⟩ : BufTy).Contents (Elt F)) ]

/-- Window 3, stretch 0: 20 operations of @main. -/
abbrev ops3_0 : List (HloOp τ sig (Elt F)) :=
  [ StableHlo.binary main_v158 main_v159 main_v160 (addf : (⟨S128, .f32⟩ : BufTy).Contents (Elt F) → (⟨S128, .f32⟩ : BufTy).Contents (Elt F) → (⟨S128, .f32⟩ : BufTy).Contents (Elt F)),
    StableHlo.unary main_v160 main_v161 (Host.sqrt : (⟨S128, .f32⟩ : BufTy).Contents (Elt F) → (⟨S128, .f32⟩ : BufTy).Contents (Elt F)),
    StableHlo.binary main_v156 main_v161 main_v162 (Host.divf : (⟨S128, .f32⟩ : BufTy).Contents (Elt F) → (⟨S128, .f32⟩ : BufTy).Contents (Elt F) → (⟨S128, .f32⟩ : BufTy).Contents (Elt F)),
    StableHlo.unary main_v162 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S100000x128 ![0, 1] bcast_S1x128_S100000x128_0_1 : (⟨S1x128, .f32⟩ : BufTy).Contents (Elt F) → (⟨S100000x128, .f32⟩ : BufTy).Contents (Elt F)),
    StableHlo.binary main_v154 main_v164 main_v165 (mulf : (⟨S100000x128, .f32⟩ : BufTy).Contents (Elt F) → (⟨S100000x128, .f32⟩ : BufTy).Contents (Elt F) → (⟨S100000x128, .f32⟩ : BufTy).Contents (Elt F)),
    StableHlo.unary main_arg7 main_v166 ((extractStridedSlice S1x128 ![2, 0] · slices_S3x128_S1x128_2_0) : (⟨S3x128, .f32⟩ : BufTy).Contents (Elt F) → (⟨S1x128, .f32⟩ : BufTy).Contents (Elt F)),
    StableHlo.reshape main_v166 main_v167 rfl shapeCasts_S1x128_S128,
    StableHlo.unary main_v167 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S100000x128 ![0, 1] bcast_S1x128_S100000x128_0_1 : (⟨S1x128, .f32⟩ : BufTy).Contents (Elt F) → (⟨S100000x128, .f32⟩ : BufTy).Contents (Elt F)),
    StableHlo.binary main_v165 main_v169 main_v170 (addf : (⟨S100000x128, .f32⟩ : BufTy).Contents (Elt F) → (⟨S100000x128, .f32⟩ : BufTy).Contents (Elt F) → (⟨S100000x128, .f32⟩ : BufTy).Contents (Elt F)),
    StableHlo.unary main_arg10 main_v171 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v171 main_v172 rfl shapeCasts_S1x128x128_S128x128,
    StableHlo.binary main_v170 main_v172 main_v173 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v174 ((extractStridedSlice S1x128 ![2, 0] · slices_S3x128_S1x128_2_0) : (⟨S3x128, .f32⟩ : BufTy).Contents (Elt F) → (⟨S1x128, .f32⟩ : BufTy).Contents (Elt F)),
    StableHlo.reshape main_v174 main_v175 rfl shapeCasts_S1x128_S128,
    StableHlo.unary main_v175 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v173 main_v177 main_v178 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3E4CCCCD#32) ]

/-- Window 3, stretch 1: 7 operations of the call  fn_leaky_relu.body (.of main_v178) (.of main_cst_18) main_call6. -/
abbrev ops3_1 : List (HloOp τ sig (Elt F)) :=
  [ StableHlo.TRef.nullary main_call6.cst (constant S_ .f32 0x00000000#32),
    StableHlo.TRef.unary main_call6.cst main_call6.v0 (broadcastInDim S100000x128 ![] bcast_S_S100000x128),
    StableHlo.TRef.binary (.of main_v178 : StableHlo.TRef sig ⟨S100000x128, .f32⟩) main_call6.v0 main_call6.v1 (cmpf .oge),
    StableHlo.TRef.unary (.of main_cst_18 : StableHlo.TRef sig ⟨S_, .f32⟩) main_call6.v2 id,
    StableHlo.TRef.unary main_call6.v2 main_call6.v3 (broadcastInDim S100000x128 ![] bcast_S_S100000x128),
    StableHlo.TRef.binary main_call6.v3 (.of main_v178 : StableHlo.TRef sig ⟨S100000x128, .f32⟩) main_call6.v4 mulf,
    StableHlo.TRef.ternary (main_call6.v1 : StableHlo.TRef sig ⟨S100000x128, .i1⟩) (.of main_v178 : StableHlo.TRef sig ⟨S100000x128, .f32⟩) (main_call6.v4 : StableHlo.TRef sig ⟨S100000x128, .f32⟩) main_call6.call0.v0 select ]

/-- Window 3, stretch 2: 13 operations of @main. -/
abbrev ops3_2 : List (HloOp τ sig (Elt F)) :=
  [ StableHlo.unary main_arg12 main_v180 ((extractStridedSlice S1x7x128 ![2, 0, 0] · slices_S3x7x128_S1x7x128_2_0_0) : (⟨S3x7x128, .f32⟩ : BufTy).Contents (Elt F) → (⟨S1x7x128, .f32⟩ : BufTy).Contents (Elt F)),
    StableHlo.reshape main_v180 main_v181 rfl shapeCasts_S1x7x128_S7x128,
    StableHlo.binary main_v7 main_v181 main_v182 ((fun l r => Host.dotGeneral dot_S100000x7_S7x128_S100000x128_1_0_0_1_n_n none l r) : (⟨S100000x7, .f32⟩ : BufTy).Contents (Elt F) → (⟨S7x128, .f32⟩ : BufTy).Contents (Elt F) → (⟨S100000x128, .f32⟩ : BufTy).Contents (Elt F)),
    StableHlo.binary main_v179 main_v182 main_v183 (addf : (⟨S100000x128, .f32⟩ : BufTy).Contents (Elt F) → (⟨S100000x128, .f32⟩ : BufTy).Contents (Elt F) → (⟨S100000x128, .f32⟩ : BufTy).Contents (Elt F)),
    StableHlo.unary main_arg13 main_v184 ((extractStridedSlice S1x128 ![2, 0] · slices_S3x128_S1x128_2_0) : (⟨S3x128, .f32⟩ : BufTy).Contents (Elt F) → (⟨S1x128, .f32⟩ : BufTy).Contents (Elt F)),
    StableHlo.reshape main_v184 main_v185 rfl shapeCasts_S1x128_S128,
    StableHlo.unary main_v185 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S100000x128 ![0, 1] bcast_S1x128_S100000x128_0_1 : (⟨S1x128, .f32⟩ : BufTy).Contents (Elt F) → (⟨S100000x128, .f32⟩ : BufTy).Contents (Elt F)),
    StableHlo.binary main_v183 main_v187 main_v188 (addf : (⟨S100000x128, .f32⟩ : BufTy).Contents (Elt F) → (⟨S100000x128, .f32⟩ : BufTy).Contents (Elt F) → (⟨S100000x128, .f32⟩ : BufTy).Contents (Elt F)),
    StableHlo.binary main_v188 main_arg14 main_v189 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S100000x128 ![0, 1] bcast_S1x128_S100000x128_0_1 : (⟨S1x128, .f32⟩ : BufTy).Contents (Elt F) → (⟨S100000x128, .f32⟩ : BufTy).Contents (Elt F)),
    StableHlo.binary main_v189 main_v191 main_v192 (addf : (⟨S100000x128, .f32⟩ : BufTy).Contents (Elt F) → (⟨S100000x128, .f32⟩ : BufTy).Contents (Elt F) → (⟨S100000x128, .f32⟩ : BufTy).Contents (Elt F)) ]

/-! ## Each stretch touches TensorCore references only, and determines its results -/

theorem ops0_0_sub : (ops0_0 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops0_0_fresh : (ops0_0 : List (HloOp τ sig (Elt F))).Forall fun op => op.fresh = ∅ := by
  repeat' apply And.intro
  all_goals rfl

theorem ops0_1_sub : (ops0_1 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops0_1_fresh : (ops0_1 : List (HloOp τ sig (Elt F))).Forall fun op => op.fresh = ∅ := by
  repeat' apply And.intro
  all_goals rfl

theorem ops0_2_sub : (ops0_2 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops0_2_fresh : (ops0_2 : List (HloOp τ sig (Elt F))).Forall fun op => op.fresh = ∅ := by
  repeat' apply And.intro
  all_goals rfl

theorem ops0_3_sub : (ops0_3 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops0_3_fresh : (ops0_3 : List (HloOp τ sig (Elt F))).Forall fun op => op.fresh = ∅ := by
  repeat' apply And.intro
  all_goals rfl

theorem ops0_4_sub : (ops0_4 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops0_4_fresh : (ops0_4 : List (HloOp τ sig (Elt F))).Forall fun op => op.fresh = ∅ := by
  repeat' apply And.intro
  all_goals rfl

theorem ops1_0_sub : (ops1_0 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops1_0_fresh : (ops1_0 : List (HloOp τ sig (Elt F))).Forall fun op => op.fresh = ∅ := by
  repeat' apply And.intro
  all_goals rfl

theorem ops1_1_sub : (ops1_1 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops1_1_fresh : (ops1_1 : List (HloOp τ sig (Elt F))).Forall fun op => op.fresh = ∅ := by
  repeat' apply And.intro
  all_goals rfl

theorem ops1_2_sub : (ops1_2 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops1_2_fresh : (ops1_2 : List (HloOp τ sig (Elt F))).Forall fun op => op.fresh = ∅ := by
  repeat' apply And.intro
  all_goals rfl

theorem ops1_3_sub : (ops1_3 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops1_3_fresh : (ops1_3 : List (HloOp τ sig (Elt F))).Forall fun op => op.fresh = ∅ := by
  repeat' apply And.intro
  all_goals rfl

theorem ops1_4_sub : (ops1_4 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops1_4_fresh : (ops1_4 : List (HloOp τ sig (Elt F))).Forall fun op => op.fresh = ∅ := by
  repeat' apply And.intro
  all_goals rfl

theorem ops2_0_sub : (ops2_0 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops2_0_fresh : (ops2_0 : List (HloOp τ sig (Elt F))).Forall fun op => op.fresh = ∅ := by
  repeat' apply And.intro
  all_goals rfl

theorem ops2_1_sub : (ops2_1 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops2_1_fresh : (ops2_1 : List (HloOp τ sig (Elt F))).Forall fun op => op.fresh = ∅ := by
  repeat' apply And.intro
  all_goals rfl

theorem ops2_2_sub : (ops2_2 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops2_2_fresh : (ops2_2 : List (HloOp τ sig (Elt F))).Forall fun op => op.fresh = ∅ := by
  repeat' apply And.intro
  all_goals rfl

theorem ops2_3_sub : (ops2_3 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops2_3_fresh : (ops2_3 : List (HloOp τ sig (Elt F))).Forall fun op => op.fresh = ∅ := by
  repeat' apply And.intro
  all_goals rfl

theorem ops2_4_sub : (ops2_4 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops2_4_fresh : (ops2_4 : List (HloOp τ sig (Elt F))).Forall fun op => op.fresh = ∅ := by
  repeat' apply And.intro
  all_goals rfl

theorem ops3_0_sub : (ops3_0 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops3_0_fresh : (ops3_0 : List (HloOp τ sig (Elt F))).Forall fun op => op.fresh = ∅ := by
  repeat' apply And.intro
  all_goals rfl

theorem ops3_1_sub : (ops3_1 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops3_1_fresh : (ops3_1 : List (HloOp τ sig (Elt F))).Forall fun op => op.fresh = ∅ := by
  repeat' apply And.intro
  all_goals rfl

theorem ops3_2_sub : (ops3_2 : List (HloOp τ sig (Elt F))).Forall fun op => op.bufs ⊆ tcRefs τ sig := by
  repeat' apply And.intro
  all_goals first | exact unary_bufs_sub .. | exact binary_bufs_sub .. | exact reshape_bufs_sub .. | exact nullary_bufs_sub .. | exact ternary_bufs_sub ..
theorem ops3_2_fresh : (ops3_2 : List (HloOp τ sig (Elt F))).Forall fun op => op.fresh = ∅ := by
  repeat' apply And.intro
  all_goals rfl

/-! ## The windows -/

/-- Window 0's operations: its stretches in order. -/
abbrev ops0 : List (HloOp τ sig (Elt F)) := ops0_0 ++ (ops0_1 ++ (ops0_2 ++ (ops0_3 ++ (ops0_4))))

/-- Window 0 of @main is the straight line of its operations: the printed window is the chain of its stretches
    (each called function's body unfolds to the stretch listed at its call, the records' fields to the buffers
    they name — a definitional equation, checked by the kernel), and a chain of straight lines is the straight
    line of their concatenation (`seq_append`). The window's last statement stands in tail position; the straight line closes with the return, which a bind after the last step absorbs by computation. -/
theorem main0_eq (c : Dev nD) : main_part0 (F := F) c = seq ops0 := by
  have h : main_part0 (F := F) c = (Pipeline.chainK [seq ops0_0, seq ops0_1, seq ops0_2, seq ops0_3] (seq ops0_4)
      : Prog (TpuEff nD τ sig (Elt F) (Pipeline.Sig Λ₀ (Fin 0) fun p => (pcfgs (F := F) p).Adm) .tc) PUnit) := by
    chain_rfl
  rw [h]
  show _ = seq (ops0_0 ++ (ops0_1 ++ (ops0_2 ++ (ops0_3 ++ (ops0_4)))))
  rw [seq_append, seq_append, seq_append, seq_append]
  rfl

theorem ops0_sub : (ops0 : List (HloOp τ sig (Elt F))).Forall fun op => op.bufs ⊆ tcRefs τ sig :=
  List.forall_append.mpr ⟨ops0_0_sub, List.forall_append.mpr ⟨ops0_1_sub, List.forall_append.mpr ⟨ops0_2_sub, List.forall_append.mpr ⟨ops0_3_sub, ops0_4_sub⟩⟩⟩⟩
theorem ops0_fresh : (ops0 : List (HloOp τ sig (Elt F))).Forall fun op => op.fresh = ∅ :=
  List.forall_append.mpr ⟨ops0_0_fresh, List.forall_append.mpr ⟨ops0_1_fresh, List.forall_append.mpr ⟨ops0_2_fresh, List.forall_append.mpr ⟨ops0_3_fresh, ops0_4_fresh⟩⟩⟩⟩

/-- Window 1's operations: its stretches in order. -/
abbrev ops1 : List (HloOp τ sig (Elt F)) := ops1_0 ++ (ops1_1 ++ (ops1_2 ++ (ops1_3 ++ (ops1_4))))

/-- Window 1 of @main is the straight line of its operations: the printed window is the chain of its stretches
    (each called function's body unfolds to the stretch listed at its call, the records' fields to the buffers
    they name — a definitional equation, checked by the kernel), and a chain of straight lines is the straight
    line of their concatenation (`seq_append`). The window's last statement stands in tail position; the straight line closes with the return, which a bind after the last step absorbs by computation. -/
theorem main1_eq (c : Dev nD) : main_part1 (F := F) c = seq ops1 := by
  have h : main_part1 (F := F) c = (Pipeline.chainK [seq ops1_0, seq ops1_1, seq ops1_2, seq ops1_3] (seq ops1_4)
      : Prog (TpuEff nD τ sig (Elt F) (Pipeline.Sig Λ₀ (Fin 0) fun p => (pcfgs (F := F) p).Adm) .tc) PUnit) := by
    chain_rfl
  rw [h]
  show _ = seq (ops1_0 ++ (ops1_1 ++ (ops1_2 ++ (ops1_3 ++ (ops1_4)))))
  rw [seq_append, seq_append, seq_append, seq_append]
  rfl

theorem ops1_sub : (ops1 : List (HloOp τ sig (Elt F))).Forall fun op => op.bufs ⊆ tcRefs τ sig :=
  List.forall_append.mpr ⟨ops1_0_sub, List.forall_append.mpr ⟨ops1_1_sub, List.forall_append.mpr ⟨ops1_2_sub, List.forall_append.mpr ⟨ops1_3_sub, ops1_4_sub⟩⟩⟩⟩
theorem ops1_fresh : (ops1 : List (HloOp τ sig (Elt F))).Forall fun op => op.fresh = ∅ :=
  List.forall_append.mpr ⟨ops1_0_fresh, List.forall_append.mpr ⟨ops1_1_fresh, List.forall_append.mpr ⟨ops1_2_fresh, List.forall_append.mpr ⟨ops1_3_fresh, ops1_4_fresh⟩⟩⟩⟩

/-- Window 2's operations: its stretches in order. -/
abbrev ops2 : List (HloOp τ sig (Elt F)) := ops2_0 ++ (ops2_1 ++ (ops2_2 ++ (ops2_3 ++ (ops2_4))))

/-- Window 2 of @main is the straight line of its operations: the printed window is the chain of its stretches
    (each called function's body unfolds to the stretch listed at its call, the records' fields to the buffers
    they name — a definitional equation, checked by the kernel), and a chain of straight lines is the straight
    line of their concatenation (`seq_append`). The window's last statement stands in tail position; the straight line closes with the return, which a bind after the last step absorbs by computation. -/
theorem main2_eq (c : Dev nD) : main_part2 (F := F) c = seq ops2 := by
  have h : main_part2 (F := F) c = (Pipeline.chainK [seq ops2_0, seq ops2_1, seq ops2_2, seq ops2_3] (seq ops2_4)
      : Prog (TpuEff nD τ sig (Elt F) (Pipeline.Sig Λ₀ (Fin 0) fun p => (pcfgs (F := F) p).Adm) .tc) PUnit) := by
    chain_rfl
  rw [h]
  show _ = seq (ops2_0 ++ (ops2_1 ++ (ops2_2 ++ (ops2_3 ++ (ops2_4)))))
  rw [seq_append, seq_append, seq_append, seq_append]
  rfl

theorem ops2_sub : (ops2 : List (HloOp τ sig (Elt F))).Forall fun op => op.bufs ⊆ tcRefs τ sig :=
  List.forall_append.mpr ⟨ops2_0_sub, List.forall_append.mpr ⟨ops2_1_sub, List.forall_append.mpr ⟨ops2_2_sub, List.forall_append.mpr ⟨ops2_3_sub, ops2_4_sub⟩⟩⟩⟩
theorem ops2_fresh : (ops2 : List (HloOp τ sig (Elt F))).Forall fun op => op.fresh = ∅ :=
  List.forall_append.mpr ⟨ops2_0_fresh, List.forall_append.mpr ⟨ops2_1_fresh, List.forall_append.mpr ⟨ops2_2_fresh, List.forall_append.mpr ⟨ops2_3_fresh, ops2_4_fresh⟩⟩⟩⟩

/-- Window 3's operations: its stretches in order. -/
abbrev ops3 : List (HloOp τ sig (Elt F)) := ops3_0 ++ (ops3_1 ++ (ops3_2))

/-- Window 3 of @main is the straight line of its operations: the printed window is the chain of its stretches
    (each called function's body unfolds to the stretch listed at its call, the records' fields to the buffers
    they name — a definitional equation, checked by the kernel), and a chain of straight lines is the straight
    line of their concatenation (`seq_append`). -/
theorem main3_eq (c : Dev nD) : main_part3 (F := F) c = seq ops3 := by
  have h : main_part3 (F := F) c = (Pipeline.chain [seq ops3_0, seq ops3_1, seq ops3_2]
      : Prog (TpuEff nD τ sig (Elt F) (Pipeline.Sig Λ₀ (Fin 0) fun p => (pcfgs (F := F) p).Adm) .tc) PUnit) := by
    chain_rfl
  rw [h]
  show _ = seq (ops3_0 ++ (ops3_1 ++ (ops3_2)))
  rw [seq_append, seq_append]
  rfl

theorem ops3_sub : (ops3 : List (HloOp τ sig (Elt F))).Forall fun op => op.bufs ⊆ tcRefs τ sig :=
  List.forall_append.mpr ⟨ops3_0_sub, List.forall_append.mpr ⟨ops3_1_sub, ops3_2_sub⟩⟩
theorem ops3_fresh : (ops3 : List (HloOp τ sig (Elt F))).Forall fun op => op.fresh = ∅ :=
  List.forall_append.mpr ⟨ops3_0_fresh, List.forall_append.mpr ⟨ops3_1_fresh, ops3_2_fresh⟩⟩

/-! ## @main -/

/-- @main's host operations in program order, the called functions' operations at the call sites. -/
abbrev ops : List (HloOp τ sig (Elt F)) := ops0 ++ (ops1 ++ (ops2 ++ ops3))

/-- @main runs its four windows in order; each is the straight line of its operations, and straight lines run one
    after the other are the straight line of the concatenation. -/
theorem main_eq (c : Dev nD) : main (F := F) c = seq ops := by
  show (main_part0 (F := F) c >>= fun _ => main_part1 (F := F) c >>= fun _ => main_part2 (F := F) c >>= fun _ =>
    main_part3 (F := F) c) = _
  rw [main0_eq, main1_eq, main2_eq, main3_eq]
  show _ = seq (ops0 ++ (ops1 ++ (ops2 ++ ops3)))
  rw [seq_append ops0, seq_append ops1, seq_append ops2]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

/-- No operation of the line leaves a result undetermined. -/
theorem ops_fresh : ∀ op ∈ (ops : List (HloOp τ sig (Elt F))), op.fresh = ∅ :=
  List.forall_iff_forall_mem.mp
    (List.forall_append.mpr ⟨ops0_fresh, List.forall_append.mpr ⟨ops1_fresh, List.forall_append.mpr ⟨ops2_fresh, ops3_fresh⟩⟩⟩)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

end Cert.ReferenceIdeal.Run

end
-- ==== Proof.RefDense.lean ====
/-
  The reference's dense layer as pure functions of whole arrays, read at an entry.

  One layer of the network takes the node features `h`, the aggregated neighbour features `agg` and the conditioning
  rows `ns`, and computes, array by array,

    u   = lrelu ((h + agg) · W1 + b1)
    n   = (u - mean) * (gamma / sqrt (var + eps)) + beta
    v   = lrelu (n · W2 + b2)
    out = (v + ns · SW) + sb

  where every vector of 128 entries is first spread over the 100000 rows. `dense` is that composition of array
  operations, written operation for operation; `dense_apply` reads it at row `r` and column `q`: the entry is the
  row function `Cert.Gin.rowR` of the `r`-th rows of `h`, `agg` and `ns`. `fcOut` is the output projection
  `h · fcW + fcB`, read at an entry by `fcOut_apply`.
-/
import proofs.«144638_j87729001988302_1_alg».proof.ReferenceIdeal
import proofs.«144638_j87729001988302_1_alg».proof.Proof.Spec
import proofs.«144638_j87729001988302_1_alg».proof.Proof.LibPlainMatmul
import proofs.«144638_j87729001988302_1_alg».proof.Proof.LibBroadcasts
import Idealize.ShloMosaic.Lib.ValueIdx
import Idealize.ShloMosaic.Lib.IdealHost
import Idealize.ShloMosaic.PureOps.Ideal.Laws

noncomputable section

namespace Cert.ReferenceIdeal.Dense

open Idealize.ShloMosaic Idealize.ShloMosaic.ValueIdx
open Cert.ReferenceIdeal
open scoped BigOperators

variable [Facts]
open Facts₀ Facts

/-! ## The array functions -/

/-- The leaky rectifier of an array: `x` where `x ≥ 0`, `0.2 · x` elsewhere. -/
def leaky (x : FVec Ideal S100000x128 .f32) : FVec Ideal S100000x128 .f32 :=
  select (cmpf .oge x (broadcastInDim S100000x128 ![] bcast_S_S100000x128 (constant (F := Ideal) S_ .f32 0x00000000#32))) x
    (mulf (broadcastInDim S100000x128 ![] bcast_S_S100000x128 (id (constant (F := Ideal) S_ .f32 0x3E4CCCCD#32))) x)

/-- A vector of 128 entries spread over the 100000 rows. -/
def rowVec (v : FVec Ideal S128 .f32) : FVec Ideal S100000x128 .f32 :=
  broadcastInDim S100000x128 ![0, 1] bcast_S1x128_S100000x128_0_1 (broadcastInDim S1x128 ![1] bcast_S128_S1x128_1 v)

/-- The normalisation's scale `gamma / sqrt (var + eps)`, entry by entry. -/
def scaleVec (g va : FVec Ideal S128 .f32) : FVec Ideal S128 .f32 :=
  Host.divf g (Host.sqrt (addf va (broadcastInDim S128 ![] bcast_S_S128 (constant (F := Ideal) S_ .f32 0x3727C5AC#32))))

/-- One layer's dense part, array by array. -/
def dense (h agg : FVec Ideal S100000x128 .f32) (ns : FVec Ideal S100000x7 .f32) (w1 : FVec Ideal S128x128 .f32)
    (b1 mu g va be : FVec Ideal S128 .f32) (w2 : FVec Ideal S128x128 .f32) (b2 : FVec Ideal S128 .f32)
    (sw : FVec Ideal S7x128 .f32) (sb : FVec Ideal S128 .f32) : FVec Ideal S100000x128 .f32 :=
  addf (addf (leaky (addf (Host.dotGeneral dot_S100000x128_S128x128_S100000x128_1_0_0_1_n_n none
      (addf (mulf (subf (leaky (addf (Host.dotGeneral dot_S100000x128_S128x128_S100000x128_1_0_0_1_n_n none (addf h agg) w1) (rowVec b1))) (rowVec mu)) (rowVec (scaleVec g va))) (rowVec be))
      w2) (rowVec b2))) (Host.dotGeneral dot_S100000x7_S7x128_S100000x128_1_0_0_1_n_n none ns sw)) (rowVec sb)

/-- The output projection, array by array. -/
def fcOut (h : FVec Ideal S100000x128 .f32) (fcW : FVec Ideal S128x128 .f32) (fcB : FVec Ideal S128 .f32) :
    FVec Ideal S100000x128 .f32 :=
  addf (Host.dotGeneral dot_S100000x128_S128x128_S100000x128_1_0_0_1_n_n none h fcW) (rowVec fcB)

/-- A layer's parameter arrays, entry by entry. -/
def vecParams (w1 : FVec Ideal S128x128 .f32) (b1 mu g va be : FVec Ideal S128 .f32) (w2 : FVec Ideal S128x128 .f32)
    (b2 : FVec Ideal S128 .f32) (sw : FVec Ideal S7x128 .f32) (sb : FVec Ideal S128 .f32) : Cert.Gin.Params where
  w1 := fun k c => w1 (ix2 k c)
  b1 := fun c => b1 (ix1 c)
  g := fun c => g (ix1 c)
  be := fun c => be (ix1 c)
  mu := fun c => mu (ix1 c)
  va := fun c => va (ix1 c)
  w2 := fun k c => w2 (ix2 k c)
  b2 := fun c => b2 (ix1 c)
  sw := fun j c => sw (ix2 j c)
  sb := fun c => sb (ix1 c)

/-! ## Each array function at an entry -/

/-- The rectifier of an array, at an entry, is the scalar rectifier of that entry: both constants are spread scalars. -/
theorem leaky_apply (x : FVec Ideal S100000x128 .f32) (i : S100000x128.Idx) : leaky x i = Cert.Gin.lrelu (x i) := by
  show Scalar.select (FloatOps.cmpf .oge (x i)
      (broadcastInDim S100000x128 ![] bcast_S_S100000x128 (constant (F := Ideal) S_ .f32 0x00000000#32) i)) (x i)
      (broadcastInDim S100000x128 ![] bcast_S_S100000x128 (id (constant (F := Ideal) S_ .f32 0x3E4CCCCD#32)) i * x i) = _
  rw [LibBroadcasts.scalar_apply, LibBroadcasts.scalar_apply]
  rfl

/-- A spread vector at row `r`, column `q` is the vector's entry `q`. -/
theorem rowVec_apply (v : FVec Ideal S128 .f32) (r : Fin 100000) (q : Fin 128) : rowVec v (ix2 r q) = v (ix1 q) :=
  (LibBroadcasts.rows_apply bcast_S1x128_S100000x128_0_1 _ r q).trans (LibBroadcasts.row_apply bcast_S128_S1x128_1 v 0 q)

/-- The scale at entry `c`. -/
theorem scaleVec_apply (g va : FVec Ideal S128 .f32) (c : Fin 128) :
    scaleVec g va (ix1 c) = Ideal.div (g (ix1 c)) (Ideal.sqrt (va (ix1 c) + Cert.Gin.eps)) := by
  show Ideal.div (g (ix1 c)) (Ideal.sqrt (va (ix1 c)
      + broadcastInDim S128 ![] bcast_S_S128 (constant (F := Ideal) S_ .f32 0x3727C5AC#32) (ix1 c))) = _
  rw [LibBroadcasts.scalar_apply]
  rfl

/-- The program's dimension numbers of the 128-column products are the plain ones. -/
theorem dot128_eq : dot_S100000x128_S128x128_S100000x128_1_0_0_1_n_n = DotDims.plain 100000 128 128 := rfl

/-- The program's dimension numbers of the 7-column product are the plain ones. -/
theorem dot7_eq : dot_S100000x7_S7x128_S100000x128_1_0_0_1_n_n = DotDims.plain 100000 7 128 := rfl

/-- A product with a 128 by 128 matrix, at an entry. -/
theorem dot128_apply (X : FVec Ideal S100000x128 .f32) (w : FVec Ideal S128x128 .f32) (r : Fin 100000) (c : Fin 128) :
    Host.dotGeneral dot_S100000x128_S128x128_S100000x128_1_0_0_1_n_n none X w (ix2 r c)
      = ∑ k : Fin 128, X (ix2 r k) * w (ix2 k c) :=
  (congrArg (fun d => Host.dotGeneral d none X w (ix2 r c)) dot128_eq).trans
    (LibPlainMatmul.dotGeneral_apply 100000 128 128 none X w r c)

/-- The product with the 7 by 128 matrix, at an entry. -/
theorem dot7_apply (X : FVec Ideal S100000x7 .f32) (w : FVec Ideal S7x128 .f32) (r : Fin 100000) (c : Fin 128) :
    Host.dotGeneral dot_S100000x7_S7x128_S100000x128_1_0_0_1_n_n none X w (ix2 r c)
      = ∑ j : Fin 7, X (ix2 r j) * w (ix2 j c) :=
  (congrArg (fun d => Host.dotGeneral d none X w (ix2 r c)) dot7_eq).trans
    (LibPlainMatmul.dotGeneral_apply 100000 7 128 none X w r c)

/-! ## The layer at an entry -/

section Layer

variable (h agg : FVec Ideal S100000x128 .f32) (ns : FVec Ideal S100000x7 .f32) (w1 : FVec Ideal S128x128 .f32)
  (b1 mu g va be : FVec Ideal S128 .f32) (w2 : FVec Ideal S128x128 .f32) (b2 : FVec Ideal S128 .f32)
  (sw : FVec Ideal S7x128 .f32) (sb : FVec Ideal S128 .f32) (r : Fin 100000)

/-- The first linear map and rectifier, at row `r`, column `k`. -/
theorem pre1_apply (k : Fin 128) :
    leaky (addf (Host.dotGeneral dot_S100000x128_S128x128_S100000x128_1_0_0_1_n_n none (addf h agg) w1) (rowVec b1)) (ix2 r k)
      = Cert.Gin.pre1 (vecParams w1 b1 mu g va be w2 b2 sw sb) (fun k => h (ix2 r k)) (fun k => agg (ix2 r k)) k := by
  rw [leaky_apply, addf_apply, dot128_apply, rowVec_apply]
  rfl

/-- The normalised row, at row `r`, column `k`. -/
theorem normR_apply (k : Fin 128) :
    addf (mulf (subf (leaky (addf (Host.dotGeneral dot_S100000x128_S128x128_S100000x128_1_0_0_1_n_n none (addf h agg) w1) (rowVec b1)))
        (rowVec mu)) (rowVec (scaleVec g va))) (rowVec be) (ix2 r k)
      = Cert.Gin.normR (vecParams w1 b1 mu g va be w2 b2 sw sb) (fun k => h (ix2 r k)) (fun k => agg (ix2 r k)) k := by
  rw [addf_apply, mulf_apply, subf_apply, pre1_apply h agg w1 b1 mu g va be w2 b2 sw sb r k, rowVec_apply, rowVec_apply,
    rowVec_apply, scaleVec_apply]
  rfl

/-- The second linear map and rectifier, at row `r`, column `c`. -/
theorem post2R_apply (c : Fin 128) :
    leaky (addf (Host.dotGeneral dot_S100000x128_S128x128_S100000x128_1_0_0_1_n_n none
        (addf (mulf (subf (leaky (addf (Host.dotGeneral dot_S100000x128_S128x128_S100000x128_1_0_0_1_n_n none (addf h agg) w1) (rowVec b1)))
          (rowVec mu)) (rowVec (scaleVec g va))) (rowVec be)) w2) (rowVec b2)) (ix2 r c)
      = Cert.Gin.post2R (vecParams w1 b1 mu g va be w2 b2 sw sb) (fun k => h (ix2 r k)) (fun k => agg (ix2 r k)) c := by
  rw [leaky_apply, addf_apply, dot128_apply, rowVec_apply]
  unfold Cert.Gin.post2R
  refine congrArg Cert.Gin.lrelu (congrArg₂ (· + ·) (Finset.sum_congr rfl fun k _ => ?_) rfl)
  exact congrArg₂ (· * ·) (normR_apply h agg w1 b1 mu g va be w2 b2 sw sb r k) rfl

/-- THE LAYER AT AN ENTRY: row `r`, column `q` of the dense part is the row function of the `r`-th rows. -/
theorem dense_apply (q : Fin 128) :
    dense h agg ns w1 b1 mu g va be w2 b2 sw sb (ix2 r q)
      = Cert.Gin.rowR (vecParams w1 b1 mu g va be w2 b2 sw sb) (fun k => h (ix2 r k)) (fun k => agg (ix2 r k))
          (fun j => ns (ix2 r j)) q := by
  unfold dense
  rw [addf_apply, addf_apply, post2R_apply h agg w1 b1 mu g va be w2 b2 sw sb r q, dot7_apply, rowVec_apply]
  rfl

end Layer

/-- THE OUTPUT PROJECTION AT AN ENTRY. -/
theorem fcOut_apply (h : FVec Ideal S100000x128 .f32) (fcW : FVec Ideal S128x128 .f32) (fcB : FVec Ideal S128 .f32)
    (r : Fin 100000) (q : Fin 128) :
    fcOut h fcW fcB (ix2 r q)
      = Cert.Gin.fcRow (fun k c => fcW (ix2 k c)) (fun c => fcB (ix1 c)) (fun k => h (ix2 r k)) q := by
  unfold fcOut
  rw [addf_apply, dot128_apply, rowVec_apply]
  rfl

end Cert.ReferenceIdeal.Dense

end
-- ==== Proof.RefHost.lean ====
/-
  The host arithmetic both programs share, as pure functions of the argument arrays (the reference program's spelling):
  the cleaned per-graph statistics gathered per node, the edge list's two rows, and the neighbour aggregation
  (gather the sources' rows, scatter-add them into the destinations' rows). Neither is ever opened: the two programs
  apply the same functions to the same arrays.
-/
import proofs.«144638_j87729001988302_1_alg».proof.ReferenceIdeal
import Idealize.ShloMosaic.PureOps.Ideal

noncomputable section

namespace Cert.ReferenceIdeal.Host

open Idealize.ShloMosaic Cert.ReferenceIdeal

variable [Facts]
open Facts₀ Facts

/-- Not-a-number entries replaced by `-100`: no extended real differs from itself, so this keeps every entry; kept as
    the programs spell it. -/
def nan1 (gs : FVec Ideal S64x7 .f32) : FVec Ideal S64x7 .f32 :=
  select (cmpf .une gs gs) (broadcastInDim S64x7 ![] bcast_S_S64x7 (id (constant (F := Ideal) S_ .f32 0xC2C80000#32))) gs
/-- `+∞` entries replaced by the largest finite word. -/
def nan2 (gs : FVec Ideal S64x7 .f32) : FVec Ideal S64x7 .f32 :=
  select (cmpf .oeq (nan1 gs) (broadcastInDim S64x7 ![] bcast_S_S64x7 (constant (F := Ideal) S_ .f32 0x7F800000#32)))
    (broadcastInDim S64x7 ![] bcast_S_S64x7 (constant (F := Ideal) S_ .f32 0x7F7FFFFF#32)) (nan1 gs)
/-- `-∞` entries replaced by the smallest finite word. -/
def nan3 (gs : FVec Ideal S64x7 .f32) : FVec Ideal S64x7 .f32 :=
  select (cmpf .oeq (nan2 gs) (broadcastInDim S64x7 ![] bcast_S_S64x7 (constant (F := Ideal) S_ .f32 0xFF800000#32)))
    (broadcastInDim S64x7 ![] bcast_S_S64x7 (constant (F := Ideal) S_ .f32 0xFF7FFFFF#32)) (nan2 gs)

/-- Each node's conditioning row: its graph's row of the cleaned statistics (a negative graph id wrapped by 64). -/
def nodeStats (gs : FVec Ideal S64x7 .f32) (batch : IVec S100000 32) : FVec Ideal S100000x7 .f32 :=
  Host.gather gather_S64x7_S100000x1_S100000x7_1_0_n_n_0_1_17 (nan3 gs)
    (broadcastInDim S100000x1 ![0] bcast_S100000_S100000x1_0
      (select (cmpi .slt batch (broadcastInDim S100000 ![] bcast_S_S100000 (constantI S_ 32 0#32)))
        (addi batch (broadcastInDim S100000 ![] bcast_S_S100000 (constantI S_ 32 64#32))) batch))

/-- The edges' source nodes: row 0 of the edge list. -/
def srcIdx (e : IVec S2x1600000 32) : IVec S1600000 32 :=
  fun i => shapeCast S1600000 (extractStridedSlice S1x1600000 ![0, 0] e slices_S2x1600000_S1x1600000_0_0) shapeCasts_S1x1600000_S1600000 i
/-- The edges' destination nodes: row 1 of the edge list. -/
def dstIdx (e : IVec S2x1600000 32) : IVec S1600000 32 :=
  fun i => shapeCast S1600000 (extractStridedSlice S1x1600000 ![1, 0] e slices_S2x1600000_S1x1600000_1_0) shapeCasts_S1x1600000_S1600000 i

/-- The neighbour aggregation: each edge's source row (a negative source wrapped by 100000) gathered, and added into
    the edge's destination row of a zero array. -/
def aggregate (h : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstIdx e))
    (Host.gather gather_S100000x128_S1600000x1_S1600000x128_1_0_n_n_0_1_1128 h
      (broadcastInDim S1600000x1 ![0] bcast_S1600000_S1600000x1_0
        (select (cmpi .slt (srcIdx e) (broadcastInDim S1600000 ![] bcast_S_S1600000 (constantI S_ 32 0#32)))
          (addi (srcIdx e) (broadcastInDim S1600000 ![] bcast_S_S1600000 (constantI S_ 32 100000#32))) (srcIdx e))))

end Cert.ReferenceIdeal.Host

end
-- ==== Proof.RefValue.lean ====
/-
  The reference's result as a composition of three layers and the output projection, and that composition as the
  specification's whole-array functions.

  Each layer takes slab `l` of every stacked parameter array (a slice of one slab, reshaped to drop the unit axis),
  aggregates the current features over the edges, and applies the dense part; the result is the output projection of
  the third layer's features. Read entry by entry, slab `l` of a stack is the stack at `(l, ·, ·)`, so layer `l`'s
  parameters are the specification's `argParams l`, the layer is the specification's `layerR` at them, and the result
  is `fcArr` of the three layers composed.
-/
import proofs.«144638_j87729001988302_1_alg».proof.Proof.RefDense
import proofs.«144638_j87729001988302_1_alg».proof.Proof.RefHost
import proofs.«144638_j87729001988302_1_alg».proof.Proof.SpecArr
import proofs.«144638_j87729001988302_1_alg».proof.Proof.LibUnitAxisCasts
import Idealize.ShloMosaic.Lib.Pipeline.Value
import Idealize.ShloMosaic.Lib.ValueIdx

noncomputable section

namespace Cert.ReferenceIdeal.Value0

open Idealize.ShloMosaic Idealize.ShloMosaic.ValueIdx
open Cert.ReferenceIdeal
open scoped BigOperators

variable [Facts]
open Facts₀ Facts

/-! ## The slabs of the stacked parameter arrays -/

/-- Slab 0 of a stack of three 128 by 128 matrices. -/
def mat0 (W : FVec Ideal S3x128x128 .f32) : FVec Ideal S128x128 .f32 :=
  fun i => shapeCast S128x128 (extractStridedSlice S1x128x128 ![0, 0, 0] W slices_S3x128x128_S1x128x128_0_0_0) shapeCasts_S1x128x128_S128x128 i
/-- Row 0 of a stack of three vectors. -/
def vec0 (v : FVec Ideal S3x128 .f32) : FVec Ideal S128 .f32 :=
  fun i => shapeCast S128 (extractStridedSlice S1x128 ![0, 0] v slices_S3x128_S1x128_0_0) shapeCasts_S1x128_S128 i
/-- Slab 0 of a stack of three 7 by 128 matrices. -/
def sw0 (W : FVec Ideal S3x7x128 .f32) : FVec Ideal S7x128 .f32 :=
  fun i => shapeCast S7x128 (extractStridedSlice S1x7x128 ![0, 0, 0] W slices_S3x7x128_S1x7x128_0_0_0) shapeCasts_S1x7x128_S7x128 i

/-- Slab 1 of a stack of three 128 by 128 matrices. -/
def mat1 (W : FVec Ideal S3x128x128 .f32) : FVec Ideal S128x128 .f32 :=
  fun i => shapeCast S128x128 (extractStridedSlice S1x128x128 ![1, 0, 0] W slices_S3x128x128_S1x128x128_1_0_0) shapeCasts_S1x128x128_S128x128 i
/-- Row 1 of a stack of three vectors. -/
def vec1 (v : FVec Ideal S3x128 .f32) : FVec Ideal S128 .f32 :=
  fun i => shapeCast S128 (extractStridedSlice S1x128 ![1, 0] v slices_S3x128_S1x128_1_0) shapeCasts_S1x128_S128 i
/-- Slab 1 of a stack of three 7 by 128 matrices. -/
def sw1 (W : FVec Ideal S3x7x128 .f32) : FVec Ideal S7x128 .f32 :=
  fun i => shapeCast S7x128 (extractStridedSlice S1x7x128 ![1, 0, 0] W slices_S3x7x128_S1x7x128_1_0_0) shapeCasts_S1x7x128_S7x128 i

/-- Slab 2 of a stack of three 128 by 128 matrices. -/
def mat2 (W : FVec Ideal S3x128x128 .f32) : FVec Ideal S128x128 .f32 :=
  fun i => shapeCast S128x128 (extractStridedSlice S1x128x128 ![2, 0, 0] W slices_S3x128x128_S1x128x128_2_0_0) shapeCasts_S1x128x128_S128x128 i
/-- Row 2 of a stack of three vectors. -/
def vec2 (v : FVec Ideal S3x128 .f32) : FVec Ideal S128 .f32 :=
  fun i => shapeCast S128 (extractStridedSlice S1x128 ![2, 0] v slices_S3x128_S1x128_2_0) shapeCasts_S1x128_S128 i
/-- Slab 2 of a stack of three 7 by 128 matrices. -/
def sw2 (W : FVec Ideal S3x7x128 .f32) : FVec Ideal S7x128 .f32 :=
  fun i => shapeCast S7x128 (extractStridedSlice S1x7x128 ![2, 0, 0] W slices_S3x7x128_S1x7x128_2_0_0) shapeCasts_S1x7x128_S7x128 i

/-! ## The layers and the result -/

/-- Layer 0 of the reference: the dense part of the features, their neighbour aggregation and the conditioning rows, with
    slab 0 of every stacked parameter array. -/
def layer0 (h : FVec Ideal S100000x128 .f32) (e : IVec S2x1600000 32) (ns : FVec Ideal S100000x7 .f32)
    (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) : FVec Ideal S100000x128 .f32 :=
  Dense.dense h (Host.aggregate h e) ns (mat0 W1s) (vec0 b1s) (vec0 mea) (vec0 gam) (vec0 var) (vec0 bet) (mat0 W2s) (vec0 b2s) (sw0 sWs) (vec0 sBs)

/-- Layer 1 of the reference: the dense part of the features, their neighbour aggregation and the conditioning rows, with
    slab 1 of every stacked parameter array. -/
def layer1 (h : FVec Ideal S100000x128 .f32) (e : IVec S2x1600000 32) (ns : FVec Ideal S100000x7 .f32)
    (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) : FVec Ideal S100000x128 .f32 :=
  Dense.dense h (Host.aggregate h e) ns (mat1 W1s) (vec1 b1s) (vec1 mea) (vec1 gam) (vec1 var) (vec1 bet) (mat1 W2s) (vec1 b2s) (sw1 sWs) (vec1 sBs)

/-- Layer 2 of the reference: the dense part of the features, their neighbour aggregation and the conditioning rows, with
    slab 2 of every stacked parameter array. -/
def layer2 (h : FVec Ideal S100000x128 .f32) (e : IVec S2x1600000 32) (ns : FVec Ideal S100000x7 .f32)
    (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) : FVec Ideal S100000x128 .f32 :=
  Dense.dense h (Host.aggregate h e) ns (mat2 W1s) (vec2 b1s) (vec2 mea) (vec2 gam) (vec2 var) (vec2 bet) (mat2 W2s) (vec2 b2s) (sw2 sWs) (vec2 sBs)

/-- The reference's result: the output projection of the three layers composed, every layer over the same edges and the
    same conditioning rows. -/
def refOut (x : FVec Ideal S100000x128 .f32) (e : IVec S2x1600000 32) (batch : IVec S100000 32) (gs : FVec Ideal S64x7 .f32)
    (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) (fcW : FVec Ideal S128x128 .f32) (fcB : FVec Ideal S128 .f32) : FVec Ideal S100000x128 .f32 :=
  Dense.fcOut (layer2 (layer1 (layer0 x e (Host.nodeStats gs batch) W1s b1s gam bet mea var W2s b2s sWs sBs) e (Host.nodeStats gs batch) W1s b1s gam bet mea var W2s b2s sWs sBs) e (Host.nodeStats gs batch) W1s b1s gam bet mea var W2s b2s sWs sBs) fcW fcB

/-! ## A slab of a stack, read at an entry -/

/-- Slab `o` of an `[L, a, b]` stack, as an `[a, b]` array, has at `(p, c)` the stack's entry `(o, p, c)`: the reshape
    keeps `(0, p, c)` and the slice shifts the first coordinate by `o`. -/
theorem slab_apply {α : Type} {L a b : ℕ} (o : ℕ) (ho : o < L) (W : (⟨3, ![L, a, b]⟩ : Shape).Idx → α)
    (hs : (⟨3, ![L, a, b]⟩ : Shape).Slices ![o, 0, 0] ⟨3, ![1, a, b]⟩)
    (hc : (⟨3, ![1, a, b]⟩ : Shape).ShapeCasts ⟨2, ![a, b]⟩) (p : Fin a) (c : Fin b) :
    shapeCast ⟨2, ![a, b]⟩ (extractStridedSlice ⟨3, ![1, a, b]⟩ ![o, 0, 0] W hs) hc (ix2 p c)
      = W (ix3 (⟨o, ho⟩ : Fin L) p c) :=
  (LibUnitAxisCasts.shapeCast_1ab_ab_apply _ hc p c).trans
    (extractStridedSlice_apply ![o, 0, 0] W hs (ix3 (0 : Fin 1) p c) (ix3 (⟨o, ho⟩ : Fin L) p c) fun x =>
      match x with
      | ⟨0, _⟩ => by show o = o + 0; omega
      | ⟨1, _⟩ => by show p.val = 0 + p.val; omega
      | ⟨2, _⟩ => by show c.val = 0 + c.val; omega)

/-- Row `o` of an `[L, a]` stack, as an `[a]` vector, has at `c` the stack's entry `(o, c)`. -/
theorem stackRow_apply {α : Type} {L a : ℕ} (o : ℕ) (ho : o < L) (v : (⟨2, ![L, a]⟩ : Shape).Idx → α)
    (hs : (⟨2, ![L, a]⟩ : Shape).Slices ![o, 0] ⟨2, ![1, a]⟩)
    (hc : (⟨2, ![1, a]⟩ : Shape).ShapeCasts ⟨1, ![a]⟩) (c : Fin a) :
    shapeCast ⟨1, ![a]⟩ (extractStridedSlice ⟨2, ![1, a]⟩ ![o, 0] v hs) hc (ix1 c) = v (ix2 (⟨o, ho⟩ : Fin L) c) :=
  (shapeCast_apply _ hc (ix1 c) (ix2 (0 : Fin 1) c) (by
      rw [Shape.rowMajor_val_two, Shape.rowMajor_val_one]
      show (0 : ℕ) * a + c.val = c.val
      omega)).trans
    (extractStridedSlice_apply ![o, 0] v hs (ix2 (0 : Fin 1) c) (ix2 (⟨o, ho⟩ : Fin L) c) fun x =>
      match x with
      | ⟨0, _⟩ => by show o = o + 0; omega
      | ⟨1, _⟩ => by show c.val = 0 + c.val; omega)

theorem mat0_apply (W : FVec Ideal S3x128x128 .f32) (k c : Fin 128) : mat0 W (ix2 k c) = W (ix3 (0 : Fin 3) k c) :=
  slab_apply 0 (by decide) W slices_S3x128x128_S1x128x128_0_0_0 shapeCasts_S1x128x128_S128x128 k c
theorem vec0_apply (v : FVec Ideal S3x128 .f32) (c : Fin 128) : vec0 v (ix1 c) = v (ix2 (0 : Fin 3) c) :=
  stackRow_apply 0 (by decide) v slices_S3x128_S1x128_0_0 shapeCasts_S1x128_S128 c
theorem sw0_apply (W : FVec Ideal S3x7x128 .f32) (j : Fin 7) (c : Fin 128) : sw0 W (ix2 j c) = W (ix3 (0 : Fin 3) j c) :=
  slab_apply 0 (by decide) W slices_S3x7x128_S1x7x128_0_0_0 shapeCasts_S1x7x128_S7x128 j c

theorem mat1_apply (W : FVec Ideal S3x128x128 .f32) (k c : Fin 128) : mat1 W (ix2 k c) = W (ix3 (1 : Fin 3) k c) :=
  slab_apply 1 (by decide) W slices_S3x128x128_S1x128x128_1_0_0 shapeCasts_S1x128x128_S128x128 k c
theorem vec1_apply (v : FVec Ideal S3x128 .f32) (c : Fin 128) : vec1 v (ix1 c) = v (ix2 (1 : Fin 3) c) :=
  stackRow_apply 1 (by decide) v slices_S3x128_S1x128_1_0 shapeCasts_S1x128_S128 c
theorem sw1_apply (W : FVec Ideal S3x7x128 .f32) (j : Fin 7) (c : Fin 128) : sw1 W (ix2 j c) = W (ix3 (1 : Fin 3) j c) :=
  slab_apply 1 (by decide) W slices_S3x7x128_S1x7x128_1_0_0 shapeCasts_S1x7x128_S7x128 j c

theorem mat2_apply (W : FVec Ideal S3x128x128 .f32) (k c : Fin 128) : mat2 W (ix2 k c) = W (ix3 (2 : Fin 3) k c) :=
  slab_apply 2 (by decide) W slices_S3x128x128_S1x128x128_2_0_0 shapeCasts_S1x128x128_S128x128 k c
theorem vec2_apply (v : FVec Ideal S3x128 .f32) (c : Fin 128) : vec2 v (ix1 c) = v (ix2 (2 : Fin 3) c) :=
  stackRow_apply 2 (by decide) v slices_S3x128_S1x128_2_0 shapeCasts_S1x128_S128 c
theorem sw2_apply (W : FVec Ideal S3x7x128 .f32) (j : Fin 7) (c : Fin 128) : sw2 W (ix2 j c) = W (ix3 (2 : Fin 3) j c) :=
  slab_apply 2 (by decide) W slices_S3x7x128_S1x7x128_2_0_0 shapeCasts_S1x7x128_S7x128 j c

/-! ## The layers' parameters -/

/-- Parameter arrays that read, entry by entry, slab `l` of the stacks give the specification's parameters of layer `l`. -/
theorem params_of (l : Fin 3) (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32)
    {w1 : FVec Ideal S128x128 .f32} {b1 mu g va be : FVec Ideal S128 .f32} {w2 : FVec Ideal S128x128 .f32}
    {b2 : FVec Ideal S128 .f32} {sw : FVec Ideal S7x128 .f32} {sb : FVec Ideal S128 .f32}
    (hw1 : ∀ k c : Fin 128, w1 (ix2 k c) = W1s (ix3 l k c)) (hb1 : ∀ c : Fin 128, b1 (ix1 c) = b1s (ix2 l c))
    (hmu : ∀ c : Fin 128, mu (ix1 c) = mea (ix2 l c)) (hg : ∀ c : Fin 128, g (ix1 c) = gam (ix2 l c))
    (hva : ∀ c : Fin 128, va (ix1 c) = var (ix2 l c)) (hbe : ∀ c : Fin 128, be (ix1 c) = bet (ix2 l c))
    (hw2 : ∀ k c : Fin 128, w2 (ix2 k c) = W2s (ix3 l k c)) (hb2 : ∀ c : Fin 128, b2 (ix1 c) = b2s (ix2 l c))
    (hsw : ∀ (j : Fin 7) (c : Fin 128), sw (ix2 j c) = sWs (ix3 l j c)) (hsb : ∀ c : Fin 128, sb (ix1 c) = sBs (ix2 l c)) :
    Dense.vecParams w1 b1 mu g va be w2 b2 sw sb = Cert.Gin.argParams l W1s b1s gam bet mea var W2s b2s sWs sBs := by
  unfold Dense.vecParams Cert.Gin.argParams
  congr 1
  · funext k c; exact hw1 k c
  · funext c; exact hb1 c
  · funext c; exact hg c
  · funext c; exact hbe c
  · funext c; exact hmu c
  · funext c; exact hva c
  · funext k c; exact hw2 k c
  · funext c; exact hb2 c
  · funext j c; exact hsw j c
  · funext c; exact hsb c

/-- Layer 0's sliced parameter arrays, entry by entry, are the specification's parameters of layer 0. -/
theorem params0 (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) :
    Dense.vecParams (mat0 W1s) (vec0 b1s) (vec0 mea) (vec0 gam) (vec0 var) (vec0 bet) (mat0 W2s) (vec0 b2s) (sw0 sWs) (vec0 sBs)
      = Cert.Gin.argParams 0 W1s b1s gam bet mea var W2s b2s sWs sBs :=
  params_of 0 W1s b1s gam bet mea var W2s b2s sWs sBs (mat0_apply W1s) (vec0_apply b1s) (vec0_apply mea) (vec0_apply gam) (vec0_apply var)
    (vec0_apply bet) (mat0_apply W2s) (vec0_apply b2s) (sw0_apply sWs) (vec0_apply sBs)

/-- Layer 1's sliced parameter arrays, entry by entry, are the specification's parameters of layer 1. -/
theorem params1 (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) :
    Dense.vecParams (mat1 W1s) (vec1 b1s) (vec1 mea) (vec1 gam) (vec1 var) (vec1 bet) (mat1 W2s) (vec1 b2s) (sw1 sWs) (vec1 sBs)
      = Cert.Gin.argParams 1 W1s b1s gam bet mea var W2s b2s sWs sBs :=
  params_of 1 W1s b1s gam bet mea var W2s b2s sWs sBs (mat1_apply W1s) (vec1_apply b1s) (vec1_apply mea) (vec1_apply gam) (vec1_apply var)
    (vec1_apply bet) (mat1_apply W2s) (vec1_apply b2s) (sw1_apply sWs) (vec1_apply sBs)

/-- Layer 2's sliced parameter arrays, entry by entry, are the specification's parameters of layer 2. -/
theorem params2 (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) :
    Dense.vecParams (mat2 W1s) (vec2 b1s) (vec2 mea) (vec2 gam) (vec2 var) (vec2 bet) (mat2 W2s) (vec2 b2s) (sw2 sWs) (vec2 sBs)
      = Cert.Gin.argParams 2 W1s b1s gam bet mea var W2s b2s sWs sBs :=
  params_of 2 W1s b1s gam bet mea var W2s b2s sWs sBs (mat2_apply W1s) (vec2_apply b1s) (vec2_apply mea) (vec2_apply gam) (vec2_apply var)
    (vec2_apply bet) (mat2_apply W2s) (vec2_apply b2s) (sw2_apply sWs) (vec2_apply sBs)

/-! ## The layers and the result as the specification's functions -/

/-- Layer 0 of the reference is the specification's layer at layer 0's parameters. -/
theorem layer0_eq (h : FVec Ideal S100000x128 .f32) (e : IVec S2x1600000 32) (ns : FVec Ideal S100000x7 .f32)
    (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) :
    layer0 h e ns W1s b1s gam bet mea var W2s b2s sWs sBs
      = Cert.Gin.layerR (Cert.Gin.argParams 0 W1s b1s gam bet mea var W2s b2s sWs sBs) h (Host.aggregate h e) ns :=
  Cert.Gin.arr_ext fun r q =>
    (Dense.dense_apply h (Host.aggregate h e) ns (mat0 W1s) (vec0 b1s) (vec0 mea) (vec0 gam) (vec0 var) (vec0 bet)
        (mat0 W2s) (vec0 b2s) (sw0 sWs) (vec0 sBs) r q).trans
      (congrArg (fun P => Cert.Gin.rowR P (fun k => h (ix2 r k)) (fun k => Host.aggregate h e (ix2 r k)) (fun j => ns (ix2 r j)) q)
        (params0 W1s b1s gam bet mea var W2s b2s sWs sBs))

/-- Layer 1 of the reference is the specification's layer at layer 1's parameters. -/
theorem layer1_eq (h : FVec Ideal S100000x128 .f32) (e : IVec S2x1600000 32) (ns : FVec Ideal S100000x7 .f32)
    (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) :
    layer1 h e ns W1s b1s gam bet mea var W2s b2s sWs sBs
      = Cert.Gin.layerR (Cert.Gin.argParams 1 W1s b1s gam bet mea var W2s b2s sWs sBs) h (Host.aggregate h e) ns :=
  Cert.Gin.arr_ext fun r q =>
    (Dense.dense_apply h (Host.aggregate h e) ns (mat1 W1s) (vec1 b1s) (vec1 mea) (vec1 gam) (vec1 var) (vec1 bet)
        (mat1 W2s) (vec1 b2s) (sw1 sWs) (vec1 sBs) r q).trans
      (congrArg (fun P => Cert.Gin.rowR P (fun k => h (ix2 r k)) (fun k => Host.aggregate h e (ix2 r k)) (fun j => ns (ix2 r j)) q)
        (params1 W1s b1s gam bet mea var W2s b2s sWs sBs))

/-- Layer 2 of the reference is the specification's layer at layer 2's parameters. -/
theorem layer2_eq (h : FVec Ideal S100000x128 .f32) (e : IVec S2x1600000 32) (ns : FVec Ideal S100000x7 .f32)
    (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) :
    layer2 h e ns W1s b1s gam bet mea var W2s b2s sWs sBs
      = Cert.Gin.layerR (Cert.Gin.argParams 2 W1s b1s gam bet mea var W2s b2s sWs sBs) h (Host.aggregate h e) ns :=
  Cert.Gin.arr_ext fun r q =>
    (Dense.dense_apply h (Host.aggregate h e) ns (mat2 W1s) (vec2 b1s) (vec2 mea) (vec2 gam) (vec2 var) (vec2 bet)
        (mat2 W2s) (vec2 b2s) (sw2 sWs) (vec2 sBs) r q).trans
      (congrArg (fun P => Cert.Gin.rowR P (fun k => h (ix2 r k)) (fun k => Host.aggregate h e (ix2 r k)) (fun j => ns (ix2 r j)) q)
        (params2 W1s b1s gam bet mea var W2s b2s sWs sBs))

/-- The output projection of an array is the specification's. -/
theorem fcOut_eq (h : FVec Ideal S100000x128 .f32) (fcW : FVec Ideal S128x128 .f32) (fcB : FVec Ideal S128 .f32) :
    Dense.fcOut h fcW fcB = Cert.Gin.fcArr (fun k c => fcW (ix2 k c)) (fun c => fcB (ix1 c)) h :=
  Cert.Gin.arr_ext fun r q => Dense.fcOut_apply h fcW fcB r q

/-- THE REFERENCE'S RESULT is the specification's output projection of its three layers composed, each at its slab of the
    stacked parameters, over the shared aggregation and conditioning rows. -/
theorem refOut_eq (x : FVec Ideal S100000x128 .f32) (e : IVec S2x1600000 32) (batch : IVec S100000 32) (gs : FVec Ideal S64x7 .f32)
    (W1s : FVec Ideal S3x128x128 .f32) (b1s gam bet mea var : FVec Ideal S3x128 .f32)
    (W2s : FVec Ideal S3x128x128 .f32) (b2s : FVec Ideal S3x128 .f32) (sWs : FVec Ideal S3x7x128 .f32)
    (sBs : FVec Ideal S3x128 .f32) (fcW : FVec Ideal S128x128 .f32) (fcB : FVec Ideal S128 .f32) :
    refOut x e batch gs W1s b1s gam bet mea var W2s b2s sWs sBs fcW fcB
      = Cert.Gin.fcArr (fun k c => fcW (ix2 k c)) (fun c => fcB (ix1 c))
          (Cert.Gin.layerR (Cert.Gin.argParams 2 W1s b1s gam bet mea var W2s b2s sWs sBs) (Cert.Gin.layerR (Cert.Gin.argParams 1 W1s b1s gam bet mea var W2s b2s sWs sBs) (Cert.Gin.layerR (Cert.Gin.argParams 0 W1s b1s gam bet mea var W2s b2s sWs sBs) x (Host.aggregate x e) (Host.nodeStats gs batch)) (Host.aggregate (Cert.Gin.layerR (Cert.Gin.argParams 0 W1s b1s gam bet mea var W2s b2s sWs sBs) x (Host.aggregate x e) (Host.nodeStats gs batch)) e) (Host.nodeStats gs batch)) (Host.aggregate (Cert.Gin.layerR (Cert.Gin.argParams 1 W1s b1s gam bet mea var W2s b2s sWs sBs) (Cert.Gin.layerR (Cert.Gin.argParams 0 W1s b1s gam bet mea var W2s b2s sWs sBs) x (Host.aggregate x e) (Host.nodeStats gs batch)) (Host.aggregate (Cert.Gin.layerR (Cert.Gin.argParams 0 W1s b1s gam bet mea var W2s b2s sWs sBs) x (Host.aggregate x e) (Host.nodeStats gs batch)) e) (Host.nodeStats gs batch)) e) (Host.nodeStats gs batch)) := by
  unfold refOut
  rw [layer0_eq, layer1_eq, layer2_eq, fcOut_eq]

end Cert.ReferenceIdeal.Value0

end
-- ==== Proof.RefOut.lean ====
/-
  The reference's straight line of host operations, folded at its result buffer.

  The line is cut at stretch boundaries into four segments. For any contents `W` of the buffers before a segment, the
  few buffers the later segments read hold, after it, a pure function of `W` at the segment's inputs (computed by
  unrolling the fold over the segment's operations), and every buffer the segment does not write keeps its contents.
  Composing the four segments from the last to the first gives the result buffer as the output projection of the three
  layers composed, which is `Value0.refOut` of the argument buffers.
-/
import proofs.«144638_j87729001988302_1_alg».proof.Proof.RefRun
import proofs.«144638_j87729001988302_1_alg».proof.Proof.RefValue

set_option maxHeartbeats 4000000
set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

/-! ## The pieces of a layer between two stretch boundaries -/

/-- The rectifier with its slope read from a scalar array. -/
def leakyC (c : FVec Ideal S_ .f32) (x : FVec Ideal S100000x128 .f32) : FVec Ideal S100000x128 .f32 :=
  select (cmpf .oge x (broadcastInDim S100000x128 ![] bcast_S_S100000x128 (constant (F := Ideal) S_ .f32 0x00000000#32))) x
    (mulf (broadcastInDim S100000x128 ![] bcast_S_S100000x128 (id c)) x)

/-- The first linear map of a layer, before its rectifier. -/
def pre (h a : FVec Ideal S100000x128 .f32) (w1 : FVec Ideal S128x128 .f32) (b1 : FVec Ideal S128 .f32) : FVec Ideal S100000x128 .f32 :=
  addf (Host.dotGeneral dot_S100000x128_S128x128_S100000x128_1_0_0_1_n_n none (addf h a) w1) (Dense.rowVec b1)

/-- The rest of a layer from the first linear map's result on. -/
def tail (c : FVec Ideal S_ .f32) (u : FVec Ideal S100000x128 .f32) (ns : FVec Ideal S100000x7 .f32) (mu g va be : FVec Ideal S128 .f32)
    (w2 : FVec Ideal S128x128 .f32) (b2 : FVec Ideal S128 .f32) (sw : FVec Ideal S7x128 .f32) (sb : FVec Ideal S128 .f32) : FVec Ideal S100000x128 .f32 :=
  addf (addf (Dense.leaky (addf (Host.dotGeneral dot_S100000x128_S128x128_S100000x128_1_0_0_1_n_n none
      (addf (mulf (subf (leakyC c u) (Dense.rowVec mu)) (Dense.rowVec (Dense.scaleVec g va))) (Dense.rowVec be))
      w2) (Dense.rowVec b2))) (Host.dotGeneral dot_S100000x7_S7x128_S100000x128_1_0_0_1_n_n none ns sw)) (Dense.rowVec sb)

/-- The neighbour aggregation over the two rows of the edge list, given as arrays. -/
def agg2 (h : FVec Ideal S100000x128 .f32) (s d : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A layer's dense part is its first linear map followed by the rest of the layer at the slope 0.2. -/
theorem dense_eq_tail (h agg : FVec Ideal S100000x128 .f32) (ns : FVec Ideal S100000x7 .f32) (w1 : FVec Ideal S128x128 .f32)
    (b1 mu g va be : FVec Ideal S128 .f32) (w2 : FVec Ideal S128x128 .f32) (b2 : FVec Ideal S128 .f32)
    (sw : FVec Ideal S7x128 .f32) (sb : FVec Ideal S128 .f32) :
    tail (constant (F := Ideal) S_ .f32 0x3E4CCCCD#32) (pre h agg w1 b1) ns mu g va be w2 b2 sw sb = Dense.dense h agg ns w1 b1 mu g va be w2 b2 sw sb := rfl

/-- The aggregation over the edge list's two rows is the aggregation over the edge list. -/
theorem agg2_eq (h : FVec Ideal S100000x128 .f32) (e : IVec S2x1600000 32) :
    agg2 h (Host.srcIdx e) (Host.dstIdx e) = Host.aggregate h e := rfl

/-! ## Segment A: the shared host arithmetic and layer 0's first linear map -/

attribute [local irreducible] Host.gather Host.scatterAdd in
theorem A_v30 (W : Valuation τ sig (Elt Ideal)) : (after (ops0_2 (F := Ideal)) (after (ops0_1 (F := Ideal)) (after (ops0_0 (F := Ideal)) W))) (main_v30 : DevRef τ sig)
    = pre (W (main_arg0 : DevRef τ sig)) (Host.aggregate (W (main_arg0 : DevRef τ sig)) (W (main_arg1 : DevRef τ sig))) (Value0.mat0 (W (main_arg4 : DevRef τ sig))) (Value0.vec0 (W (main_arg5 : DevRef τ sig))) := by
  simp (disch := decide) only [ops0_0, ops0_1, ops0_2, after_cons, after_nil, nullary_result', unary_result', binary_result', ternary_result', reshape_result', nullary_result_ne', unary_result_ne', binary_result_ne', ternary_result_ne', reshape_result_ne']
  rfl
attribute [local irreducible] Host.gather Host.scatterAdd in
theorem A_v7 (W : Valuation τ sig (Elt Ideal)) : (after (ops0_2 (F := Ideal)) (after (ops0_1 (F := Ideal)) (after (ops0_0 (F := Ideal)) W))) (main_v7 : DevRef τ sig) = Host.nodeStats (W (main_arg3 : DevRef τ sig)) (W (main_arg2 : DevRef τ sig)) := by
  simp (disch := decide) only [ops0_0, ops0_1, ops0_2, after_cons, after_nil, nullary_result', unary_result', binary_result', ternary_result', reshape_result', nullary_result_ne', unary_result_ne', binary_result_ne', ternary_result_ne', reshape_result_ne']
  rfl
theorem A_v9 (W : Valuation τ sig (Elt Ideal)) : (after (ops0_2 (F := Ideal)) (after (ops0_1 (F := Ideal)) (after (ops0_0 (F := Ideal)) W))) (main_v9 : DevRef τ sig) = Host.srcIdx (W (main_arg1 : DevRef τ sig)) := by
  simp (disch := decide) only [ops0_0, ops0_1, ops0_2, after_cons, after_nil, nullary_result', unary_result', binary_result', ternary_result', reshape_result', nullary_result_ne', unary_result_ne', binary_result_ne', ternary_result_ne', reshape_result_ne']
  rfl
theorem A_v11 (W : Valuation τ sig (Elt Ideal)) : (after (ops0_2 (F := Ideal)) (after (ops0_1 (F := Ideal)) (after (ops0_0 (F := Ideal)) W))) (main_v11 : DevRef τ sig) = Host.dstIdx (W (main_arg1 : DevRef τ sig)) := by
  simp (disch := decide) only [ops0_0, ops0_1, ops0_2, after_cons, after_nil, nullary_result', unary_result', binary_result', ternary_result', reshape_result', nullary_result_ne', unary_result_ne', binary_result_ne', ternary_result_ne', reshape_result_ne']
  rfl
theorem A_cst_4 (W : Valuation τ sig (Elt Ideal)) : (after (ops0_2 (F := Ideal)) (after (ops0_1 (F := Ideal)) (after (ops0_0 (F := Ideal)) W))) (main_cst_4 : DevRef τ sig) = (constant (F := Ideal) S_ .f32 0x3E4CCCCD#32) := by
  simp (disch := decide) only [ops0_0, ops0_1, ops0_2, after_cons, after_nil, nullary_result', unary_result', binary_result', ternary_result', reshape_result', nullary_result_ne', unary_result_ne', binary_result_ne', ternary_result_ne', reshape_result_ne']
theorem A_arg4 (W : Valuation τ sig (Elt Ideal)) : (after (ops0_2 (F := Ideal)) (after (ops0_1 (F := Ideal)) (after (ops0_0 (F := Ideal)) W))) (main_arg4 : DevRef τ sig) = W (main_arg4 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg5 (W : Valuation τ sig (Elt Ideal)) : (after (ops0_2 (F := Ideal)) (after (ops0_1 (F := Ideal)) (after (ops0_0 (F := Ideal)) W))) (main_arg5 : DevRef τ sig) = W (main_arg5 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg6 (W : Valuation τ sig (Elt Ideal)) : (after (ops0_2 (F := Ideal)) (after (ops0_1 (F := Ideal)) (after (ops0_0 (F := Ideal)) W))) (main_arg6 : DevRef τ sig) = W (main_arg6 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg7 (W : Valuation τ sig (Elt Ideal)) : (after (ops0_2 (F := Ideal)) (after (ops0_1 (F := Ideal)) (after (ops0_0 (F := Ideal)) W))) (main_arg7 : DevRef τ sig) = W (main_arg7 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg8 (W : Valuation τ sig (Elt Ideal)) : (after (ops0_2 (F := Ideal)) (after (ops0_1 (F := Ideal)) (after (ops0_0 (F := Ideal)) W))) (main_arg8 : DevRef τ sig) = W (main_arg8 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg9 (W : Valuation τ sig (Elt Ideal)) : (after (ops0_2 (F := Ideal)) (after (ops0_1 (F := Ideal)) (after (ops0_0 (F := Ideal)) W))) (main_arg9 : DevRef τ sig) = W (main_arg9 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg10 (W : Valuation τ sig (Elt Ideal)) : (after (ops0_2 (F := Ideal)) (after (ops0_1 (F := Ideal)) (after (ops0_0 (F := Ideal)) W))) (main_arg10 : DevRef τ sig) = W (main_arg10 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg11 (W : Valuation τ sig (Elt Ideal)) : (after (ops0_2 (F := Ideal)) (after (ops0_1 (F := Ideal)) (after (ops0_0 (F := Ideal)) W))) (main_arg11 : DevRef τ sig) = W (main_arg11 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg12 (W : Valuation τ sig (Elt Ideal)) : (after (ops0_2 (F := Ideal)) (after (ops0_1 (F := Ideal)) (after (ops0_0 (F := Ideal)) W))) (main_arg12 : DevRef τ sig) = W (main_arg12 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg13 (W : Valuation τ sig (Elt Ideal)) : (after (ops0_2 (F := Ideal)) (after (ops0_1 (F := Ideal)) (after (ops0_0 (F := Ideal)) W))) (main_arg13 : DevRef τ sig) = W (main_arg13 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg14 (W : Valuation τ sig (Elt Ideal)) : (after (ops0_2 (F := Ideal)) (after (ops0_1 (F := Ideal)) (after (ops0_0 (F := Ideal)) W))) (main_arg14 : DevRef τ sig) = W (main_arg14 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']
theorem A_arg15 (W : Valuation τ sig (Elt Ideal)) : (after (ops0_2 (F := Ideal)) (after (ops0_1 (F := Ideal)) (after (ops0_0 (F := Ideal)) W))) (main_arg15 : DevRef τ sig) = W (main_arg15 : DevRef τ sig) := by
  simp (disch := decide) only [ops0_0, ops0_1, ops0_2, after_cons, after_nil, nullary_result', unary_result', binary_result', ternary_result', reshape_result', nullary_result_ne', unary_result_ne', binary_result_ne', ternary_result_ne', reshape_result_ne']

/-! ## Segment B: the rest of layer 0, the aggregation of its result, layer 1's first linear map -/

attribute [local irreducible] Host.gather Host.scatterAdd in
theorem B_v89 (W : Valuation τ sig (Elt Ideal)) : (after (ops1_2 (F := Ideal)) (after (ops1_1 (F := Ideal)) (after (ops1_0 (F := Ideal)) (after (ops0_4 (F := Ideal)) (after (ops0_3 (F := Ideal)) W))))) (main_v89 : DevRef τ sig)
    = pre (tail (W (main_cst_4 : DevRef τ sig)) (W (main_v30 : DevRef τ sig)) (W (main_v7 : DevRef τ sig)) (Value0.vec0 (W (main_arg8 : DevRef τ sig))) (Value0.vec0 (W (main_arg6 : DevRef τ sig))) (Value0.vec0 (W (main_arg9 : DevRef τ sig))) (Value0.vec0 (W (main_arg7 : DevRef τ sig))) (Value0.mat0 (W (main_arg10 : DevRef τ sig))) (Value0.vec0 (W (main_arg11 : DevRef τ sig))) (Value0.sw0 (W (main_arg12 : DevRef τ sig))) (Value0.vec0 (W (main_arg13 : DevRef τ sig)))) (agg2 (tail (W (main_cst_4 : DevRef τ sig)) (W (main_v30 : DevRef τ sig)) (W (main_v7 : DevRef τ sig)) (Value0.vec0 (W (main_arg8 : DevRef τ sig))) (Value0.vec0 (W (main_arg6 : DevRef τ sig))) (Value0.vec0 (W (main_arg9 : DevRef τ sig))) (Value0.vec0 (W (main_arg7 : DevRef τ sig))) (Value0.mat0 (W (main_arg10 : DevRef τ sig))) (Value0.vec0 (W (main_arg11 : DevRef τ sig))) (Value0.sw0 (W (main_arg12 : DevRef τ sig))) (Value0.vec0 (W (main_arg13 : DevRef τ sig)))) (W (main_v9 : DevRef τ sig)) (W (main_v11 : DevRef τ sig))) (Value0.mat1 (W (main_arg4 : DevRef τ sig))) (Value0.vec1 (W (main_arg5 : DevRef τ sig))) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
  rfl
theorem B_cst_10 (W : Valuation τ sig (Elt Ideal)) : (after (ops1_2 (F := Ideal)) (after (ops1_1 (F := Ideal)) (after (ops1_0 (F := Ideal)) (after (ops0_4 (F := Ideal)) (after (ops0_3 (F := Ideal)) W))))) (main_cst_10 : DevRef τ sig) = (constant (F := Ideal) S_ .f32 0x3E4CCCCD#32) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_v7 (W : Valuation τ sig (Elt Ideal)) : (after (ops1_2 (F := Ideal)) (after (ops1_1 (F := Ideal)) (after (ops1_0 (F := Ideal)) (after (ops0_4 (F := Ideal)) (after (ops0_3 (F := Ideal)) W))))) (main_v7 : DevRef τ sig) = W (main_v7 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_v9 (W : Valuation τ sig (Elt Ideal)) : (after (ops1_2 (F := Ideal)) (after (ops1_1 (F := Ideal)) (after (ops1_0 (F := Ideal)) (after (ops0_4 (F := Ideal)) (after (ops0_3 (F := Ideal)) W))))) (main_v9 : DevRef τ sig) = W (main_v9 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_v11 (W : Valuation τ sig (Elt Ideal)) : (after (ops1_2 (F := Ideal)) (after (ops1_1 (F := Ideal)) (after (ops1_0 (F := Ideal)) (after (ops0_4 (F := Ideal)) (after (ops0_3 (F := Ideal)) W))))) (main_v11 : DevRef τ sig) = W (main_v11 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg4 (W : Valuation τ sig (Elt Ideal)) : (after (ops1_2 (F := Ideal)) (after (ops1_1 (F := Ideal)) (after (ops1_0 (F := Ideal)) (after (ops0_4 (F := Ideal)) (after (ops0_3 (F := Ideal)) W))))) (main_arg4 : DevRef τ sig) = W (main_arg4 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg5 (W : Valuation τ sig (Elt Ideal)) : (after (ops1_2 (F := Ideal)) (after (ops1_1 (F := Ideal)) (after (ops1_0 (F := Ideal)) (after (ops0_4 (F := Ideal)) (after (ops0_3 (F := Ideal)) W))))) (main_arg5 : DevRef τ sig) = W (main_arg5 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg6 (W : Valuation τ sig (Elt Ideal)) : (after (ops1_2 (F := Ideal)) (after (ops1_1 (F := Ideal)) (after (ops1_0 (F := Ideal)) (after (ops0_4 (F := Ideal)) (after (ops0_3 (F := Ideal)) W))))) (main_arg6 : DevRef τ sig) = W (main_arg6 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg7 (W : Valuation τ sig (Elt Ideal)) : (after (ops1_2 (F := Ideal)) (after (ops1_1 (F := Ideal)) (after (ops1_0 (F := Ideal)) (after (ops0_4 (F := Ideal)) (after (ops0_3 (F := Ideal)) W))))) (main_arg7 : DevRef τ sig) = W (main_arg7 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg8 (W : Valuation τ sig (Elt Ideal)) : (after (ops1_2 (F := Ideal)) (after (ops1_1 (F := Ideal)) (after (ops1_0 (F := Ideal)) (after (ops0_4 (F := Ideal)) (after (ops0_3 (F := Ideal)) W))))) (main_arg8 : DevRef τ sig) = W (main_arg8 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg9 (W : Valuation τ sig (Elt Ideal)) : (after (ops1_2 (F := Ideal)) (after (ops1_1 (F := Ideal)) (after (ops1_0 (F := Ideal)) (after (ops0_4 (F := Ideal)) (after (ops0_3 (F := Ideal)) W))))) (main_arg9 : DevRef τ sig) = W (main_arg9 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg10 (W : Valuation τ sig (Elt Ideal)) : (after (ops1_2 (F := Ideal)) (after (ops1_1 (F := Ideal)) (after (ops1_0 (F := Ideal)) (after (ops0_4 (F := Ideal)) (after (ops0_3 (F := Ideal)) W))))) (main_arg10 : DevRef τ sig) = W (main_arg10 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg11 (W : Valuation τ sig (Elt Ideal)) : (after (ops1_2 (F := Ideal)) (after (ops1_1 (F := Ideal)) (after (ops1_0 (F := Ideal)) (after (ops0_4 (F := Ideal)) (after (ops0_3 (F := Ideal)) W))))) (main_arg11 : DevRef τ sig) = W (main_arg11 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg12 (W : Valuation τ sig (Elt Ideal)) : (after (ops1_2 (F := Ideal)) (after (ops1_1 (F := Ideal)) (after (ops1_0 (F := Ideal)) (after (ops0_4 (F := Ideal)) (after (ops0_3 (F := Ideal)) W))))) (main_arg12 : DevRef τ sig) = W (main_arg12 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg13 (W : Valuation τ sig (Elt Ideal)) : (after (ops1_2 (F := Ideal)) (after (ops1_1 (F := Ideal)) (after (ops1_0 (F := Ideal)) (after (ops0_4 (F := Ideal)) (after (ops0_3 (F := Ideal)) W))))) (main_arg13 : DevRef τ sig) = W (main_arg13 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg14 (W : Valuation τ sig (Elt Ideal)) : (after (ops1_2 (F := Ideal)) (after (ops1_1 (F := Ideal)) (after (ops1_0 (F := Ideal)) (after (ops0_4 (F := Ideal)) (after (ops0_3 (F := Ideal)) W))))) (main_arg14 : DevRef τ sig) = W (main_arg14 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']
theorem B_arg15 (W : Valuation τ sig (Elt Ideal)) : (after (ops1_2 (F := Ideal)) (after (ops1_1 (F := Ideal)) (after (ops1_0 (F := Ideal)) (after (ops0_4 (F := Ideal)) (after (ops0_3 (F := Ideal)) W))))) (main_arg15 : DevRef τ sig) = W (main_arg15 : DevRef τ sig) := by
  simp (disch := decide) only [ops0_3, ops0_4, ops1_0, ops1_1, ops1_2, after_cons, after_nil, nullary_result', unary_result', binary_result', ternary_result', reshape_result', nullary_result_ne', unary_result_ne', binary_result_ne', ternary_result_ne', reshape_result_ne']

/-! ## Segment C: the rest of layer 1, the aggregation of its result, layer 2's first linear map -/

attribute [local irreducible] Host.gather Host.scatterAdd in
theorem C_v148 (W : Valuation τ sig (Elt Ideal)) : (after (ops2_2 (F := Ideal)) (after (ops2_1 (F := Ideal)) (after (ops2_0 (F := Ideal)) (after (ops1_4 (F := Ideal)) (after (ops1_3 (F := Ideal)) W))))) (main_v148 : DevRef τ sig)
    = pre (tail (W (main_cst_10 : DevRef τ sig)) (W (main_v89 : DevRef τ sig)) (W (main_v7 : DevRef τ sig)) (Value0.vec1 (W (main_arg8 : DevRef τ sig))) (Value0.vec1 (W (main_arg6 : DevRef τ sig))) (Value0.vec1 (W (main_arg9 : DevRef τ sig))) (Value0.vec1 (W (main_arg7 : DevRef τ sig))) (Value0.mat1 (W (main_arg10 : DevRef τ sig))) (Value0.vec1 (W (main_arg11 : DevRef τ sig))) (Value0.sw1 (W (main_arg12 : DevRef τ sig))) (Value0.vec1 (W (main_arg13 : DevRef τ sig)))) (agg2 (tail (W (main_cst_10 : DevRef τ sig)) (W (main_v89 : DevRef τ sig)) (W (main_v7 : DevRef τ sig)) (Value0.vec1 (W (main_arg8 : DevRef τ sig))) (Value0.vec1 (W (main_arg6 : DevRef τ sig))) (Value0.vec1 (W (main_arg9 : DevRef τ sig))) (Value0.vec1 (W (main_arg7 : DevRef τ sig))) (Value0.mat1 (W (main_arg10 : DevRef τ sig))) (Value0.vec1 (W (main_arg11 : DevRef τ sig))) (Value0.sw1 (W (main_arg12 : DevRef τ sig))) (Value0.vec1 (W (main_arg13 : DevRef τ sig)))) (W (main_v9 : DevRef τ sig)) (W (main_v11 : DevRef τ sig))) (Value0.mat2 (W (main_arg4 : DevRef τ sig))) (Value0.vec2 (W (main_arg5 : DevRef τ sig))) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
  rfl
theorem C_cst_16 (W : Valuation τ sig (Elt Ideal)) : (after (ops2_2 (F := Ideal)) (after (ops2_1 (F := Ideal)) (after (ops2_0 (F := Ideal)) (after (ops1_4 (F := Ideal)) (after (ops1_3 (F := Ideal)) W))))) (main_cst_16 : DevRef τ sig) = (constant (F := Ideal) S_ .f32 0x3E4CCCCD#32) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_v7 (W : Valuation τ sig (Elt Ideal)) : (after (ops2_2 (F := Ideal)) (after (ops2_1 (F := Ideal)) (after (ops2_0 (F := Ideal)) (after (ops1_4 (F := Ideal)) (after (ops1_3 (F := Ideal)) W))))) (main_v7 : DevRef τ sig) = W (main_v7 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg4 (W : Valuation τ sig (Elt Ideal)) : (after (ops2_2 (F := Ideal)) (after (ops2_1 (F := Ideal)) (after (ops2_0 (F := Ideal)) (after (ops1_4 (F := Ideal)) (after (ops1_3 (F := Ideal)) W))))) (main_arg4 : DevRef τ sig) = W (main_arg4 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg5 (W : Valuation τ sig (Elt Ideal)) : (after (ops2_2 (F := Ideal)) (after (ops2_1 (F := Ideal)) (after (ops2_0 (F := Ideal)) (after (ops1_4 (F := Ideal)) (after (ops1_3 (F := Ideal)) W))))) (main_arg5 : DevRef τ sig) = W (main_arg5 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg6 (W : Valuation τ sig (Elt Ideal)) : (after (ops2_2 (F := Ideal)) (after (ops2_1 (F := Ideal)) (after (ops2_0 (F := Ideal)) (after (ops1_4 (F := Ideal)) (after (ops1_3 (F := Ideal)) W))))) (main_arg6 : DevRef τ sig) = W (main_arg6 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg7 (W : Valuation τ sig (Elt Ideal)) : (after (ops2_2 (F := Ideal)) (after (ops2_1 (F := Ideal)) (after (ops2_0 (F := Ideal)) (after (ops1_4 (F := Ideal)) (after (ops1_3 (F := Ideal)) W))))) (main_arg7 : DevRef τ sig) = W (main_arg7 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg8 (W : Valuation τ sig (Elt Ideal)) : (after (ops2_2 (F := Ideal)) (after (ops2_1 (F := Ideal)) (after (ops2_0 (F := Ideal)) (after (ops1_4 (F := Ideal)) (after (ops1_3 (F := Ideal)) W))))) (main_arg8 : DevRef τ sig) = W (main_arg8 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg9 (W : Valuation τ sig (Elt Ideal)) : (after (ops2_2 (F := Ideal)) (after (ops2_1 (F := Ideal)) (after (ops2_0 (F := Ideal)) (after (ops1_4 (F := Ideal)) (after (ops1_3 (F := Ideal)) W))))) (main_arg9 : DevRef τ sig) = W (main_arg9 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg10 (W : Valuation τ sig (Elt Ideal)) : (after (ops2_2 (F := Ideal)) (after (ops2_1 (F := Ideal)) (after (ops2_0 (F := Ideal)) (after (ops1_4 (F := Ideal)) (after (ops1_3 (F := Ideal)) W))))) (main_arg10 : DevRef τ sig) = W (main_arg10 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg11 (W : Valuation τ sig (Elt Ideal)) : (after (ops2_2 (F := Ideal)) (after (ops2_1 (F := Ideal)) (after (ops2_0 (F := Ideal)) (after (ops1_4 (F := Ideal)) (after (ops1_3 (F := Ideal)) W))))) (main_arg11 : DevRef τ sig) = W (main_arg11 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg12 (W : Valuation τ sig (Elt Ideal)) : (after (ops2_2 (F := Ideal)) (after (ops2_1 (F := Ideal)) (after (ops2_0 (F := Ideal)) (after (ops1_4 (F := Ideal)) (after (ops1_3 (F := Ideal)) W))))) (main_arg12 : DevRef τ sig) = W (main_arg12 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg13 (W : Valuation τ sig (Elt Ideal)) : (after (ops2_2 (F := Ideal)) (after (ops2_1 (F := Ideal)) (after (ops2_0 (F := Ideal)) (after (ops1_4 (F := Ideal)) (after (ops1_3 (F := Ideal)) W))))) (main_arg13 : DevRef τ sig) = W (main_arg13 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg14 (W : Valuation τ sig (Elt Ideal)) : (after (ops2_2 (F := Ideal)) (after (ops2_1 (F := Ideal)) (after (ops2_0 (F := Ideal)) (after (ops1_4 (F := Ideal)) (after (ops1_3 (F := Ideal)) W))))) (main_arg14 : DevRef τ sig) = W (main_arg14 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']
theorem C_arg15 (W : Valuation τ sig (Elt Ideal)) : (after (ops2_2 (F := Ideal)) (after (ops2_1 (F := Ideal)) (after (ops2_0 (F := Ideal)) (after (ops1_4 (F := Ideal)) (after (ops1_3 (F := Ideal)) W))))) (main_arg15 : DevRef τ sig) = W (main_arg15 : DevRef τ sig) := by
  simp (disch := decide) only [ops1_3, ops1_4, ops2_0, ops2_1, ops2_2, after_cons, after_nil, nullary_result', unary_result', binary_result', ternary_result', reshape_result', nullary_result_ne', unary_result_ne', binary_result_ne', ternary_result_ne', reshape_result_ne']

/-! ## Segment D: the rest of layer 2 and the output projection -/

attribute [local irreducible] Host.gather Host.scatterAdd in
theorem D_v192 (W : Valuation τ sig (Elt Ideal)) : (after (ops3_2 (F := Ideal)) (after (ops3_1 (F := Ideal)) (after (ops3_0 (F := Ideal)) (after (ops2_4 (F := Ideal)) (after (ops2_3 (F := Ideal)) W))))) (main_v192 : DevRef τ sig)
    = Dense.fcOut (tail (W (main_cst_16 : DevRef τ sig)) (W (main_v148 : DevRef τ sig)) (W (main_v7 : DevRef τ sig)) (Value0.vec2 (W (main_arg8 : DevRef τ sig))) (Value0.vec2 (W (main_arg6 : DevRef τ sig))) (Value0.vec2 (W (main_arg9 : DevRef τ sig))) (Value0.vec2 (W (main_arg7 : DevRef τ sig))) (Value0.mat2 (W (main_arg10 : DevRef τ sig))) (Value0.vec2 (W (main_arg11 : DevRef τ sig))) (Value0.sw2 (W (main_arg12 : DevRef τ sig))) (Value0.vec2 (W (main_arg13 : DevRef τ sig)))) (W (main_arg14 : DevRef τ sig)) (W (main_arg15 : DevRef τ sig)) := by
  simp (disch := decide) only [ops2_3, ops2_4, ops3_0, ops3_1, ops3_2, after_cons, after_nil, nullary_result', unary_result', binary_result', ternary_result', reshape_result', nullary_result_ne', unary_result_ne', binary_result_ne', ternary_result_ne', reshape_result_ne']
  rfl

/-! ## The whole line -/

/-- The fold over the whole line is the folds over its stretches, one after the other. -/
theorem after_ops (V : Valuation τ sig (Elt Ideal)) : after (ops (F := Ideal)) V = (after (ops3_2 (F := Ideal)) (after (ops3_1 (F := Ideal)) (after (ops3_0 (F := Ideal)) (after (ops2_4 (F := Ideal)) (after (ops2_3 (F := Ideal)) (after (ops2_2 (F := Ideal)) (after (ops2_1 (F := Ideal)) (after (ops2_0 (F := Ideal)) (after (ops1_4 (F := Ideal)) (after (ops1_3 (F := Ideal)) (after (ops1_2 (F := Ideal)) (after (ops1_1 (F := Ideal)) (after (ops1_0 (F := Ideal)) (after (ops0_4 (F := Ideal)) (after (ops0_3 (F := Ideal)) (after (ops0_2 (F := Ideal)) (after (ops0_1 (F := Ideal)) (after (ops0_0 (F := Ideal)) V)))))))))))))))))) := by
  simp only [ops, ops0, ops1, ops2, ops3, StableHlo.after_append]

/-- THE RESULT BUFFER after the line holds the reference's result function of the argument buffers: the last segment's
    result read through the three earlier segments, each layer's pieces folded back into the layer. -/
theorem out_eq (V : Valuation τ sig (Elt Ideal)) :
    after (ops (F := Ideal)) V (main_v192 : DevRef τ sig)
      = Value0.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [after_ops, D_v192]
  rw [C_v148, C_cst_16, C_v7, C_arg6, C_arg7, C_arg8, C_arg9, C_arg10, C_arg11, C_arg12, C_arg13, C_arg14, C_arg15]
  rw [B_v89, B_cst_10, B_v7, B_v9, B_v11, B_arg4, B_arg5, B_arg6, B_arg7, B_arg8, B_arg9, B_arg10, B_arg11, B_arg12, B_arg13, B_arg14, B_arg15]
  rw [A_v30, A_cst_4, A_v7, A_v9, A_v11, A_arg4, A_arg5, A_arg6, A_arg7, A_arg8, A_arg9, A_arg10, A_arg11, A_arg12, A_arg13, A_arg14, A_arg15]
  simp only [agg2_eq, dense_eq_tail]
  rfl

end Cert.ReferenceIdeal.Run

end
-- ==== Proof.RefArgs.lean ====
/- The reference program's run leaves its sixteen argument buffers as they were: no operation of the line writes an
   argument (each writes the buffer of the value it defines), so the fold `after ops` at an argument's buffer is the
   launch contents there. Read off operation by operation: at a buffer other than the one an operation writes, its
   result is what was there before it (the references' inequality is decided). -/
import proofs.«144638_j87729001988302_1_alg».proof.Proof.RefRun
import Idealize.ShloMosaic.PureOps.Ideal

-- one pass over the 265 operations per argument
set_option maxHeartbeats 4000000
set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

/-- The fold over two lines run one after the other is the second's fold over the first's. -/
theorem after_concat {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The fold over the whole line is the folds over its stretches, composed in order. -/
theorem after_ops_stretches {F : FTy → Type} [FloatOps F] (V : Valuation τ sig (Elt F)) :
    after (ops (F := F)) V
      = after ops3_2 (after ops3_1 (after ops3_0 (after ops2_4 (after ops2_3 (after ops2_2 (after ops2_1 (after ops2_0 (after ops1_4 (after ops1_3 (after ops1_2 (after ops1_1 (after ops1_0 (after ops0_4 (after ops0_3 (after ops0_2 (after ops0_1 (after ops0_0 V))))))))))))))))) := by
  simp only [ops, ops0, ops1, ops2, ops3, after_concat]

/-! ## The arguments -/

theorem arg0_eq (V : Valuation τ sig (Elt Ideal)) :
    after (ops (F := Ideal)) V (main_arg0 : DevRef τ sig) = V (main_arg0 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg1_eq (V : Valuation τ sig (Elt Ideal)) :
    after (ops (F := Ideal)) V (main_arg1 : DevRef τ sig) = V (main_arg1 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg2_eq (V : Valuation τ sig (Elt Ideal)) :
    after (ops (F := Ideal)) V (main_arg2 : DevRef τ sig) = V (main_arg2 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg3_eq (V : Valuation τ sig (Elt Ideal)) :
    after (ops (F := Ideal)) V (main_arg3 : DevRef τ sig) = V (main_arg3 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg4_eq (V : Valuation τ sig (Elt Ideal)) :
    after (ops (F := Ideal)) V (main_arg4 : DevRef τ sig) = V (main_arg4 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg5_eq (V : Valuation τ sig (Elt Ideal)) :
    after (ops (F := Ideal)) V (main_arg5 : DevRef τ sig) = V (main_arg5 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg6_eq (V : Valuation τ sig (Elt Ideal)) :
    after (ops (F := Ideal)) V (main_arg6 : DevRef τ sig) = V (main_arg6 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg7_eq (V : Valuation τ sig (Elt Ideal)) :
    after (ops (F := Ideal)) V (main_arg7 : DevRef τ sig) = V (main_arg7 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg8_eq (V : Valuation τ sig (Elt Ideal)) :
    after (ops (F := Ideal)) V (main_arg8 : DevRef τ sig) = V (main_arg8 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg9_eq (V : Valuation τ sig (Elt Ideal)) :
    after (ops (F := Ideal)) V (main_arg9 : DevRef τ sig) = V (main_arg9 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg10_eq (V : Valuation τ sig (Elt Ideal)) :
    after (ops (F := Ideal)) V (main_arg10 : DevRef τ sig) = V (main_arg10 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg11_eq (V : Valuation τ sig (Elt Ideal)) :
    after (ops (F := Ideal)) V (main_arg11 : DevRef τ sig) = V (main_arg11 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg12_eq (V : Valuation τ sig (Elt Ideal)) :
    after (ops (F := Ideal)) V (main_arg12 : DevRef τ sig) = V (main_arg12 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg13_eq (V : Valuation τ sig (Elt Ideal)) :
    after (ops (F := Ideal)) V (main_arg13 : DevRef τ sig) = V (main_arg13 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg14_eq (V : Valuation τ sig (Elt Ideal)) :
    after (ops (F := Ideal)) V (main_arg14 : DevRef τ sig) = V (main_arg14 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

theorem arg15_eq (V : Valuation τ sig (Elt Ideal)) :
    after (ops (F := Ideal)) V (main_arg15 : DevRef τ sig) = V (main_arg15 : DevRef τ sig) := by
  rw [after_ops_stretches]
  simp (disch := decide) only [ops0_0, ops0_1, ops0_2, ops0_3, ops0_4, ops1_0, ops1_1, ops1_2, ops1_3, ops1_4, ops2_0, ops2_1, ops2_2, ops2_3, ops2_4, ops3_0, ops3_1, ops3_2, after_cons, after_nil,
    nullary_result_ne', unary_result_ne', binary_result_ne', ternary_result_ne', reshape_result_ne']

end Cert.ReferenceIdeal.Run

end
-- ==== Proof.Bridge.lean ====
/-
  The two programs' host arithmetic is one pair of functions: the conditioning rows and the neighbour aggregation are
  spelt operation for operation alike in both, over shape records with the same fields.
-/
import proofs.«144638_j87729001988302_1_alg».proof.Proof.KHost
import proofs.«144638_j87729001988302_1_alg».proof.Proof.RefHost

noncomputable section

namespace Cert.Bridge

open Idealize.ShloMosaic

variable [hK : Cert.KernelIdeal.Facts] [hR : Cert.ReferenceIdeal.Facts]

theorem gatherStats_eq : Cert.KernelIdeal.gather_S64x7_S100000x1_S100000x7_1_0_n_n_0_1_17 = Cert.ReferenceIdeal.gather_S64x7_S100000x1_S100000x7_1_0_n_n_0_1_17 := rfl
theorem gatherRows_eq : Cert.KernelIdeal.gather_S100000x128_S1600000x1_S1600000x128_1_0_n_n_0_1_1128 = Cert.ReferenceIdeal.gather_S100000x128_S1600000x1_S1600000x128_1_0_n_n_0_1_1128 := rfl
theorem scatterRows_eq : Cert.KernelIdeal.scatter_S100000x128_S1600000x1_S1600000x128_1_0_0_1 = Cert.ReferenceIdeal.scatter_S100000x128_S1600000x1_S1600000x128_1_0_0_1 := rfl

/-- The conditioning rows. -/
theorem nodeStats_eq (gs : FVec Ideal Cert.KernelIdeal.S64x7 .f32) (batch : IVec Cert.KernelIdeal.S100000 32) :
    Cert.KernelIdeal.Host.nodeStats gs batch = Cert.ReferenceIdeal.Host.nodeStats gs batch := by
  unfold Cert.KernelIdeal.Host.nodeStats Cert.ReferenceIdeal.Host.nodeStats
  rw [gatherStats_eq]
  rfl

/-- The neighbour aggregation. -/
theorem aggregate_eq (h : FVec Ideal Cert.KernelIdeal.S100000x128 .f32) (e : IVec Cert.KernelIdeal.S2x1600000 32) :
    Cert.KernelIdeal.Host.aggregate h e = Cert.ReferenceIdeal.Host.aggregate h e := by
  unfold Cert.KernelIdeal.Host.aggregate Cert.ReferenceIdeal.Host.aggregate
  rw [gatherRows_eq, scatterRows_eq]
  rfl

end Cert.Bridge

end
-- ==== Proof.PreDomain.lean ====
/-
  What the precondition says of the variances: every entry of `bn_vars` plus `eps` is positive.

  The precondition is a conjunction of `all`-reductions; its last conjunct is `all (bn_vars + eps > 0)`. A conjunction of
  one-bit words that is 1 has every conjunct 1, an `all` that is 1 has a 1 at every index, and the comparison bit at an
  index is 1 exactly when `0 < var + eps` there (the word of `0.0` read as the extended real `0`).
-/
import proofs.«144638_j87729001988302_1_alg».proof.Pre_finite_inputs
import proofs.«144638_j87729001988302_1_alg».proof.Proof.Spec
import proofs.«144638_j87729001988302_1_alg».proof.Proof.LibBroadcasts
import Idealize.ShloMosaic.Lib.ReduceAll
import Idealize.ShloMosaic.Lib.ValueIdx
import Idealize.ShloMosaic.PureOps.Ideal.Laws

noncomputable section

namespace Cert.Pre_finite_inputs.Domain

open Idealize.ShloMosaic Cert.Pre_finite_inputs

variable [Facts]
open Facts

/-- The scalar shape has one index. -/
instance : Subsingleton S_.Idx := ⟨fun a b => funext fun d => d.elim0⟩

/-- Under the precondition, `var + eps` is positive at every entry of the variance array. -/
theorem var_eps_pos (a0 : FVec Ideal S100000x128 .f32) (a1 : IVec S2x1600000 32) (a2 : IVec S100000 32)
    (a3 : FVec Ideal S64x7 .f32) (a4 : FVec Ideal S3x128x128 .f32) (a5 a6 a7 a8 a9 : FVec Ideal S3x128 .f32)
    (a10 : FVec Ideal S3x128x128 .f32) (a11 : FVec Ideal S3x128 .f32) (a12 : FVec Ideal S3x7x128 .f32)
    (a13 : FVec Ideal S3x128 .f32) (a14 : FVec Ideal S128x128 .f32) (a15 : FVec Ideal S128 .f32)
    (h : fn (F := Ideal) a0 a1 a2 a3 a4 a5 a6 a7 a8 a9 a10 a11 a12 a13 a14 a15 = fun _ => 1#1) (i : S3x128.Idx) :
    0 < a9 i + Cert.Gin.eps := by
  have h0 := congrFun h ValueIdx.ix0
  dsimp only [fn, fn_part1, fn_part2, fn_part3, fn_part4] at h0
  have h1 := (IntOp.andi_eq_one.1 h0).2
  have h2 := Host.reduce_andi_all _ _ _ _ _ h1 i
  have h3 : Ideal.cmp .ogt (a9 i + Cert.Gin.eps) (Ideal.ofBits .f32 0x00000000#32) = 1#1 := by
    rw [← h2]
    show _ = FloatOps.cmpf .ogt (a9 i + broadcastInDim S3x128 ![] bcast_S_S3x128 (constant (F := Ideal) S_ .f32 0x3727C5AC#32) i)
      (broadcastInDim S3x128 ![] bcast_S_S3x128 (constant (F := Ideal) S_ .f32 0x00000000#32) i)
    rw [Cert.LibBroadcasts.scalar_apply, Cert.LibBroadcasts.scalar_apply]
    rfl
  rw [Ideal.ofBits_zero_f32] at h3
  unfold Ideal.cmp at h3
  have hb : ∀ b : Bool, BitVec.ofBool b = 1#1 → b = true := fun b => by cases b <;> decide
  exact of_decide_eq_true (hb _ h3)

end Cert.Pre_finite_inputs.Domain

end
-- ==== Proof.lean ====
/-
  The certificate of a three-layer graph-isomorphism network on 100000 nodes with 128 features: a tiled kernel program
  (one fused dense kernel per layer, 20 row blocks of 5000 nodes each, the neighbour aggregation left to the host)
  against the plain reference, equal as extended reals.

  Per layer and per node row the two programs compute  lrelu ((h + a)·W1 + b1),  its evaluated batch normalisation,
  lrelu (·W2 + b2)  and the conditioning term  s·SW + sb  added on; the kernel multiplies by  gamma * rsqrt (var + eps)
  and adds the conditioning term as one summand, the reference divides by  sqrt (var + eps)  and adds the product and the
  bias one after the other. On the extended reals  g * rsqrt y = g / sqrt y  for every g once y > 0 — the precondition
  says  var + eps > 0  at every entry — and addition is associative, so each layer is one function of its inputs
  (Proof/Spec.lean, Proof/SpecArr.lean). The neighbour aggregation and the per-node conditioning rows are the same host
  functions of the same arrays in both programs and are never opened (Proof/Bridge.lean).

  The kernel program's result: its run ends with the result buffer at the last region's written-back array
  (Proof/KRun.lean); each region's array is, row by row, the layer's row function of the arrays the region is entered
  with (Proof/KBody.lean: the body's block at an entry; Proof/KRegion0/1/2.lean: every row lies in the block of the grid
  point  row / 5000), and those arrays are the previous layer's array, its aggregation, the conditioning rows and the
  layer's slices of the stacked parameters (Proof/KEntry.lean); composed in Proof/KValue.lean. The reference's result:
  its run (Proof/RefRun.lean), the operations' composed term read back (Proof/RefOut.lean, Proof/RefArgs.lean) as three
  dense layers and the output projection (Proof/RefDense.lean, Proof/RefValue.lean). The frames of the two kernel
  programs are the generated ones; the reference's frame is its run with the result dropped.
-/
import proofs.«144638_j87729001988302_1_alg».proof.Defs
import proofs.«144638_j87729001988302_1_alg».proof.Proof.Gen.Kernel
import proofs.«144638_j87729001988302_1_alg».proof.Proof.Gen.Kernel.Frame
import proofs.«144638_j87729001988302_1_alg».proof.Proof.Gen.KernelIdeal
import proofs.«144638_j87729001988302_1_alg».proof.Proof.Gen.KernelIdeal.Frame
import proofs.«144638_j87729001988302_1_alg».proof.Proof.Gen.ReferenceIdeal
import proofs.«144638_j87729001988302_1_alg».proof.Proof.Gen.Pre_finite_inputs
import proofs.«144638_j87729001988302_1_alg».proof.Proof.KValue
import proofs.«144638_j87729001988302_1_alg».proof.Proof.RefRun
import proofs.«144638_j87729001988302_1_alg».proof.Proof.RefOut
import proofs.«144638_j87729001988302_1_alg».proof.Proof.RefArgs
import proofs.«144638_j87729001988302_1_alg».proof.Proof.RefValue
import proofs.«144638_j87729001988302_1_alg».proof.Proof.Bridge
import proofs.«144638_j87729001988302_1_alg».proof.Proof.PreDomain
import Idealize.ShloMosaic.Adequacy
import Idealize.ShloMosaic.Init

noncomputable section

namespace Cert.Proof

open Idealize.ShloMosaic Idealize.ShloMosaic.ValueIdx Idealize.SL.Sem

attribute [local instance] Cert.Kernel.Gen.facts Cert.KernelIdeal.Gen.facts Cert.ReferenceIdeal.Gen.facts Cert.Pre_finite_inputs.Gen.facts

/-- Where `var + eps` is positive everywhere, the kernel program's composition of layers is the reference's. -/
theorem kOut_eq_refOut (x : Cert.Gin.Arr) (e : IVec Cert.KernelIdeal.S2x1600000 32) (batch : IVec Cert.KernelIdeal.S100000 32)
    (gs : FVec Ideal Cert.KernelIdeal.S64x7 .f32) (W1s : FVec Ideal Cert.KernelIdeal.S3x128x128 .f32)
    (b1s gam bet mea var : FVec Ideal Cert.KernelIdeal.S3x128 .f32) (W2s : FVec Ideal Cert.KernelIdeal.S3x128x128 .f32)
    (b2s : FVec Ideal Cert.KernelIdeal.S3x128 .f32) (sWs : FVec Ideal Cert.KernelIdeal.S3x7x128 .f32)
    (sBs : FVec Ideal Cert.KernelIdeal.S3x128 .f32) (fcW : FVec Ideal Cert.KernelIdeal.S128x128 .f32)
    (fcB : FVec Ideal Cert.KernelIdeal.S128 .f32) (hpos : ∀ i, 0 < var i + Cert.Gin.eps) :
    Cert.ReferenceIdeal.Value0.refOut x e batch gs W1s b1s gam bet mea var W2s b2s sWs sBs fcW fcB
      = Cert.KernelIdeal.Value0.kOut x e batch gs W1s b1s gam bet mea var W2s b2s sWs sBs fcW fcB := by
  have h0 := Cert.Gin.layerK_eq_layerR (Cert.Gin.argParams 0 W1s b1s gam bet mea var W2s b2s sWs sBs) (fun c => hpos (ix2 0 c))
  have h1 := Cert.Gin.layerK_eq_layerR (Cert.Gin.argParams 1 W1s b1s gam bet mea var W2s b2s sWs sBs) (fun c => hpos (ix2 1 c))
  have h2 := Cert.Gin.layerK_eq_layerR (Cert.Gin.argParams 2 W1s b1s gam bet mea var W2s b2s sWs sBs) (fun c => hpos (ix2 2 c))
  refine (Cert.ReferenceIdeal.Value0.refOut_eq x e batch gs W1s b1s gam bet mea var W2s b2s sWs sBs fcW fcB).trans ?_
  unfold Cert.KernelIdeal.Value0.kOut Cert.KernelIdeal.Value0.kLayer
  rw [h0, h1, h2]
  simp only [Cert.Bridge.aggregate_eq, Cert.Bridge.nodeStats_eq]

theorem frame_k : Cert.frame_Kernel := fun m ρ _ => Cert.Kernel.Gen.frame m ρ
theorem frame_ki : Cert.frame_KernelIdeal := fun m ρ _ => Cert.KernelIdeal.Gen.frame m ρ

/-- The reference's frame: its run, the result dropped. -/
theorem frame_ri : Cert.frame_ReferenceIdeal := fun m ρ _ =>
  (θ_run (Cert.ReferenceIdeal.defs (F := Ideal)) _ _).mono (fun _ h c =>
    ⟨(h c _).trans (Cert.ReferenceIdeal.Run.arg0_eq _),
     (h c _).trans (Cert.ReferenceIdeal.Run.arg1_eq _),
     (h c _).trans (Cert.ReferenceIdeal.Run.arg2_eq _),
     (h c _).trans (Cert.ReferenceIdeal.Run.arg3_eq _),
     (h c _).trans (Cert.ReferenceIdeal.Run.arg4_eq _),
     (h c _).trans (Cert.ReferenceIdeal.Run.arg5_eq _),
     (h c _).trans (Cert.ReferenceIdeal.Run.arg6_eq _),
     (h c _).trans (Cert.ReferenceIdeal.Run.arg7_eq _),
     (h c _).trans (Cert.ReferenceIdeal.Run.arg8_eq _),
     (h c _).trans (Cert.ReferenceIdeal.Run.arg9_eq _),
     (h c _).trans (Cert.ReferenceIdeal.Run.arg10_eq _),
     (h c _).trans (Cert.ReferenceIdeal.Run.arg11_eq _),
     (h c _).trans (Cert.ReferenceIdeal.Run.arg12_eq _),
     (h c _).trans (Cert.ReferenceIdeal.Run.arg13_eq _),
     (h c _).trans (Cert.ReferenceIdeal.Run.arg14_eq _),
     (h c _).trans (Cert.ReferenceIdeal.Run.arg15_eq _)⟩)
    (Cert.ReferenceIdeal.Run.run_main (F := Ideal) m ρ)

theorem preserves : Cert.preserves_Kernel_KernelIdeal := trivial

/-- Both programs run; the reference's result is the kernel program's: the composed layers agree under the
    precondition's `var + eps > 0`. -/
theorem algebraic : Cert.algebraic_KernelIdeal_ReferenceIdeal := by
  intro m ρ m' ρ' hpre hagree
  refine ⟨fun c => Cert.KernelIdeal.Value0.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Value0.run m ρ, ?_⟩
  refine (θ_run (Cert.ReferenceIdeal.defs (F := Ideal)) _ _).mono (fun r h c => ?_) (Cert.ReferenceIdeal.Run.run_main (F := Ideal) m' ρ')
  obtain ⟨e0, e1, e2, e3, e4, e5, e6, e7, e8, e9, e10, e11, e12, e13, e14, e15⟩ := hagree c
  refine ⟨?_, (h c _).trans (Cert.ReferenceIdeal.Run.arg0_eq _),
    (h c _).trans (Cert.ReferenceIdeal.Run.arg1_eq _),
    (h c _).trans (Cert.ReferenceIdeal.Run.arg2_eq _),
    (h c _).trans (Cert.ReferenceIdeal.Run.arg3_eq _),
    (h c _).trans (Cert.ReferenceIdeal.Run.arg4_eq _),
    (h c _).trans (Cert.ReferenceIdeal.Run.arg5_eq _),
    (h c _).trans (Cert.ReferenceIdeal.Run.arg6_eq _),
    (h c _).trans (Cert.ReferenceIdeal.Run.arg7_eq _),
    (h c _).trans (Cert.ReferenceIdeal.Run.arg8_eq _),
    (h c _).trans (Cert.ReferenceIdeal.Run.arg9_eq _),
    (h c _).trans (Cert.ReferenceIdeal.Run.arg10_eq _),
    (h c _).trans (Cert.ReferenceIdeal.Run.arg11_eq _),
    (h c _).trans (Cert.ReferenceIdeal.Run.arg12_eq _),
    (h c _).trans (Cert.ReferenceIdeal.Run.arg13_eq _),
    (h c _).trans (Cert.ReferenceIdeal.Run.arg14_eq _),
    (h c _).trans (Cert.ReferenceIdeal.Run.arg15_eq _)⟩
  refine (h c Cert.ReferenceIdeal.main_v192).trans ((Cert.ReferenceIdeal.Run.out_eq _).trans ?_)
  show Cert.ReferenceIdeal.Value0.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
  rw [e0, e1, e2, e3, e4, e5, e6, e7, e8, e9, e10, e11, e12, e13, e14, e15]
  exact kOut_eq_refOut _ _ _ _ _ _ _ _ _ _ _ _ _ _ _ _
    (Cert.Pre_finite_inputs.Domain.var_eps_pos _ _ _ _ _ _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
